-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x64 : Shape := ⟨2, ![150000, 64]⟩
abbrev S3x64x64 : Shape := ⟨3, ![3, 64, 64]⟩
abbrev S1000000 : Shape := ⟨1, ![1000000]⟩
abbrev S2x16384 : Shape := ⟨2, ![2, 16384]⟩
abbrev S_ : Shape := ⟨0, ![]⟩

class Facts : Prop where
  bcast_S_S150000x64 : S_.BroadcastsInDim S150000x64 (![] : Fin 0 → Fin S150000x64.rank)
  reducesTo_S150000x64_S_d0_1 : S150000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_

variable [Facts]

def fn {F : FTy → Type} [FloatOps F] (main_arg0 : FVec F S150000x64 .f32) (main_arg1 : FVec F S3x64x64 .f32) (main_arg2 : FVec F S3x64x64 .f32) (main_arg3 : IVec S1000000 32) (main_arg4 : IVec S1000000 32) (main_arg5 : IVec S2x16384 32) : IVec S_ 1 :=
  let main_v0 : FVec F S150000x64 .f32 := Host.absf main_arg0
  let main_cst : FVec F S_ .f32 := constant S_ .f32 0x7F800000#32
  let main_v1 : FVec F S150000x64 .f32 := broadcastInDim S150000x64 ![] bcast_S_S150000x64 main_cst
  let main_v2 : IVec S150000x64 1 := cmpf .olt main_v0 main_v1
  let main_c : IVec S_ 1 := constantI S_ 1 1#1
  let main_v3 : IVec S_ 1 := (fun x v => Host.reduce IntOp.andi x v reducesTo_S150000x64_S_d0_1 h_S_) main_v2 main_c
  let main_v4 : FVec F S3x64x64 .f32 := Host.absf main_arg1
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64x64 .f32 := Host.absf main_arg2
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  main_v13
-- ==== Kernel.lean ====
abbrev S150000x64 : Shape := ⟨2, ![150000, 64]⟩
abbrev S3x64x64 : Shape := ⟨3, ![3, 64, 64]⟩
abbrev S1000000 : Shape := ⟨1, ![1000000]⟩
abbrev S2x16384 : Shape := ⟨2, ![2, 16384]⟩
abbrev S_ : Shape := ⟨0, ![]⟩
abbrev S150000 : Shape := ⟨1, ![150000]⟩
abbrev S1000000x1 : Shape := ⟨2, ![1000000, 1]⟩
abbrev S1x64x64 : Shape := ⟨3, ![1, 64, 64]⟩
abbrev S64x64 : Shape := ⟨2, ![64, 64]⟩
abbrev S5000x64 : Shape := ⟨2, ![5000, 64]⟩
abbrev S1000000x64 : Shape := ⟨2, ![1000000, 64]⟩
abbrev S150000x256 : Shape := ⟨2, ![150000, 256]⟩
abbrev S1x16384 : Shape := ⟨2, ![1, 16384]⟩
abbrev S16384 : Shape := ⟨1, ![16384]⟩
abbrev S16384x1 : Shape := ⟨2, ![16384, 1]⟩
abbrev S16384x256 : Shape := ⟨2, ![16384, 256]⟩

abbrev nBuf : Space → Nat
  | .hbm => 147
  | .vmem => 28
  | .smem => 0
  | _ => 0

abbrev hbmTy0_0 (i : Nat) : BufTy := match i % 128 with
  | 0 => ⟨S150000x64, .f32⟩
  | 1 => ⟨S3x64x64, .f32⟩
  | 2 => ⟨S3x64x64, .f32⟩
  | 3 => ⟨S1000000, .i32⟩
  | 4 => ⟨S1000000, .i32⟩
  | 5 => ⟨S2x16384, .i32⟩
  | 6 => ⟨S_, .f32⟩
  | 7 => ⟨S1000000, .f32⟩
  | 8 => ⟨S_, .f32⟩
  | 9 => ⟨S150000, .f32⟩
  | 10 => ⟨S1000000x1, .i32⟩
  | 11 => ⟨S150000, .f32⟩
  | 12 => ⟨S_, .f32⟩
  | 13 => ⟨S150000, .f32⟩
  | 14 => ⟨S150000, .i1⟩
  | 15 => ⟨S_, .f32⟩
  | 16 => ⟨S150000, .f32⟩
  | 17 => ⟨S150000, .f32⟩
  | 18 => ⟨S150000, .f32⟩
  | 19 => ⟨S_, .f32⟩
  | 20 => ⟨S_, .f32⟩
  | 21 => ⟨S150000, .f32⟩
  | 22 => ⟨S150000, .f32⟩
  | 23 => ⟨S_, .i32⟩
  | 24 => ⟨S1000000, .i32⟩
  | 25 => ⟨S1000000, .i1⟩
  | 26 => ⟨S_, .i32⟩
  | 27 => ⟨S1000000, .i32⟩
  | 28 => ⟨S1000000, .i32⟩
  | 29 => ⟨S1000000, .i32⟩
  | 30 => ⟨S1000000x1, .i32⟩
  | 31 => ⟨S1000000, .f32⟩
  | 32 => ⟨S_, .i32⟩
  | 33 => ⟨S1000000, .i32⟩
  | 34 => ⟨S1000000, .i1⟩
  | 35 => ⟨S_, .i32⟩
  | 36 => ⟨S1000000, .i32⟩
  | 37 => ⟨S1000000, .i32⟩
  | 38 => ⟨S1000000, .i32⟩
  | 39 => ⟨S1000000x1, .i32⟩
  | 40 => ⟨S1000000, .f32⟩
  | 41 => ⟨S1000000, .f32⟩
  | 42 => ⟨S1x64x64, .f32⟩
  | 43 => ⟨S64x64, .f32⟩
  | 44 => ⟨S64x64, .f32⟩
  | 45 => ⟨S64x64, .bf16⟩
  | 46 => ⟨S1x64x64, .f32⟩
  | 47 => ⟨S64x64, .f32⟩
  | 48 => ⟨S64x64, .f32⟩
  | 49 => ⟨S64x64, .bf16⟩
  | 50 => ⟨S150000x64, .f32⟩
  | 51 => ⟨S150000x64, .f32⟩
  | 52 => ⟨S_, .i32⟩
  | 53 => ⟨S1000000, .i32⟩
  | 54 => ⟨S1000000, .i1⟩
  | 55 => ⟨S_, .i32⟩
  | 56 => ⟨S1000000, .i32⟩
  | 57 => ⟨S1000000, .i32⟩
  | 58 => ⟨S1000000, .i32⟩
  | 59 => ⟨S1000000x1, .i32⟩
  | 60 => ⟨S1000000x64, .f32⟩
  | 61 => ⟨S1000000x1, .f32⟩
  | 62 => ⟨S1000000x64, .f32⟩
  | 63 => ⟨S1000000x64, .f32⟩
  | 64 => ⟨S_, .f32⟩
  | 65 => ⟨S150000x64, .f32⟩
  | 66 => ⟨S1000000x1, .i32⟩
  | 67 => ⟨S150000x64, .f32⟩
  | 68 => ⟨S1x64x64, .f32⟩
  | 69 => ⟨S64x64, .f32⟩
  | 70 => ⟨S64x64, .f32⟩
  | 71 => ⟨S64x64, .bf16⟩
  | 72 => ⟨S1x64x64, .f32⟩
  | 73 => ⟨S64x64, .f32⟩
  | 74 => ⟨S64x64, .f32⟩
  | 75 => ⟨S64x64, .bf16⟩
  | 76 => ⟨S150000x64, .f32⟩
  | 77 => ⟨S150000x64, .f32⟩
  | 78 => ⟨S_, .i32⟩
  | 79 => ⟨S1000000, .i32⟩
  | 80 => ⟨S1000000, .i1⟩
  | 81 => ⟨S_, .i32⟩
  | 82 => ⟨S1000000, .i32⟩
  | 83 => ⟨S1000000, .i32⟩
  | 84 => ⟨S1000000, .i32⟩
  | 85 => ⟨S1000000x1, .i32⟩
  | 86 => ⟨S1000000x64, .f32⟩
  | 87 => ⟨S1000000x1, .f32⟩
  | 88 => ⟨S1000000x64, .f32⟩
  | 89 => ⟨S1000000x64, .f32⟩
  | 90 => ⟨S_, .f32⟩
  | 91 => ⟨S150000x64, .f32⟩
  | 92 => ⟨S1000000x1, .i32⟩
  | 93 => ⟨S150000x64, .f32⟩
  | 94 => ⟨S1x64x64, .f32⟩
  | 95 => ⟨S64x64, .f32⟩
  | 96 => ⟨S64x64, .f32⟩
  | 97 => ⟨S64x64, .bf16⟩
  | 98 => ⟨S1x64x64, .f32⟩
  | 99 => ⟨S64x64, .f32⟩
  | 100 => ⟨S64x64, .f32⟩
  | 101 => ⟨S64x64, .bf16⟩
  | 102 => ⟨S150000x64, .f32⟩
  | 103 => ⟨S150000x64, .f32⟩
  | 104 => ⟨S_, .i32⟩
  | 105 => ⟨S1000000, .i32⟩
  | 106 => ⟨S1000000, .i1⟩
  | 107 => ⟨S_, .i32⟩
  | 108 => ⟨S1000000, .i32⟩
  | 109 => ⟨S1000000, .i32⟩
  | 110 => ⟨S1000000, .i32⟩
  | 111 => ⟨S1000000x1, .i32⟩
  | 112 => ⟨S1000000x64, .f32⟩
  | 113 => ⟨S1000000x1, .f32⟩
  | 114 => ⟨S1000000x64, .f32⟩
  | 115 => ⟨S1000000x64, .f32⟩
  | 116 => ⟨S_, .f32⟩
  | 117 => ⟨S150000x64, .f32⟩
  | 118 => ⟨S1000000x1, .i32⟩
  | 119 => ⟨S150000x64, .f32⟩
  | 120 => ⟨S150000x64, .f32⟩
  | 121 => ⟨S150000x256, .f32⟩
  | 122 => ⟨S1x16384, .i32⟩
  | 123 => ⟨S16384, .i32⟩
  | 124 => ⟨S_, .i32⟩
  | 125 => ⟨S16384, .i32⟩
  | 126 => ⟨S16384, .i1⟩
  | 127 => ⟨S_, .i32⟩
  | _ => ⟨S150000x64, .f32⟩

abbrev hbmTy0_1 (i : Nat) : BufTy := match i % 128 with
  | 0 => ⟨S16384, .i32⟩
  | 1 => ⟨S16384, .i32⟩
  | 2 => ⟨S16384, .i32⟩
  | 3 => ⟨S16384x1, .i32⟩
  | 4 => ⟨S16384x256, .f32⟩
  | 5 => ⟨S1x16384, .i32⟩
  | 6 => ⟨S16384, .i32⟩
  | 7 => ⟨S_, .i32⟩
  | 8 => ⟨S16384, .i32⟩
  | 9 => ⟨S16384, .i1⟩
  | 10 => ⟨S_, .i32⟩
  | 11 => ⟨S16384, .i32⟩
  | 12 => ⟨S16384, .i32⟩
  | 13 => ⟨S16384, .i32⟩
  | 14 => ⟨S16384x1, .i32⟩
  | 15 => ⟨S16384x256, .f32⟩
  | 16 => ⟨S16384x256, .f32⟩
  | 17 => ⟨S_, .f32⟩
  | 18 => ⟨S16384, .f32⟩
  | _ => ⟨S150000x64, .f32⟩

abbrev hbmTy (i : Nat) : BufTy := match i / 128 with
  | 0 => hbmTy0_0 i
  | 1 => hbmTy0_1 i
  | _ => ⟨S150000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .bf16⟩
  | .local _ .vmem, ⟨3, _⟩ => ⟨S64x64, .bf16⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .bf16⟩
  | .local _ .vmem, ⟨11, _⟩ => ⟨S64x64, .bf16⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .bf16⟩
  | .local _ .vmem, ⟨19, _⟩ => ⟨S64x64, .bf16⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | _, _ => ⟨S150000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_5 : Ref sig .tc := ⟨.hbm, 32, rfl⟩
abbrev main_v17 : Ref sig .tc := ⟨.hbm, 33, rfl⟩
abbrev main_v18 : Ref sig .tc := ⟨.hbm, 34, rfl⟩
abbrev main_c_6 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33_0 : Ref sig .tc := ⟨.hbm, 50, rfl⟩
abbrev main_v33_1 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55_0 : Ref sig .tc := ⟨.hbm, 76, rfl⟩
abbrev main_v55_1 : Ref sig .tc := ⟨.hbm, 77, rfl⟩
abbrev main_c_10 : Ref sig .tc := ⟨.hbm, 78, rfl⟩
abbrev main_v56 : Ref sig .tc := ⟨.hbm, 79, rfl⟩
abbrev main_v57 : Ref sig .tc := ⟨.hbm, 80, rfl⟩
abbrev main_c_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_12 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77_0 : Ref sig .tc := ⟨.hbm, 102, rfl⟩
abbrev main_v77_1 : Ref sig .tc := ⟨.hbm, 103, rfl⟩
abbrev main_c_13 : Ref sig .tc := ⟨.hbm, 104, rfl⟩
abbrev main_v78 : Ref sig .tc := ⟨.hbm, 105, rfl⟩
abbrev main_v79 : Ref sig .tc := ⟨.hbm, 106, rfl⟩
abbrev main_c_14 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_15 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_c_16 : Ref sig .tc := ⟨.hbm, 124, rfl⟩
abbrev main_v95 : Ref sig .tc := ⟨.hbm, 125, rfl⟩
abbrev main_v96 : Ref sig .tc := ⟨.hbm, 126, rfl⟩
abbrev main_c_17 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_c_18 : Ref sig .tc := ⟨.hbm, 135, rfl⟩
abbrev main_v104 : Ref sig .tc := ⟨.hbm, 136, rfl⟩
abbrev main_v105 : Ref sig .tc := ⟨.hbm, 137, rfl⟩
abbrev main_c_19 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_20 : Ref sig .tc := ⟨.hbm, 145, rfl⟩
abbrev main_v112 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![30], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![30], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

class Facts₀ : Prop where
  bcast_S_S1000000 : S_.BroadcastsInDim S1000000 (![] : Fin 0 → Fin S1000000.rank)
  bcast_S_S150000 : S_.BroadcastsInDim S150000 (![] : Fin 0 → Fin S150000.rank)
  bcast_S1000000_S1000000x1_0 : S1000000.BroadcastsInDim S1000000x1 (![0] : Fin 1 → Fin S1000000x1.rank)
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  bitsLt_bf16_f32 : FTy.bits .bf16 < FTy.bits .f32
  inb_S5000x64_S5000x64_0_0 : ∀ a, (![0, 0] : Fin 2 → Nat) a + S5000x64.size a ≤ S5000x64.size a
  h_S5000x64 : 0 < S5000x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S1000000x1_S1000000x64_0_1 : S1000000x1.BroadcastsInDim S1000000x64 (![0, 1] : Fin 2 → Fin S1000000x64.rank)
  bcast_S_S150000x64 : S_.BroadcastsInDim S150000x64 (![] : Fin 0 → Fin S150000x64.rank)
  slices_S3x64x64_S1x64x64_1_0_0 : S3x64x64.Slices ![1, 0, 0] S1x64x64
  shapeCasts_S5000x64_S5000x64 : S5000x64.ShapeCasts S5000x64
  slices_S3x64x64_S1x64x64_2_0_0 : S3x64x64.Slices ![2, 0, 0] S1x64x64
  concatenates_S150000x64_S150000x64_S150000x64_S150000x64_S150000x256_d1 : Shape.Concatenates [S150000x64, S150000x64, S150000x64, S150000x64] S150000x256 1
  slices_S2x16384_S1x16384_0_0 : S2x16384.Slices ![0, 0] S1x16384
  shapeCasts_S1x16384_S16384 : S1x16384.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  slices_S2x16384_S1x16384_1_0 : S2x16384.Slices ![1, 0] S1x16384
  reducesTo_S16384x256_S16384_d1 : S16384x256.ReducesTo [1] S16384
  h_S_ : 0 < S_.numel
  scatter_S150000_S1000000x1_S1000000_n_0_0_1_wf : ScatterDims.WF S150000 S1000000x1 S1000000 [] [0] [0] 1
  gather_S150000_S1000000x1_S1000000_n_0_n_n_0_1_1_wf : GatherDims.WF S150000 S1000000x1 S1000000 [] [0] [] [0] [] 1 ![1]
  dot_S5000x64_S64x64_S5000x64_1_0_0_1_n_n_wf : DotDims.WF S5000x64 S64x64 S5000x64 [1] [0] [0] [1] [] []
  gather_S150000x64_S1000000x1_S1000000x64_1_0_n_n_0_1_164_wf : GatherDims.WF S150000x64 S1000000x1 S1000000x64 [1] [0] [] [0] [] 1 ![1, 64]
  scatter_S150000x64_S1000000x1_S1000000x64_1_0_0_1_wf : ScatterDims.WF S150000x64 S1000000x1 S1000000x64 [1] [0] [0] 1
  gather_S150000x256_S16384x1_S16384x256_1_0_n_n_0_1_1256_wf : GatherDims.WF S150000x256 S16384x1 S16384x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S150000x64.size a
  hwx0_0 : ∀ i : grid0.Coords, EltTy.bits .f32 = 32 ∨ (Rect.block (s := S150000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .bf16 = 32 ∨ (Rect.block (s := S64x64) S64x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S150000x64.size a
  hwx0_3 : ∀ i : grid0.Coords, EltTy.bits .f32 = 32 ∨ (Rect.block (s := S150000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S150000x64.size a
  hwx0_4 : ∀ i : grid0.Coords, EltTy.bits .f32 = 32 ∨ (Rect.block (s := S150000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S150000x64.size a
  hwx1_0 : ∀ i : grid1.Coords, EltTy.bits .f32 = 32 ∨ (Rect.block (s := S150000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .bf16 = 32 ∨ (Rect.block (s := S64x64) S64x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .bf16 = 32 ∨ (Rect.block (s := S64x64) S64x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S150000x64.size a
  hwx1_3 : ∀ i : grid1.Coords, EltTy.bits .f32 = 32 ∨ (Rect.block (s := S150000x64) S5000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S150000x64.size a
  hwx1_4 : ∀ i : grid1.Coords, EltTy.bits .f32 = 32 ∨ (Rect.block (s := S150000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S150000x64.size a
  hwx2_0 : ∀ i : grid2.Coords, EltTy.bits .f32 = 32 ∨ (Rect.block (s := S150000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .bf16 = 32 ∨ (Rect.block (s := S64x64) S64x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .bf16 = 32 ∨ (Rect.block (s := S64x64) S64x64.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S150000x64.size a
  hwx2_3 : ∀ i : grid2.Coords, EltTy.bits .f32 = 32 ∨ (Rect.block (s := S150000x64) S5000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S150000x64.size a
  hwx2_4 : ∀ i : grid2.Coords, EltTy.bits .f32 = 32 ∨ (Rect.block (s := S150000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S150000x64.size a
  hwx3_0 : ∀ i : grid3.Coords, EltTy.bits .f32 = 32 ∨ (Rect.block (s := S150000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S150000x64.size a
  hwx3_1 : ∀ i : grid3.Coords, EltTy.bits .f32 = 32 ∨ (Rect.block (s := S150000x64) S5000x64.size (cc3_transform_1 i) (hinb3_1 i)).WholeWords (EltTy.packing .f32)

variable [Facts₀]

def scatter_S150000_S1000000x1_S1000000_n_0_0_1 : ScatterDims S150000 S1000000x1 S1000000 where
  updateWindowDims := []
  insertedWindowDims := [0]
  scatterDimsToOperandDims := [0]
  indexVectorDim := 1
  wf := scatter_S150000_S1000000x1_S1000000_n_0_0_1_wf
def gather_S150000_S1000000x1_S1000000_n_0_n_n_0_1_1 : GatherDims S150000 S1000000x1 S1000000 where
  offsetDims := []
  collapsedSliceDims := [0]
  operandBatchingDims := []
  startIndicesBatchingDims := []
  startIndexMap := [0]
  indexVectorDim := 1
  sliceSizes := ![1]
  wf := gather_S150000_S1000000x1_S1000000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S150000x64_S1000000x1_S1000000x64_1_0_n_n_0_1_164 : GatherDims S150000x64 S1000000x1 S1000000x64 where
  offsetDims := [1]
  collapsedSliceDims := [0]
  operandBatchingDims := []
  startIndicesBatchingDims := []
  startIndexMap := [0]
  indexVectorDim := 1
  sliceSizes := ![1, 64]
  wf := gather_S150000x64_S1000000x1_S1000000x64_1_0_n_n_0_1_164_wf
def scatter_S150000x64_S1000000x1_S1000000x64_1_0_0_1 : ScatterDims S150000x64 S1000000x1 S1000000x64 where
  updateWindowDims := [1]
  insertedWindowDims := [0]
  scatterDimsToOperandDims := [0]
  indexVectorDim := 1
  wf := scatter_S150000x64_S1000000x1_S1000000x64_1_0_0_1_wf
def gather_S150000x256_S16384x1_S16384x256_1_0_n_n_0_1_1256 : GatherDims S150000x256 S16384x1 S16384x256 where
  offsetDims := [1]
  collapsedSliceDims := [0]
  operandBatchingDims := []
  startIndicesBatchingDims := []
  startIndexMap := [0]
  indexVectorDim := 1
  sliceSizes := ![1, 256]
  wf := gather_S150000x256_S16384x1_S16384x256_1_0_n_n_0_1_1256_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33_0) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v33_1) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v46) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55_0) S5000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v55_1) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v68) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v72) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v76) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v77_0) S5000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v77_1) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v90) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v91) S5000x64.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S150000x64 : Shape := ⟨2, ![150000, 64]⟩
abbrev S3x64x64 : Shape := ⟨3, ![3, 64, 64]⟩
abbrev S1000000 : Shape := ⟨1, ![1000000]⟩
abbrev S2x16384 : Shape := ⟨2, ![2, 16384]⟩
abbrev S_ : Shape := ⟨0, ![]⟩
abbrev S150000 : Shape := ⟨1, ![150000]⟩
abbrev S1000000x1 : Shape := ⟨2, ![1000000, 1]⟩
abbrev S1x64x64 : Shape := ⟨3, ![1, 64, 64]⟩
abbrev S64x64 : Shape := ⟨2, ![64, 64]⟩
abbrev S1000000x64 : Shape := ⟨2, ![1000000, 64]⟩
abbrev S150000x256 : Shape := ⟨2, ![150000, 256]⟩
abbrev S1x16384 : Shape := ⟨2, ![1, 16384]⟩
abbrev S16384 : Shape := ⟨1, ![16384]⟩
abbrev S16384x1 : Shape := ⟨2, ![16384, 1]⟩
abbrev S16384x256 : Shape := ⟨2, ![16384, 256]⟩

abbrev nBuf : Space → Nat
  | .hbm => 170
  | .vmem => 0
  | .smem => 0
  | _ => 0

abbrev hbmTy0_0 (i : Nat) : BufTy := match i % 128 with
  | 0 => ⟨S150000x64, .f32⟩
  | 1 => ⟨S3x64x64, .f32⟩
  | 2 => ⟨S3x64x64, .f32⟩
  | 3 => ⟨S1000000, .i32⟩
  | 4 => ⟨S1000000, .i32⟩
  | 5 => ⟨S2x16384, .i32⟩
  | 6 => ⟨S_, .f32⟩
  | 7 => ⟨S1000000, .f32⟩
  | 8 => ⟨S_, .f32⟩
  | 9 => ⟨S150000, .f32⟩
  | 10 => ⟨S1000000x1, .i32⟩
  | 11 => ⟨S150000, .f32⟩
  | 12 => ⟨S_, .f32⟩
  | 13 => ⟨S150000, .f32⟩
  | 14 => ⟨S150000, .i1⟩
  | 15 => ⟨S_, .f32⟩
  | 16 => ⟨S150000, .f32⟩
  | 17 => ⟨S150000, .f32⟩
  | 18 => ⟨S150000, .f32⟩
  | 19 => ⟨S_, .f32⟩
  | 20 => ⟨S_, .f32⟩
  | 21 => ⟨S150000, .f32⟩
  | 22 => ⟨S150000, .f32⟩
  | 23 => ⟨S_, .i32⟩
  | 24 => ⟨S1000000, .i32⟩
  | 25 => ⟨S1000000, .i1⟩
  | 26 => ⟨S_, .i32⟩
  | 27 => ⟨S1000000, .i32⟩
  | 28 => ⟨S1000000, .i32⟩
  | 29 => ⟨S1000000, .i32⟩
  | 30 => ⟨S1000000x1, .i32⟩
  | 31 => ⟨S1000000, .f32⟩
  | 32 => ⟨S_, .i32⟩
  | 33 => ⟨S1000000, .i32⟩
  | 34 => ⟨S1000000, .i1⟩
  | 35 => ⟨S_, .i32⟩
  | 36 => ⟨S1000000, .i32⟩
  | 37 => ⟨S1000000, .i32⟩
  | 38 => ⟨S1000000, .i32⟩
  | 39 => ⟨S1000000x1, .i32⟩
  | 40 => ⟨S1000000, .f32⟩
  | 41 => ⟨S1000000, .f32⟩
  | 42 => ⟨S1x64x64, .f32⟩
  | 43 => ⟨S64x64, .f32⟩
  | 44 => ⟨S64x64, .f32⟩
  | 45 => ⟨S150000x64, .f32⟩
  | 46 => ⟨S150000x64, .f32⟩
  | 47 => ⟨S1x64x64, .f32⟩
  | 48 => ⟨S64x64, .f32⟩
  | 49 => ⟨S64x64, .f32⟩
  | 50 => ⟨S150000x64, .f32⟩
  | 51 => ⟨S150000x64, .f32⟩
  | 52 => ⟨S1000000x1, .f32⟩
  | 53 => ⟨S_, .i32⟩
  | 54 => ⟨S1000000, .i32⟩
  | 55 => ⟨S1000000, .i1⟩
  | 56 => ⟨S_, .i32⟩
  | 57 => ⟨S1000000, .i32⟩
  | 58 => ⟨S1000000, .i32⟩
  | 59 => ⟨S1000000, .i32⟩
  | 60 => ⟨S1000000x1, .i32⟩
  | 61 => ⟨S1000000x64, .f32⟩
  | 62 => ⟨S1000000x64, .f32⟩
  | 63 => ⟨S1000000x64, .f32⟩
  | 64 => ⟨S_, .f32⟩
  | 65 => ⟨S150000x64, .f32⟩
  | 66 => ⟨S1000000x1, .i32⟩
  | 67 => ⟨S150000x64, .f32⟩
  | 68 => ⟨S_, .f32⟩
  | 69 => ⟨S_, .f32⟩
  | 70 => ⟨S150000x64, .f32⟩
  | 71 => ⟨S150000x64, .i1⟩
  | 72 => ⟨S_, .f32⟩
  | 73 => ⟨S150000x64, .f32⟩
  | 74 => ⟨S150000x64, .f32⟩
  | 75 => ⟨S150000x64, .f32⟩
  | 76 => ⟨S1x64x64, .f32⟩
  | 77 => ⟨S64x64, .f32⟩
  | 78 => ⟨S64x64, .f32⟩
  | 79 => ⟨S150000x64, .f32⟩
  | 80 => ⟨S150000x64, .f32⟩
  | 81 => ⟨S1x64x64, .f32⟩
  | 82 => ⟨S64x64, .f32⟩
  | 83 => ⟨S64x64, .f32⟩
  | 84 => ⟨S150000x64, .f32⟩
  | 85 => ⟨S150000x64, .f32⟩
  | 86 => ⟨S1000000x1, .f32⟩
  | 87 => ⟨S_, .i32⟩
  | 88 => ⟨S1000000, .i32⟩
  | 89 => ⟨S1000000, .i1⟩
  | 90 => ⟨S_, .i32⟩
  | 91 => ⟨S1000000, .i32⟩
  | 92 => ⟨S1000000, .i32⟩
  | 93 => ⟨S1000000, .i32⟩
  | 94 => ⟨S1000000x1, .i32⟩
  | 95 => ⟨S1000000x64, .f32⟩
  | 96 => ⟨S1000000x64, .f32⟩
  | 97 => ⟨S1000000x64, .f32⟩
  | 98 => ⟨S_, .f32⟩
  | 99 => ⟨S150000x64, .f32⟩
  | 100 => ⟨S1000000x1, .i32⟩
  | 101 => ⟨S150000x64, .f32⟩
  | 102 => ⟨S_, .f32⟩
  | 103 => ⟨S_, .f32⟩
  | 104 => ⟨S150000x64, .f32⟩
  | 105 => ⟨S150000x64, .i1⟩
  | 106 => ⟨S_, .f32⟩
  | 107 => ⟨S150000x64, .f32⟩
  | 108 => ⟨S150000x64, .f32⟩
  | 109 => ⟨S150000x64, .f32⟩
  | 110 => ⟨S1x64x64, .f32⟩
  | 111 => ⟨S64x64, .f32⟩
  | 112 => ⟨S64x64, .f32⟩
  | 113 => ⟨S150000x64, .f32⟩
  | 114 => ⟨S150000x64, .f32⟩
  | 115 => ⟨S1x64x64, .f32⟩
  | 116 => ⟨S64x64, .f32⟩
  | 117 => ⟨S64x64, .f32⟩
  | 118 => ⟨S150000x64, .f32⟩
  | 119 => ⟨S150000x64, .f32⟩
  | 120 => ⟨S1000000x1, .f32⟩
  | 121 => ⟨S_, .i32⟩
  | 122 => ⟨S1000000, .i32⟩
  | 123 => ⟨S1000000, .i1⟩
  | 124 => ⟨S_, .i32⟩
  | 125 => ⟨S1000000, .i32⟩
  | 126 => ⟨S1000000, .i32⟩
  | 127 => ⟨S1000000, .i32⟩
  | _ => ⟨S150000x64, .f32⟩

abbrev hbmTy0_1 (i : Nat) : BufTy := match i % 128 with
  | 0 => ⟨S1000000x1, .i32⟩
  | 1 => ⟨S1000000x64, .f32⟩
  | 2 => ⟨S1000000x64, .f32⟩
  | 3 => ⟨S1000000x64, .f32⟩
  | 4 => ⟨S_, .f32⟩
  | 5 => ⟨S150000x64, .f32⟩
  | 6 => ⟨S1000000x1, .i32⟩
  | 7 => ⟨S150000x64, .f32⟩
  | 8 => ⟨S_, .f32⟩
  | 9 => ⟨S_, .f32⟩
  | 10 => ⟨S150000x64, .f32⟩
  | 11 => ⟨S150000x64, .i1⟩
  | 12 => ⟨S_, .f32⟩
  | 13 => ⟨S150000x64, .f32⟩
  | 14 => ⟨S150000x64, .f32⟩
  | 15 => ⟨S150000x64, .f32⟩
  | 16 => ⟨S150000x256, .f32⟩
  | 17 => ⟨S1x16384, .i32⟩
  | 18 => ⟨S16384, .i32⟩
  | 19 => ⟨S_, .i32⟩
  | 20 => ⟨S16384, .i32⟩
  | 21 => ⟨S16384, .i1⟩
  | 22 => ⟨S_, .i32⟩
  | 23 => ⟨S16384, .i32⟩
  | 24 => ⟨S16384, .i32⟩
  | 25 => ⟨S16384, .i32⟩
  | 26 => ⟨S16384x1, .i32⟩
  | 27 => ⟨S16384x256, .f32⟩
  | 28 => ⟨S1x16384, .i32⟩
  | 29 => ⟨S16384, .i32⟩
  | 30 => ⟨S_, .i32⟩
  | 31 => ⟨S16384, .i32⟩
  | 32 => ⟨S16384, .i1⟩
  | 33 => ⟨S_, .i32⟩
  | 34 => ⟨S16384, .i32⟩
  | 35 => ⟨S16384, .i32⟩
  | 36 => ⟨S16384, .i32⟩
  | 37 => ⟨S16384x1, .i32⟩
  | 38 => ⟨S16384x256, .f32⟩
  | 39 => ⟨S16384x256, .f32⟩
  | 40 => ⟨S_, .f32⟩
  | 41 => ⟨S16384, .f32⟩
  | _ => ⟨S150000x64, .f32⟩

abbrev hbmTy (i : Nat) : BufTy := match i / 128 with
  | 0 => hbmTy0_0 i
  | 1 => hbmTy0_1 i
  | _ => ⟨S150000x64, .f32⟩

abbrev bufTy : (tb : Table) → Fin (tcTables nBuf tb) → BufTy
  | .hbm, ⟨i, _⟩ => hbmTy i
  | _, _ => ⟨S150000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_5 : Ref sig .tc := ⟨.hbm, 32, rfl⟩
abbrev main_v17 : Ref sig .tc := ⟨.hbm, 33, rfl⟩
abbrev main_v18 : Ref sig .tc := ⟨.hbm, 34, rfl⟩
abbrev main_c_6 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_c_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_call1_cst : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_11 : Ref sig .tc := ⟨.hbm, 87, rfl⟩
abbrev main_v60 : Ref sig .tc := ⟨.hbm, 88, rfl⟩
abbrev main_v61 : Ref sig .tc := ⟨.hbm, 89, rfl⟩
abbrev main_c_12 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_14 : Ref sig .tc := ⟨.hbm, 102, rfl⟩
abbrev main_call2_cst : Ref sig .tc := ⟨.hbm, 103, rfl⟩
abbrev main_call2_v0 : Ref sig .tc := ⟨.hbm, 104, rfl⟩
abbrev main_call2_v1 : Ref sig .tc := ⟨.hbm, 105, rfl⟩
abbrev main_call2_v2 : Ref sig .tc := ⟨.hbm, 106, rfl⟩
abbrev main_call2_v3 : Ref sig .tc := ⟨.hbm, 107, rfl⟩
abbrev main_call2_v4 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_c_15 : Ref sig .tc := ⟨.hbm, 121, rfl⟩
abbrev main_v84 : Ref sig .tc := ⟨.hbm, 122, rfl⟩
abbrev main_v85 : Ref sig .tc := ⟨.hbm, 123, rfl⟩
abbrev main_c_16 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_17 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_18 : Ref sig .tc := ⟨.hbm, 136, rfl⟩
abbrev main_call3_cst : Ref sig .tc := ⟨.hbm, 137, rfl⟩
abbrev main_call3_v0 : Ref sig .tc := ⟨.hbm, 138, rfl⟩
abbrev main_call3_v1 : Ref sig .tc := ⟨.hbm, 139, rfl⟩
abbrev main_call3_v2 : Ref sig .tc := ⟨.hbm, 140, rfl⟩
abbrev main_call3_v3 : Ref sig .tc := ⟨.hbm, 141, rfl⟩
abbrev main_call3_v4 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_c_19 : Ref sig .tc := ⟨.hbm, 147, rfl⟩
abbrev main_v100 : Ref sig .tc := ⟨.hbm, 148, rfl⟩
abbrev main_v101 : Ref sig .tc := ⟨.hbm, 149, rfl⟩
abbrev main_c_20 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_c_21 : Ref sig .tc := ⟨.hbm, 158, rfl⟩
abbrev main_v109 : Ref sig .tc := ⟨.hbm, 159, rfl⟩
abbrev main_v110 : Ref sig .tc := ⟨.hbm, 160, rfl⟩
abbrev main_c_22 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_cst_23 : Ref sig .tc := ⟨.hbm, 168, rfl⟩
abbrev main_v117 : Ref sig .tc := ⟨.hbm, 169, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S150000 : S_.BroadcastsInDim S150000 (![] : Fin 0 → Fin S150000.rank)
  bcast_S1000000_S1000000x1_0 : S1000000.BroadcastsInDim S1000000x1 (![0] : Fin 1 → Fin S1000000x1.rank)
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  bcast_S1000000x1_S1000000x64_0_1 : S1000000x1.BroadcastsInDim S1000000x64 (![0, 1] : Fin 2 → Fin S1000000x64.rank)
  bcast_S_S150000x64 : S_.BroadcastsInDim S150000x64 (![] : Fin 0 → Fin S150000x64.rank)
  slices_S3x64x64_S1x64x64_1_0_0 : S3x64x64.Slices ![1, 0, 0] S1x64x64
  slices_S3x64x64_S1x64x64_2_0_0 : S3x64x64.Slices ![2, 0, 0] S1x64x64
  concatenates_S150000x64_S150000x64_S150000x64_S150000x64_S150000x256_d1 : Shape.Concatenates [S150000x64, S150000x64, S150000x64, S150000x64] S150000x256 1
  slices_S2x16384_S1x16384_0_0 : S2x16384.Slices ![0, 0] S1x16384
  shapeCasts_S1x16384_S16384 : S1x16384.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  slices_S2x16384_S1x16384_1_0 : S2x16384.Slices ![1, 0] S1x16384
  reducesTo_S16384x256_S16384_d1 : S16384x256.ReducesTo [1] S16384
  h_S_ : 0 < S_.numel
  scatter_S150000_S1000000x1_S1000000_n_0_0_1_wf : ScatterDims.WF S150000 S1000000x1 S1000000 [] [0] [0] 1
  gather_S150000_S1000000x1_S1000000_n_0_n_n_0_1_1_wf : GatherDims.WF S150000 S1000000x1 S1000000 [] [0] [] [0] [] 1 ![1]
  dot_S150000x64_S64x64_S150000x64_1_0_0_1_n_n_wf : DotDims.WF S150000x64 S64x64 S150000x64 [1] [0] [0] [1] [] []
  gather_S150000x64_S1000000x1_S1000000x64_1_0_n_n_0_1_164_wf : GatherDims.WF S150000x64 S1000000x1 S1000000x64 [1] [0] [] [0] [] 1 ![1, 64]
  scatter_S150000x64_S1000000x1_S1000000x64_1_0_0_1_wf : ScatterDims.WF S150000x64 S1000000x1 S1000000x64 [1] [0] [0] 1
  gather_S150000x256_S16384x1_S16384x256_1_0_n_n_0_1_1256_wf : GatherDims.WF S150000x256 S16384x1 S16384x256 [1] [0] [] [0] [] 1 ![1, 256]

variable [Facts₀]

def scatter_S150000_S1000000x1_S1000000_n_0_0_1 : ScatterDims S150000 S1000000x1 S1000000 where
  updateWindowDims := []
  insertedWindowDims := [0]
  scatterDimsToOperandDims := [0]
  indexVectorDim := 1
  wf := scatter_S150000_S1000000x1_S1000000_n_0_0_1_wf
def gather_S150000_S1000000x1_S1000000_n_0_n_n_0_1_1 : GatherDims S150000 S1000000x1 S1000000 where
  offsetDims := []
  collapsedSliceDims := [0]
  operandBatchingDims := []
  startIndicesBatchingDims := []
  startIndexMap := [0]
  indexVectorDim := 1
  sliceSizes := ![1]
  wf := gather_S150000_S1000000x1_S1000000_n_0_n_n_0_1_1_wf
def dot_S150000x64_S64x64_S150000x64_1_0_0_1_n_n : DotDims S150000x64 S64x64 S150000x64 where
  lhsContracting := [1]
  rhsContracting := [0]
  lhsNonContracting := [0]
  rhsNonContracting := [1]
  lhsBatch := []
  rhsBatch := []
  wf := dot_S150000x64_S64x64_S150000x64_1_0_0_1_n_n_wf
def gather_S150000x64_S1000000x1_S1000000x64_1_0_n_n_0_1_164 : GatherDims S150000x64 S1000000x1 S1000000x64 where
  offsetDims := [1]
  collapsedSliceDims := [0]
  operandBatchingDims := []
  startIndicesBatchingDims := []
  startIndexMap := [0]
  indexVectorDim := 1
  sliceSizes := ![1, 64]
  wf := gather_S150000x64_S1000000x1_S1000000x64_1_0_n_n_0_1_164_wf
def scatter_S150000x64_S1000000x1_S1000000x64_1_0_0_1 : ScatterDims S150000x64 S1000000x1 S1000000x64 where
  updateWindowDims := [1]
  insertedWindowDims := [0]
  scatterDimsToOperandDims := [0]
  indexVectorDim := 1
  wf := scatter_S150000x64_S1000000x1_S1000000x64_1_0_0_1_wf
def gather_S150000x256_S16384x1_S16384x256_1_0_n_n_0_1_1256 : GatherDims S150000x256 S16384x1 S16384x256 where
  offsetDims := [1]
  collapsedSliceDims := [0]
  operandBatchingDims := []
  startIndicesBatchingDims := []
  startIndexMap := [0]
  indexVectorDim := 1
  sliceSizes := ![1, 256]
  wf := gather_S150000x256_S16384x1_S16384x256_1_0_n_n_0_1_1256_wf

class Facts : Prop extends Facts₀ where

variable [Facts]
-- ==== Proof.KData.lean ====
import proofs.«125319_j22917945491468_1_alg».proof.Proof.Gen.Kernel.Launch
import proofs.«125319_j22917945491468_1_alg».proof.Proof.Gen.Kernel.Skeleton
import proofs.«125319_j22917945491468_1_alg».proof.Proof.Gen.Kernel.Points

import Idealize.ShloMosaic.Lib.Pipeline.FrameBody
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The proof data of the four kernel regions, at a parameter `V`: the TensorCore's buffer contents when the
    region is entered -/

/-- The whole-block rectangle of a 5000x64 staging buffer: what every load and store of an activation block accesses. -/
abbrev rX : Rect S5000x64 := Rect.unit (s := S5000x64) ![0, 0] S5000x64.size inb_S5000x64_S5000x64_0_0
/-- The whole-block rectangle of a 64x64 staging buffer: what every load of a weight block accesses. -/
abbrev rW : Rect S64x64 := Rect.unit (s := S64x64) ![0, 0] S64x64.size inb_S64x64_S64x64_0_0

variable (V : (c : Dev nD) → (b : Ref sig .tc) → Buf (Elt F) ((c : Thread nD τ).loc b))

/-! ## Region 0: the layer kernel of pipeline 0 -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 3's staging buffer after the body: its one store, over the whole block. -/
def out0_3 (x0 : Vec F S5000x64 .f32) : Vec F S5000x64 .f32 :=
  View.canon [⟨rX, View.ld x0 rX⟩]

/-- Window 4's staging buffer after the body: its one store, over the whole block. -/
def out0_4 (x0 : Vec F S5000x64 .f32) (w1 : Vec F S64x64 .bf16) (w2 : Vec F S64x64 .bf16) : Vec F S5000x64 .f32 :=
  View.canon [⟨rX, k0_pay1 (View.ld x0 rX) (View.ld w1 rW) (View.ld w2 rW)⟩]

/-- The proof data of pipeline 0 on core `c`: the arrays as the region finds them; after the body at point `t`
    each input's buffer at its block and each output's at what the stores leave, from the input blocks; the
    invariant the scoped rest and the random-number register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t)
    | ⟨4, _⟩ => out0_4 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) := by dsimp only [dat0]
theorem after0_4 (c : Dev nD) (t : Fin cfg0.N) :
    (dat0 V c).after 4 t = out0_4 (iblk0 V c 0 t) (iblk0 V c 1 t) (iblk0 V c 2 t) := by dsimp only [dat0]

/-! ## Region 1: the layer kernel of pipeline 1 -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 3's staging buffer after the body: its one store, over the whole block. -/
def out1_3 (x0 : Vec F S5000x64 .f32) : Vec F S5000x64 .f32 :=
  View.canon [⟨rX, k1_pay1 (View.ld x0 rX)⟩]

/-- Window 4's staging buffer after the body: its one store, over the whole block. -/
def out1_4 (x0 : Vec F S5000x64 .f32) (w1 : Vec F S64x64 .bf16) (w2 : Vec F S64x64 .bf16) : Vec F S5000x64 .f32 :=
  View.canon [⟨rX, k1_pay2 (View.ld x0 rX) (View.ld w1 rW) (View.ld w2 rW)⟩]

/-- The proof data of pipeline 1 on core `c`: the arrays as the region finds them; after the body at point `t`
    each input's buffer at its block and each output's at what the stores leave, from the input blocks; the
    invariant the scoped rest and the random-number register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t)
    | ⟨4, _⟩ => out1_4 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) := by dsimp only [dat1]
theorem after1_4 (c : Dev nD) (t : Fin cfg1.N) :
    (dat1 V c).after 4 t = out1_4 (iblk1 V c 0 t) (iblk1 V c 1 t) (iblk1 V c 2 t) := by dsimp only [dat1]

/-! ## Region 2: the layer kernel of pipeline 2 -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Window 3's staging buffer after the body: its one store, over the whole block. -/
def out2_3 (x0 : Vec F S5000x64 .f32) : Vec F S5000x64 .f32 :=
  View.canon [⟨rX, k2_pay1 (View.ld x0 rX)⟩]

/-- Window 4's staging buffer after the body: its one store, over the whole block. -/
def out2_4 (x0 : Vec F S5000x64 .f32) (w1 : Vec F S64x64 .bf16) (w2 : Vec F S64x64 .bf16) : Vec F S5000x64 .f32 :=
  View.canon [⟨rX, k2_pay2 (View.ld x0 rX) (View.ld w1 rW) (View.ld w2 rW)⟩]

/-- The proof data of pipeline 2 on core `c`: the arrays as the region finds them; after the body at point `t`
    each input's buffer at its block and each output's at what the stores leave, from the input blocks; the
    invariant the scoped rest and the random-number register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t)
    | ⟨4, _⟩ => out2_4 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) := by dsimp only [dat2]
theorem after2_4 (c : Dev nD) (t : Fin cfg2.N) :
    (dat2 V c).after 4 t = out2_4 (iblk2 V c 0 t) (iblk2 V c 1 t) (iblk2 V c 2 t) := by dsimp only [dat2]

/-! ## Region 3: the activation kernel of pipeline 3 -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Window 1's staging buffer after the body: its one store, over the whole block. -/
def out3_1 (x0 : Vec F S5000x64 .f32) : Vec F S5000x64 .f32 :=
  View.canon [⟨rX, k3_pay1 (View.ld x0 rX)⟩]

/-- The proof data of pipeline 3 on core `c`: the arrays as the region finds them; after the body at point `t`
    the input's buffer at its block and the output's at what the store leaves, from the input block; the
    invariant the scoped rest and the random-number register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]

end Cert.Kernel.Hand

end
-- ==== Proof.KOuts.lean ====
import proofs.«125319_j22917945491468_1_alg».proof.Proof.Gen.Kernel.Launch
import proofs.«125319_j22917945491468_1_alg».proof.Proof.Gen.Kernel.Skeleton
import proofs.«125319_j22917945491468_1_alg».proof.Proof.Gen.Kernel.Points
import proofs.«125319_j22917945491468_1_alg».proof.Proof.KData
import proofs.«125319_j22917945491468_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the four kernel regions leave, and the buffer contents at their exits

The buffer contents at each boundary are the fold `Gen.VJ` through @main from the launch memory `m`, over what the
regions leave (`outs`). Here `outs` is chosen: a region's exit contents are its entry contents with each window's array
at what the pipeline's write-backs leave. -/

variable (m : (ℓ : Loc nD τ sig) → Buf (Elt F) ℓ)

/-! ## What the regions leave -/

/-- A family of region outputs from the four regions' exit contents (read at 4, 6, 8, 10 only; `d` elsewhere). -/
def mkOuts (d o4 o6 o8 o10 : (r : Ref sig .tc) → (c : Dev nD) → Buf (Elt F) ((c : Thread nD τ).loc r)) : Outs (F := F) :=
  fun n r c => match n with
    | 4 => o4 r c
    | 6 => o6 r c
    | 8 => o8 r c
    | 10 => o10 r c
    | _ => d r c

/-- The launch contents: the placeholder for a region not yet reached. -/
abbrev o0 : (r : Ref sig .tc) → (c : Dev nD) → Buf (Elt F) ((c : Thread nD τ).loc r) := fun r c => m ((c : Thread nD τ).loc r)

/-- Region 0's exit contents: its arrays at what the pipeline leaves, every other buffer as entered. -/
def X4 (c : Dev nD) : Valuation τ sig (Elt F) :=
  Pipeline.withArrays spec0 c (V3 m c) fun w => (dat0 (fun c b => V3 m c b) c).arrAt w cfg0.N
abbrev outsA : Outs (F := F) := mkOuts (o0 m) (fun r c => X4 m c r) (o0 m) (o0 m) (o0 m)
/-- Region 1's exit contents. -/
def X6 (c : Dev nD) : Valuation τ sig (Elt F) :=
  Pipeline.withArrays spec1 c (V5 m (outsA m) c) fun w => (dat1 (fun c b => V5 m (outsA m) c b) c).arrAt w cfg1.N
abbrev outsB : Outs (F := F) := mkOuts (o0 m) (fun r c => X4 m c r) (fun r c => X6 m c r) (o0 m) (o0 m)
/-- Region 2's exit contents. -/
def X8 (c : Dev nD) : Valuation τ sig (Elt F) :=
  Pipeline.withArrays spec2 c (V7 m (outsB m) c) fun w => (dat2 (fun c b => V7 m (outsB m) c b) c).arrAt w cfg2.N
abbrev outsC : Outs (F := F) := mkOuts (o0 m) (fun r c => X4 m c r) (fun r c => X6 m c r) (fun r c => X8 m c r) (o0 m)
/-- Region 3's exit contents. -/
def X10 (c : Dev nD) : Valuation τ sig (Elt F) :=
  Pipeline.withArrays spec3 c (V9 m (outsC m) c) fun w => (dat3 (fun c b => V9 m (outsC m) c b) c).arrAt w cfg3.N
/-- What the four regions leave in the buffers they may change. -/
def outs : Outs (F := F) := mkOuts (o0 m) (fun r c => X4 m c r) (fun r c => X6 m c r) (fun r c => X8 m c r) (fun r c => X10 m c r)

/-- Each region's entry contents read only the earlier regions' outputs. -/
theorem V5_outs (c : Dev nD) : V5 m (outs m) c = V5 m (outsA m) c := rfl
theorem V7_outs (c : Dev nD) : V7 m (outs m) c = V7 m (outsB m) c := rfl
theorem V9_outs (c : Dev nD) : V9 m (outs m) c = V9 m (outsC m) c := rfl

/-! ## The exit contents at the output arrays -/

section
variable (o : Outs (F := F))
theorem V4_at_main_v33_0 (c : Dev nD) : V4 m o c main_v33_0 = o 4 main_v33_0 c := by
  simp only [V4, Function.update_of_ne (StableHlo.devRef_ne_of_ne (by decide) : (Proc.devRef .tc main_v33_0 : DevRef τ sig) ≠ Proc.devRef .tc main_v33_1), Function.update_self]
theorem V4_at_main_v33_1 (c : Dev nD) : V4 m o c main_v33_1 = o 4 main_v33_1 c := by
  simp only [V4, Function.update_self]
theorem V6_at_main_v55_0 (c : Dev nD) : V6 m o c main_v55_0 = o 6 main_v55_0 c := by
  simp only [V6, Function.update_of_ne (StableHlo.devRef_ne_of_ne (by decide) : (Proc.devRef .tc main_v55_0 : DevRef τ sig) ≠ Proc.devRef .tc main_v55_1), Function.update_self]
theorem V6_at_main_v55_1 (c : Dev nD) : V6 m o c main_v55_1 = o 6 main_v55_1 c := by
  simp only [V6, Function.update_self]
theorem V8_at_main_v77_0 (c : Dev nD) : V8 m o c main_v77_0 = o 8 main_v77_0 c := by
  simp only [V8, Function.update_of_ne (StableHlo.devRef_ne_of_ne (by decide) : (Proc.devRef .tc main_v77_0 : DevRef τ sig) ≠ Proc.devRef .tc main_v77_1), Function.update_self]
theorem V8_at_main_v77_1 (c : Dev nD) : V8 m o c main_v77_1 = o 8 main_v77_1 c := by
  simp only [V8, Function.update_self]
theorem V10_at_main_v91 (c : Dev nD) : V10 m o c main_v91 = o 10 main_v91 c := by
  simp only [V10, Function.update_self]
end

/-! ## What `outs` holds at the output arrays: the pipeline's write-backs folded -/

theorem outs_0_3 (c : Dev nD) : outs m 4 main_v33_0 c = (dat0 (fun c b => V3 m c b) c).arrAt 3 cfg0.N := by
  show X4 m c main_v33_0 = _
  unfold X4; exact Pipeline.withArrays_arr spec0 launch0.win.arr_inj c _ _ 3
theorem outs_0_4 (c : Dev nD) : outs m 4 main_v33_1 c = (dat0 (fun c b => V3 m c b) c).arrAt 4 cfg0.N := by
  show X4 m c main_v33_1 = _
  unfold X4; exact Pipeline.withArrays_arr spec0 launch0.win.arr_inj c _ _ 4
theorem outs_1_3 (c : Dev nD) : outs m 6 main_v55_0 c = (dat1 (fun c b => V5 m (outs m) c b) c).arrAt 3 cfg1.N := by
  show X6 m c main_v55_0 = (dat1 (fun c b => V5 m (outsA m) c b) c).arrAt 3 cfg1.N
  unfold X6; exact Pipeline.withArrays_arr spec1 launch1.win.arr_inj c _ _ 3
theorem outs_1_4 (c : Dev nD) : outs m 6 main_v55_1 c = (dat1 (fun c b => V5 m (outs m) c b) c).arrAt 4 cfg1.N := by
  show X6 m c main_v55_1 = (dat1 (fun c b => V5 m (outsA m) c b) c).arrAt 4 cfg1.N
  unfold X6; exact Pipeline.withArrays_arr spec1 launch1.win.arr_inj c _ _ 4
theorem outs_2_3 (c : Dev nD) : outs m 8 main_v77_0 c = (dat2 (fun c b => V7 m (outs m) c b) c).arrAt 3 cfg2.N := by
  show X8 m c main_v77_0 = (dat2 (fun c b => V7 m (outsB m) c b) c).arrAt 3 cfg2.N
  unfold X8; exact Pipeline.withArrays_arr spec2 launch2.win.arr_inj c _ _ 3
theorem outs_2_4 (c : Dev nD) : outs m 8 main_v77_1 c = (dat2 (fun c b => V7 m (outs m) c b) c).arrAt 4 cfg2.N := by
  show X8 m c main_v77_1 = (dat2 (fun c b => V7 m (outsB m) c b) c).arrAt 4 cfg2.N
  unfold X8; exact Pipeline.withArrays_arr spec2 launch2.win.arr_inj c _ _ 4
theorem outs_3_1 (c : Dev nD) : outs m 10 main_v91 c = (dat3 (fun c b => V9 m (outs m) c b) c).arrAt 1 cfg3.N := by
  show X10 m c main_v91 = (dat3 (fun c b => V9 m (outsC m) c b) c).arrAt 1 cfg3.N
  unfold X10; exact Pipeline.withArrays_arr spec3 launch3.win.arr_inj c _ _ 1

/-- The same equations under the names of what the arrays carry: the layer's activations and messages. -/
theorem outs_x0 (c : Dev nD) : outs m 4 main_v33_0 c = (dat0 (fun c b => V3 m c b) c).arrAt 3 cfg0.N := outs_0_3 m c
theorem outs_msg0 (c : Dev nD) : outs m 4 main_v33_1 c = (dat0 (fun c b => V3 m c b) c).arrAt 4 cfg0.N := outs_0_4 m c
theorem outs_x1 (c : Dev nD) : outs m 6 main_v55_0 c = (dat1 (fun c b => V5 m (outs m) c b) c).arrAt 3 cfg1.N := outs_1_3 m c
theorem outs_msg1 (c : Dev nD) : outs m 6 main_v55_1 c = (dat1 (fun c b => V5 m (outs m) c b) c).arrAt 4 cfg1.N := outs_1_4 m c
theorem outs_x2 (c : Dev nD) : outs m 8 main_v77_0 c = (dat2 (fun c b => V7 m (outs m) c b) c).arrAt 3 cfg2.N := outs_2_3 m c
theorem outs_msg2 (c : Dev nD) : outs m 8 main_v77_1 c = (dat2 (fun c b => V7 m (outs m) c b) c).arrAt 4 cfg2.N := outs_2_4 m c
theorem outs_x3 (c : Dev nD) : outs m 10 main_v91 c = (dat3 (fun c b => V9 m (outs m) c b) c).arrAt 1 cfg3.N := outs_3_1 m c

/-! ## The two hypotheses of putting a region's arrays back among the unscoped buffers -/

set_option maxHeartbeats 2000000 in
/-- At region 0's exit each of its arrays holds what the pipeline leaves: an input's array is as entered, an output's
    is the region's entry in `outs`. -/
theorem hF0 (c : Dev nD) (w : Fin cfg0.W) :
    (dat0 (fun c b => V3 m c b) c).arrAt w cfg0.N = V4 m (outs m) c (Pipeline.arrRef spec0 w) := by
  match w with
  | ⟨0, _⟩ =>
    exact ((dat0 (fun c b => V3 m c b) c).arrAt_in 0 rfl _).trans
      ((A_eq0 (fun c b => V3 m c b) c 0).trans (V4_of m (outs m) c _ (by decide)).symm)
  | ⟨1, _⟩ =>
    exact ((dat0 (fun c b => V3 m c b) c).arrAt_in 1 rfl _).trans
      ((A_eq0 (fun c b => V3 m c b) c 1).trans (V4_of m (outs m) c _ (by decide)).symm)
  | ⟨2, _⟩ =>
    exact ((dat0 (fun c b => V3 m c b) c).arrAt_in 2 rfl _).trans
      ((A_eq0 (fun c b => V3 m c b) c 2).trans (V4_of m (outs m) c _ (by decide)).symm)
  | ⟨3, _⟩ => exact (outs_0_3 m c).symm.trans (V4_at_main_v33_0 m (outs m) c).symm
  | ⟨4, _⟩ => exact (outs_0_4 m c).symm.trans (V4_at_main_v33_1 m (outs m) c).symm

/-- Every other buffer holds at region 0's exit what it held at entry. -/
theorem hrest0 (c : Dev nD) : ∀ b, b ∉ Finset.univ.image (Pipeline.arrRef spec0) → V4 m (outs m) c b = V3 m c b :=
  fun b hb => V4_of m (outs m) c b fun hmem => hb (Finset.mem_image.mpr (by
    rcases List.mem_cons.mp hmem with h | h
    · exact ⟨3, Finset.mem_univ _, h.symm⟩
    · exact ⟨4, Finset.mem_univ _, (List.mem_singleton.mp h).symm⟩))

set_option maxHeartbeats 2000000 in
/-- At region 1's exit each of its arrays holds what the pipeline leaves: an input's array is as entered, an output's
    is the region's entry in `outs`. -/
theorem hF1 (c : Dev nD) (w : Fin cfg1.W) :
    (dat1 (fun c b => V5 m (outs m) c b) c).arrAt w cfg1.N = V6 m (outs m) c (Pipeline.arrRef spec1 w) := by
  match w with
  | ⟨0, _⟩ =>
    exact ((dat1 (fun c b => V5 m (outs m) c b) c).arrAt_in 0 rfl _).trans
      ((A_eq1 (fun c b => V5 m (outs m) c b) c 0).trans (V6_of m (outs m) c _ (by decide)).symm)
  | ⟨1, _⟩ =>
    exact ((dat1 (fun c b => V5 m (outs m) c b) c).arrAt_in 1 rfl _).trans
      ((A_eq1 (fun c b => V5 m (outs m) c b) c 1).trans (V6_of m (outs m) c _ (by decide)).symm)
  | ⟨2, _⟩ =>
    exact ((dat1 (fun c b => V5 m (outs m) c b) c).arrAt_in 2 rfl _).trans
      ((A_eq1 (fun c b => V5 m (outs m) c b) c 2).trans (V6_of m (outs m) c _ (by decide)).symm)
  | ⟨3, _⟩ => exact (outs_1_3 m c).symm.trans (V6_at_main_v55_0 m (outs m) c).symm
  | ⟨4, _⟩ => exact (outs_1_4 m c).symm.trans (V6_at_main_v55_1 m (outs m) c).symm

/-- Every other buffer holds at region 1's exit what it held at entry. -/
theorem hrest1 (c : Dev nD) : ∀ b, b ∉ Finset.univ.image (Pipeline.arrRef spec1) → V6 m (outs m) c b = V5 m (outs m) c b :=
  fun b hb => V6_of m (outs m) c b fun hmem => hb (Finset.mem_image.mpr (by
    rcases List.mem_cons.mp hmem with h | h
    · exact ⟨3, Finset.mem_univ _, h.symm⟩
    · exact ⟨4, Finset.mem_univ _, (List.mem_singleton.mp h).symm⟩))

set_option maxHeartbeats 2000000 in
/-- At region 2's exit each of its arrays holds what the pipeline leaves: an input's array is as entered, an output's
    is the region's entry in `outs`. -/
theorem hF2 (c : Dev nD) (w : Fin cfg2.W) :
    (dat2 (fun c b => V7 m (outs m) c b) c).arrAt w cfg2.N = V8 m (outs m) c (Pipeline.arrRef spec2 w) := by
  match w with
  | ⟨0, _⟩ =>
    exact ((dat2 (fun c b => V7 m (outs m) c b) c).arrAt_in 0 rfl _).trans
      ((A_eq2 (fun c b => V7 m (outs m) c b) c 0).trans (V8_of m (outs m) c _ (by decide)).symm)
  | ⟨1, _⟩ =>
    exact ((dat2 (fun c b => V7 m (outs m) c b) c).arrAt_in 1 rfl _).trans
      ((A_eq2 (fun c b => V7 m (outs m) c b) c 1).trans (V8_of m (outs m) c _ (by decide)).symm)
  | ⟨2, _⟩ =>
    exact ((dat2 (fun c b => V7 m (outs m) c b) c).arrAt_in 2 rfl _).trans
      ((A_eq2 (fun c b => V7 m (outs m) c b) c 2).trans (V8_of m (outs m) c _ (by decide)).symm)
  | ⟨3, _⟩ => exact (outs_2_3 m c).symm.trans (V8_at_main_v77_0 m (outs m) c).symm
  | ⟨4, _⟩ => exact (outs_2_4 m c).symm.trans (V8_at_main_v77_1 m (outs m) c).symm

/-- Every other buffer holds at region 2's exit what it held at entry. -/
theorem hrest2 (c : Dev nD) : ∀ b, b ∉ Finset.univ.image (Pipeline.arrRef spec2) → V8 m (outs m) c b = V7 m (outs m) c b :=
  fun b hb => V8_of m (outs m) c b fun hmem => hb (Finset.mem_image.mpr (by
    rcases List.mem_cons.mp hmem with h | h
    · exact ⟨3, Finset.mem_univ _, h.symm⟩
    · exact ⟨4, Finset.mem_univ _, (List.mem_singleton.mp h).symm⟩))

set_option maxHeartbeats 2000000 in
/-- At region 3's exit each of its arrays holds what the pipeline leaves: an input's array is as entered, an output's
    is the region's entry in `outs`. -/
theorem hF3 (c : Dev nD) (w : Fin cfg3.W) :
    (dat3 (fun c b => V9 m (outs m) c b) c).arrAt w cfg3.N = V10 m (outs m) c (Pipeline.arrRef spec3 w) := by
  match w with
  | ⟨0, _⟩ =>
    exact ((dat3 (fun c b => V9 m (outs m) c b) c).arrAt_in 0 rfl _).trans
      ((A_eq3 (fun c b => V9 m (outs m) c b) c 0).trans (V10_of m (outs m) c _ (by decide)).symm)
  | ⟨1, _⟩ => exact (outs_3_1 m c).symm.trans (V10_at_main_v91 m (outs m) c).symm

/-- Every other buffer holds at region 3's exit what it held at entry. -/
theorem hrest3 (c : Dev nD) : ∀ b, b ∉ Finset.univ.image (Pipeline.arrRef spec3) → V10 m (outs m) c b = V9 m (outs m) c b :=
  fun b hb => V10_of m (outs m) c b fun hmem => hb (Finset.mem_image.mpr (by
    exact ⟨1, Finset.mem_univ _, (List.mem_singleton.mp hmem).symm⟩))

end Cert.Kernel.Hand

end
-- ==== Proof.KHalf0.lean ====
import proofs.«125319_j22917945491468_1_alg».proof.Proof.Gen.Kernel.Launch
import proofs.«125319_j22917945491468_1_alg».proof.Proof.Gen.Kernel.Skeleton
import proofs.«125319_j22917945491468_1_alg».proof.Proof.Gen.Kernel.Points
import proofs.«125319_j22917945491468_1_alg».proof.Proof.KData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the layer kernel of pipeline 0) at a parameter `V`: the buffer contents at region entry -/

variable (V : (c : Dev nD) → (b : Ref sig .tc) → Buf (Elt F) ((c : Thread nD τ).loc b))

/-- An input window's current staging buffer holds its block at every point, fetched there or not, for any proof
    data whose array is `V`'s and whose body leaves the block in place: unfetched, the block index has not moved
    (the two weight windows have a constant index map and are fetched at the first point only). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Each output's one store covers its buffer: the rectangle is the whole block. -/
theorem cover0 (p0 : Vec F S5000x64 .f32) (y : S5000x64.Idx) :
    ∃ pc ∈ ([⟨rX, p0⟩] : List (View.Piece (Elt F) S5000x64 .f32)), y ∈ pc.1.set :=
  View.cover_of_tiled [⟨rX, p0⟩] S5000x64.size (by rfl) y

set_option maxHeartbeats 4000000 in
/-- The kernel body on whole staging memrefs, the inputs' at read contents `x0`, `w1`, `w2` and the outputs' at
    anything, runs to the continuation holding the inputs' as they were and the outputs' at `out0_3`, `out0_4`
    of the inputs'. -/
theorem sound_kernel0 (c : Dev nD) (E : Set ℕ) (i : grid0.Coords)
    (arg1 : Memref sig .tc .vmem S5000x64 .f32) (harg1 : arg1.IsWhole)
    (arg2 : Memref sig .tc .vmem S64x64 .bf16) (harg2 : arg2.IsWhole)
    (arg3 : Memref sig .tc .vmem S64x64 .bf16) (harg3 : arg3.IsWhole)
    (arg4 : Memref sig .tc .vmem S5000x64 .f32) (harg4 : arg4.IsWhole)
    (arg5 : Memref sig .tc .vmem S5000x64 .f32) (harg5 : arg5.IsWhole)
    (x0 : Vec F S5000x64 .f32) (w1 : Vec F S64x64 .bf16) (w2 : Vec F S64x64 .bf16) (K : PUnit → sProp 𝕄) :
    iprop(owns (c : Thread nD τ) arg1 fullShare x0 ∗ owns (c : Thread nD τ) arg2 fullShare w1 ∗ owns (c : Thread nD τ) arg3 fullShare w2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare w1 ∗ owns (c : Thread nD τ) arg3 fullShare w2
            ∗ owns (c : Thread nD τ) arg4 fullShare (out0_3 x0) ∗ owns (c : Thread nD τ) arg5 fullShare (out0_4 x0 w1 w2)) -∗ K ⟨⟩))
      ⊢ wp frame (wpE (defs₀ (F := F)) Variants.none c none) E (cc0__layer_kernel i arg1 harg1 arg2 harg2 arg3 harg3 arg4 harg4 arg5 harg5) K := by
  simp only [cc0__layer_kernel_eq_skeleton]; unfold cc0__layer_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so `sound_kernel0` applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KHalf1.lean ====
import proofs.«125319_j22917945491468_1_alg».proof.Proof.Gen.Kernel.Launch
import proofs.«125319_j22917945491468_1_alg».proof.Proof.Gen.Kernel.Skeleton
import proofs.«125319_j22917945491468_1_alg».proof.Proof.Gen.Kernel.Points
import proofs.«125319_j22917945491468_1_alg».proof.Proof.KData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the layer kernel of pipeline 1) at a parameter `V`: the buffer contents at region entry -/

variable (V : (c : Dev nD) → (b : Ref sig .tc) → Buf (Elt F) ((c : Thread nD τ).loc b))

/-- An input window's current staging buffer holds its block at every point, fetched there or not, for any proof
    data whose array is `V`'s and whose body leaves the block in place: unfetched, the block index has not moved
    (the two weight windows have a constant index map and are fetched at the first point only). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Each output's one store covers its buffer: the rectangle is the whole block. -/
theorem cover1 (p0 : Vec F S5000x64 .f32) (y : S5000x64.Idx) :
    ∃ pc ∈ ([⟨rX, p0⟩] : List (View.Piece (Elt F) S5000x64 .f32)), y ∈ pc.1.set :=
  View.cover_of_tiled [⟨rX, p0⟩] S5000x64.size (by rfl) y

set_option maxHeartbeats 4000000 in
/-- The kernel body on whole staging memrefs, the inputs' at read contents `x0`, `w1`, `w2` and the outputs' at
    anything, runs to the continuation holding the inputs' as they were and the outputs' at `out1_3`, `out1_4`
    of the inputs'. -/
theorem sound_kernel1 (c : Dev nD) (E : Set ℕ) (i : grid1.Coords)
    (arg1 : Memref sig .tc .vmem S5000x64 .f32) (harg1 : arg1.IsWhole)
    (arg2 : Memref sig .tc .vmem S64x64 .bf16) (harg2 : arg2.IsWhole)
    (arg3 : Memref sig .tc .vmem S64x64 .bf16) (harg3 : arg3.IsWhole)
    (arg4 : Memref sig .tc .vmem S5000x64 .f32) (harg4 : arg4.IsWhole)
    (arg5 : Memref sig .tc .vmem S5000x64 .f32) (harg5 : arg5.IsWhole)
    (x0 : Vec F S5000x64 .f32) (w1 : Vec F S64x64 .bf16) (w2 : Vec F S64x64 .bf16) (K : PUnit → sProp 𝕄) :
    iprop(owns (c : Thread nD τ) arg1 fullShare x0 ∗ owns (c : Thread nD τ) arg2 fullShare w1 ∗ owns (c : Thread nD τ) arg3 fullShare w2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare w1 ∗ owns (c : Thread nD τ) arg3 fullShare w2
            ∗ owns (c : Thread nD τ) arg4 fullShare (out1_3 x0) ∗ owns (c : Thread nD τ) arg5 fullShare (out1_4 x0 w1 w2)) -∗ K ⟨⟩))
      ⊢ wp frame (wpE (defs₀ (F := F)) Variants.none c none) E (cc1__layer_kernel i arg1 harg1 arg2 harg2 arg3 harg3 arg4 harg4 arg5 harg5) K := by
  simp only [cc1__layer_kernel_eq_skeleton]; unfold cc1__layer_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1 _)
  iexists _; isplitr
  swap; · iexact H4
  ipureintro
  exact View.read_writes_eq_canon _ _ _ (cover1 _)

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_kernel1` applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KHalf2.lean ====
import proofs.«125319_j22917945491468_1_alg».proof.Proof.Gen.Kernel.Launch
import proofs.«125319_j22917945491468_1_alg».proof.Proof.Gen.Kernel.Skeleton
import proofs.«125319_j22917945491468_1_alg».proof.Proof.Gen.Kernel.Points
import proofs.«125319_j22917945491468_1_alg».proof.Proof.KData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 (the layer kernel of pipeline 2) at a parameter `V`: the buffer contents at region entry -/

variable (V : (c : Dev nD) → (b : Ref sig .tc) → Buf (Elt F) ((c : Thread nD τ).loc b))

/-- An input window's current staging buffer holds its block at every point, fetched there or not, for any proof
    data whose array is `V`'s and whose body leaves the block in place: unfetched, the block index has not moved
    (the two weight windows have a constant index map and are fetched at the first point only). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Each output's one store covers its buffer: the rectangle is the whole block. -/
theorem cover2 (p0 : Vec F S5000x64 .f32) (y : S5000x64.Idx) :
    ∃ pc ∈ ([⟨rX, p0⟩] : List (View.Piece (Elt F) S5000x64 .f32)), y ∈ pc.1.set :=
  View.cover_of_tiled [⟨rX, p0⟩] S5000x64.size (by rfl) y

set_option maxHeartbeats 4000000 in
/-- The kernel body on whole staging memrefs, the inputs' at read contents `x0`, `w1`, `w2` and the outputs' at
    anything, runs to the continuation holding the inputs' as they were and the outputs' at `out2_3`, `out2_4`
    of the inputs'. -/
theorem sound_kernel2 (c : Dev nD) (E : Set ℕ) (i : grid2.Coords)
    (arg1 : Memref sig .tc .vmem S5000x64 .f32) (harg1 : arg1.IsWhole)
    (arg2 : Memref sig .tc .vmem S64x64 .bf16) (harg2 : arg2.IsWhole)
    (arg3 : Memref sig .tc .vmem S64x64 .bf16) (harg3 : arg3.IsWhole)
    (arg4 : Memref sig .tc .vmem S5000x64 .f32) (harg4 : arg4.IsWhole)
    (arg5 : Memref sig .tc .vmem S5000x64 .f32) (harg5 : arg5.IsWhole)
    (x0 : Vec F S5000x64 .f32) (w1 : Vec F S64x64 .bf16) (w2 : Vec F S64x64 .bf16) (K : PUnit → sProp 𝕄) :
    iprop(owns (c : Thread nD τ) arg1 fullShare x0 ∗ owns (c : Thread nD τ) arg2 fullShare w1 ∗ owns (c : Thread nD τ) arg3 fullShare w2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare w1 ∗ owns (c : Thread nD τ) arg3 fullShare w2
            ∗ owns (c : Thread nD τ) arg4 fullShare (out2_3 x0) ∗ owns (c : Thread nD τ) arg5 fullShare (out2_4 x0 w1 w2)) -∗ K ⟨⟩))
      ⊢ wp frame (wpE (defs₀ (F := F)) Variants.none c none) E (cc2__layer_kernel i arg1 harg1 arg2 harg2 arg3 harg3 arg4 harg4 arg5 harg5) K := by
  simp only [cc2__layer_kernel_eq_skeleton]; unfold cc2__layer_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover2 _)
  iexists _; isplitr
  swap; · iexact H4
  ipureintro
  exact View.read_writes_eq_canon _ _ _ (cover2 _)

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so `sound_kernel2` applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KHalf3.lean ====
import proofs.«125319_j22917945491468_1_alg».proof.Proof.Gen.Kernel.Launch
import proofs.«125319_j22917945491468_1_alg».proof.Proof.Gen.Kernel.Skeleton
import proofs.«125319_j22917945491468_1_alg».proof.Proof.Gen.Kernel.Points
import proofs.«125319_j22917945491468_1_alg».proof.Proof.KData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3 (the activation kernel, pipeline 3) at a parameter `V`: the buffer contents at region entry -/

variable (V : (c : Dev nD) → (b : Ref sig .tc) → Buf (Elt F) ((c : Thread nD τ).loc b))

/-- Input window 0's current staging buffer holds its block at every point, fetched there or not, for any proof
    data whose array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The one store covers the output buffer: its rectangle is the whole block. -/
theorem cover3_1 (p0 : Vec F S5000x64 .f32) (y : S5000x64.Idx) :
    ∃ pc ∈ ([⟨rX, p0⟩] : List (View.Piece (Elt F) S5000x64 .f32)), y ∈ pc.1.set :=
  View.cover_of_tiled [⟨rX, p0⟩] S5000x64.size (by rfl) y

set_option maxHeartbeats 1000000 in
/-- The kernel body on whole staging memrefs, the input's at read contents `x0` and the output's at anything, runs to
    the continuation holding the input's as it was and the output's at `out3_1 x0`. -/
theorem sound_kernel3 (c : Dev nD) (E : Set ℕ) (i : grid3.Coords) (arg1 : Memref sig .tc .vmem S5000x64 .f32) (harg1 : arg1.IsWhole)
    (arg2 : Memref sig .tc .vmem S5000x64 .f32) (harg2 : arg2.IsWhole)
    (x0 : Vec F S5000x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out3_1 x0)) -∗ K ⟨⟩))
      ⊢ wp frame (wpE (defs₀ (F := F)) Variants.none c none) E (cc3__activate_kernel i arg1 harg1 arg2 harg2) K := by
  simp only [cc3__activate_kernel_eq_skeleton]; unfold cc3__activate_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-- The input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

/-- The body at any point: the input's memref holds its block, so `sound_kernel3` applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ _ _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KFrame.lean ====
import proofs.«125319_j22917945491468_1_alg».proof.Proof.Gen.Kernel.Launch
import proofs.«125319_j22917945491468_1_alg».proof.Proof.Gen.Kernel.Skeleton
import proofs.«125319_j22917945491468_1_alg».proof.Proof.Gen.Kernel.Points
import proofs.«125319_j22917945491468_1_alg».proof.Proof.KOuts
import proofs.«125319_j22917945491468_1_alg».proof.Proof.KHalf0
import proofs.«125319_j22917945491468_1_alg».proof.Proof.KHalf1
import proofs.«125319_j22917945491468_1_alg».proof.Proof.KHalf2
import proofs.«125319_j22917945491468_1_alg».proof.Proof.KHalf3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: the four kernel regions as segments between the host stretches, and the frame -/

variable (m : (ℓ : Loc nD τ sig) → Buf (Elt F) ℓ)

/-! ## The proof data family and the thread state -/

/-- Every pipeline's proof data, each at its region's entry contents: a literal match. -/
def pdats : (p : Fin 4) → (c : Dev nD) → Dat τ (Elt F) Unit ℕ (UR sig nD τ) ℕ (cfgs p) c
  | ⟨0, _⟩ => fun c => dat0 (fun c b => V3 m c b) c
  | ⟨1, _⟩ => fun c => dat1 (fun c b => V5 m (outs m) c b) c
  | ⟨2, _⟩ => fun c => dat2 (fun c b => V7 m (outs m) c b) c
  | ⟨3, _⟩ => fun c => dat3 (fun c b => V9 m (outs m) c b) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's random-number register at some state and its
    dues, at nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- REGION 0 over the thread state: entered from every unscoped buffer at the entry contents, left at the exit
    contents. Its arrays split out of the unscoped buffers and put back at the exit contents; the random-number
    register into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => V3 m c b) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => V3 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V3 m c b) (fun b => V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the entry contents, left at the exit
    contents. Its arrays split out of the unscoped buffers and put back at the exit contents; the random-number
    register into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (fun c b => V5 m (outs m) c b) c).loose
  hwaits := Pipeline.hwaits_of_owed_zero _ _ _ _ L lv 1 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V5 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V5 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V5 m (outs m) c b) (fun b => V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at the entry contents, left at the exit
    contents. Its arrays split out of the unscoped buffers and put back at the exit contents; the random-number
    register into the invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (fun c b => V7 m (outs m) c b) c).loose
  hwaits := Pipeline.hwaits_of_owed_zero _ _ _ _ L lv 2 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => V7 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V7 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V7 m (outs m) c b) (fun b => V8 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at the entry contents, left at the exit
    contents. Its arrays split out of the unscoped buffers and put back at the exit contents; the random-number
    register into the invariant and out; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (fun c b => V9 m (outs m) c b) c).loose
  hwaits := Pipeline.hwaits_of_owed_zero _ _ _ _ L lv 3 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec3 c (fun b => V9 m (outs m) c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => V9 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => V9 m (outs m) c b) (fun b => V10 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- The launch element yields the pipelines' at every staging cell; no ghost resource rides along. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The launch makes the first rest state on every core: the random-number register as dealt, nothing owed. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE FRAME: from any memory with zero counters, every weakly fair execution of @main on the TensorCores
    terminates, and every final memory holds each argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_cond m emb₁ () 𝒱₀ L lv (fun _ _ => rfl) ρ (outs m) (pdats m) 0 (fun _ => iprop(emp))
    (initOf (Pipeline.cells cfgs cellOf_inj) (Pipeline.launchToks cfgs cellOf_inj)) hu₀
    (fun _ c => R c) (hE0 ρ) (fun c => by iintro ⟨-, HO⟩; iexact HO)
    (reg0 m) (fun c => .rfl) (fun c => .rfl)
    (reg1 m) (fun c => .rfl) (fun c => .rfl)
    (reg2 m) (fun c => .rfl) (fun c => .rfl)
    (reg3 m) (fun c => .rfl) (fun c => .rfl)

end Cert.Kernel.Hand

end
-- ==== Proof.KIData.lean ====
import proofs.«125319_j22917945491468_1_alg».proof.Proof.Gen.KernelIdeal.Launch
import proofs.«125319_j22917945491468_1_alg».proof.Proof.Gen.KernelIdeal.Skeleton
import proofs.«125319_j22917945491468_1_alg».proof.Proof.Gen.KernelIdeal.Points

import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The proof data of the four kernel regions, at a parameter `V`: the TensorCore's buffer contents when the
    region is entered -/

/-- The whole-block rectangle of a 5000x64 staging buffer: what every load and store of an activation block accesses. -/
abbrev rX : Rect S5000x64 := Rect.unit (s := S5000x64) ![0, 0] S5000x64.size inb_S5000x64_S5000x64_0_0
/-- The whole-block rectangle of a 64x64 staging buffer: what every load of a weight block accesses. -/
abbrev rW : Rect S64x64 := Rect.unit (s := S64x64) ![0, 0] S64x64.size inb_S64x64_S64x64_0_0

variable (V : (c : Dev nD) → (b : Ref sig .tc) → Buf (Elt F) ((c : Thread nD τ).loc b))

/-! ## Region 0: the layer kernel of pipeline 0 -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 3's staging buffer after the body: its one store, over the whole block. -/
def out0_3 (x0 : Vec F S5000x64 .f32) : Vec F S5000x64 .f32 :=
  View.canon [⟨rX, View.ld x0 rX⟩]

/-- Window 4's staging buffer after the body: its one store, over the whole block. -/
def out0_4 (x0 : Vec F S5000x64 .f32) (w1 : Vec F S64x64 .bf16) (w2 : Vec F S64x64 .bf16) : Vec F S5000x64 .f32 :=
  View.canon [⟨rX, k0_pay1 (View.ld x0 rX) (View.ld w1 rW) (View.ld w2 rW)⟩]

/-- The proof data of pipeline 0 on core `c`: the arrays as the region finds them; after the body at point `t`
    each input's buffer at its block and each output's at what the stores leave, from the input blocks; the
    invariant the scoped rest and the random-number register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t)
    | ⟨4, _⟩ => out0_4 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) := by dsimp only [dat0]
theorem after0_4 (c : Dev nD) (t : Fin cfg0.N) :
    (dat0 V c).after 4 t = out0_4 (iblk0 V c 0 t) (iblk0 V c 1 t) (iblk0 V c 2 t) := by dsimp only [dat0]

/-! ## Region 1: the layer kernel of pipeline 1 -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 3's staging buffer after the body: its one store, over the whole block. -/
def out1_3 (x0 : Vec F S5000x64 .f32) : Vec F S5000x64 .f32 :=
  View.canon [⟨rX, k1_pay1 (View.ld x0 rX)⟩]

/-- Window 4's staging buffer after the body: its one store, over the whole block. -/
def out1_4 (x0 : Vec F S5000x64 .f32) (w1 : Vec F S64x64 .bf16) (w2 : Vec F S64x64 .bf16) : Vec F S5000x64 .f32 :=
  View.canon [⟨rX, k1_pay2 (View.ld x0 rX) (View.ld w1 rW) (View.ld w2 rW)⟩]

/-- The proof data of pipeline 1 on core `c`: the arrays as the region finds them; after the body at point `t`
    each input's buffer at its block and each output's at what the stores leave, from the input blocks; the
    invariant the scoped rest and the random-number register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t)
    | ⟨4, _⟩ => out1_4 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) := by dsimp only [dat1]
theorem after1_4 (c : Dev nD) (t : Fin cfg1.N) :
    (dat1 V c).after 4 t = out1_4 (iblk1 V c 0 t) (iblk1 V c 1 t) (iblk1 V c 2 t) := by dsimp only [dat1]

/-! ## Region 2: the layer kernel of pipeline 2 -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Window 3's staging buffer after the body: its one store, over the whole block. -/
def out2_3 (x0 : Vec F S5000x64 .f32) : Vec F S5000x64 .f32 :=
  View.canon [⟨rX, k2_pay1 (View.ld x0 rX)⟩]

/-- Window 4's staging buffer after the body: its one store, over the whole block. -/
def out2_4 (x0 : Vec F S5000x64 .f32) (w1 : Vec F S64x64 .bf16) (w2 : Vec F S64x64 .bf16) : Vec F S5000x64 .f32 :=
  View.canon [⟨rX, k2_pay2 (View.ld x0 rX) (View.ld w1 rW) (View.ld w2 rW)⟩]

/-- The proof data of pipeline 2 on core `c`: the arrays as the region finds them; after the body at point `t`
    each input's buffer at its block and each output's at what the stores leave, from the input blocks; the
    invariant the scoped rest and the random-number register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t)
    | ⟨4, _⟩ => out2_4 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) := by dsimp only [dat2]
theorem after2_4 (c : Dev nD) (t : Fin cfg2.N) :
    (dat2 V c).after 4 t = out2_4 (iblk2 V c 0 t) (iblk2 V c 1 t) (iblk2 V c 2 t) := by dsimp only [dat2]

/-! ## Region 3: the activation kernel of pipeline 3 -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Window 1's staging buffer after the body: its one store, over the whole block. -/
def out3_1 (x0 : Vec F S5000x64 .f32) : Vec F S5000x64 .f32 :=
  View.canon [⟨rX, k3_pay1 (View.ld x0 rX)⟩]

/-- The proof data of pipeline 3 on core `c`: the arrays as the region finds them; after the body at point `t`
    the input's buffer at its block and the output's at what the store leaves, from the input block; the
    invariant the scoped rest and the random-number register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]

end Cert.KernelIdeal.Hand

end
-- ==== Proof.KIOuts.lean ====
import proofs.«125319_j22917945491468_1_alg».proof.Proof.Gen.KernelIdeal.Launch
import proofs.«125319_j22917945491468_1_alg».proof.Proof.Gen.KernelIdeal.Skeleton
import proofs.«125319_j22917945491468_1_alg».proof.Proof.Gen.KernelIdeal.Points
import proofs.«125319_j22917945491468_1_alg».proof.Proof.KIData
import proofs.«125319_j22917945491468_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the four kernel regions leave, and the buffer contents at their exits

The buffer contents at each boundary are the fold `Gen.VJ` through @main from the launch memory `m`, over what the
regions leave (`outs`). Here `outs` is chosen: a region's exit contents are its entry contents with each window's array
at what the pipeline's write-backs leave. -/

variable (m : (ℓ : Loc nD τ sig) → Buf (Elt F) ℓ)

/-! ## What the regions leave -/

/-- A family of region outputs from the four regions' exit contents (read at 4, 6, 8, 10 only; `d` elsewhere). -/
def mkOuts (d o4 o6 o8 o10 : (r : Ref sig .tc) → (c : Dev nD) → Buf (Elt F) ((c : Thread nD τ).loc r)) : Outs (F := F) :=
  fun n r c => match n with
    | 4 => o4 r c
    | 6 => o6 r c
    | 8 => o8 r c
    | 10 => o10 r c
    | _ => d r c

/-- The launch contents: the placeholder for a region not yet reached. -/
abbrev o0 : (r : Ref sig .tc) → (c : Dev nD) → Buf (Elt F) ((c : Thread nD τ).loc r) := fun r c => m ((c : Thread nD τ).loc r)

/-- Region 0's exit contents: its arrays at what the pipeline leaves, every other buffer as entered. -/
def X4 (c : Dev nD) : Valuation τ sig (Elt F) :=
  Pipeline.withArrays spec0 c (V3 m c) fun w => (dat0 (fun c b => V3 m c b) c).arrAt w cfg0.N
abbrev outsA : Outs (F := F) := mkOuts (o0 m) (fun r c => X4 m c r) (o0 m) (o0 m) (o0 m)
/-- Region 1's exit contents. -/
def X6 (c : Dev nD) : Valuation τ sig (Elt F) :=
  Pipeline.withArrays spec1 c (V5 m (outsA m) c) fun w => (dat1 (fun c b => V5 m (outsA m) c b) c).arrAt w cfg1.N
abbrev outsB : Outs (F := F) := mkOuts (o0 m) (fun r c => X4 m c r) (fun r c => X6 m c r) (o0 m) (o0 m)
/-- Region 2's exit contents. -/
def X8 (c : Dev nD) : Valuation τ sig (Elt F) :=
  Pipeline.withArrays spec2 c (V7 m (outsB m) c) fun w => (dat2 (fun c b => V7 m (outsB m) c b) c).arrAt w cfg2.N
abbrev outsC : Outs (F := F) := mkOuts (o0 m) (fun r c => X4 m c r) (fun r c => X6 m c r) (fun r c => X8 m c r) (o0 m)
/-- Region 3's exit contents. -/
def X10 (c : Dev nD) : Valuation τ sig (Elt F) :=
  Pipeline.withArrays spec3 c (V9 m (outsC m) c) fun w => (dat3 (fun c b => V9 m (outsC m) c b) c).arrAt w cfg3.N
/-- What the four regions leave in the buffers they may change. -/
def outs : Outs (F := F) := mkOuts (o0 m) (fun r c => X4 m c r) (fun r c => X6 m c r) (fun r c => X8 m c r) (fun r c => X10 m c r)

/-- Each region's entry contents read only the earlier regions' outputs. -/
theorem V5_outs (c : Dev nD) : V5 m (outs m) c = V5 m (outsA m) c := rfl
theorem V7_outs (c : Dev nD) : V7 m (outs m) c = V7 m (outsB m) c := rfl
theorem V9_outs (c : Dev nD) : V9 m (outs m) c = V9 m (outsC m) c := rfl

/-! ## The exit contents at the output arrays -/

section
variable (o : Outs (F := F))
theorem V4_at_main_v33_0 (c : Dev nD) : V4 m o c main_v33_0 = o 4 main_v33_0 c := by
  simp only [V4, Function.update_of_ne (StableHlo.devRef_ne_of_ne (by decide) : (Proc.devRef .tc main_v33_0 : DevRef τ sig) ≠ Proc.devRef .tc main_v33_1), Function.update_self]
theorem V4_at_main_v33_1 (c : Dev nD) : V4 m o c main_v33_1 = o 4 main_v33_1 c := by
  simp only [V4, Function.update_self]
theorem V6_at_main_v55_0 (c : Dev nD) : V6 m o c main_v55_0 = o 6 main_v55_0 c := by
  simp only [V6, Function.update_of_ne (StableHlo.devRef_ne_of_ne (by decide) : (Proc.devRef .tc main_v55_0 : DevRef τ sig) ≠ Proc.devRef .tc main_v55_1), Function.update_self]
theorem V6_at_main_v55_1 (c : Dev nD) : V6 m o c main_v55_1 = o 6 main_v55_1 c := by
  simp only [V6, Function.update_self]
theorem V8_at_main_v77_0 (c : Dev nD) : V8 m o c main_v77_0 = o 8 main_v77_0 c := by
  simp only [V8, Function.update_of_ne (StableHlo.devRef_ne_of_ne (by decide) : (Proc.devRef .tc main_v77_0 : DevRef τ sig) ≠ Proc.devRef .tc main_v77_1), Function.update_self]
theorem V8_at_main_v77_1 (c : Dev nD) : V8 m o c main_v77_1 = o 8 main_v77_1 c := by
  simp only [V8, Function.update_self]
theorem V10_at_main_v91 (c : Dev nD) : V10 m o c main_v91 = o 10 main_v91 c := by
  simp only [V10, Function.update_self]
end

/-! ## What `outs` holds at the output arrays: the pipeline's write-backs folded -/

theorem outs_0_3 (c : Dev nD) : outs m 4 main_v33_0 c = (dat0 (fun c b => V3 m c b) c).arrAt 3 cfg0.N := by
  show X4 m c main_v33_0 = _
  unfold X4; exact Pipeline.withArrays_arr spec0 launch0.win.arr_inj c _ _ 3
theorem outs_0_4 (c : Dev nD) : outs m 4 main_v33_1 c = (dat0 (fun c b => V3 m c b) c).arrAt 4 cfg0.N := by
  show X4 m c main_v33_1 = _
  unfold X4; exact Pipeline.withArrays_arr spec0 launch0.win.arr_inj c _ _ 4
theorem outs_1_3 (c : Dev nD) : outs m 6 main_v55_0 c = (dat1 (fun c b => V5 m (outs m) c b) c).arrAt 3 cfg1.N := by
  show X6 m c main_v55_0 = (dat1 (fun c b => V5 m (outsA m) c b) c).arrAt 3 cfg1.N
  unfold X6; exact Pipeline.withArrays_arr spec1 launch1.win.arr_inj c _ _ 3
theorem outs_1_4 (c : Dev nD) : outs m 6 main_v55_1 c = (dat1 (fun c b => V5 m (outs m) c b) c).arrAt 4 cfg1.N := by
  show X6 m c main_v55_1 = (dat1 (fun c b => V5 m (outsA m) c b) c).arrAt 4 cfg1.N
  unfold X6; exact Pipeline.withArrays_arr spec1 launch1.win.arr_inj c _ _ 4
theorem outs_2_3 (c : Dev nD) : outs m 8 main_v77_0 c = (dat2 (fun c b => V7 m (outs m) c b) c).arrAt 3 cfg2.N := by
  show X8 m c main_v77_0 = (dat2 (fun c b => V7 m (outsB m) c b) c).arrAt 3 cfg2.N
  unfold X8; exact Pipeline.withArrays_arr spec2 launch2.win.arr_inj c _ _ 3
theorem outs_2_4 (c : Dev nD) : outs m 8 main_v77_1 c = (dat2 (fun c b => V7 m (outs m) c b) c).arrAt 4 cfg2.N := by
  show X8 m c main_v77_1 = (dat2 (fun c b => V7 m (outsB m) c b) c).arrAt 4 cfg2.N
  unfold X8; exact Pipeline.withArrays_arr spec2 launch2.win.arr_inj c _ _ 4
theorem outs_3_1 (c : Dev nD) : outs m 10 main_v91 c = (dat3 (fun c b => V9 m (outs m) c b) c).arrAt 1 cfg3.N := by
  show X10 m c main_v91 = (dat3 (fun c b => V9 m (outsC m) c b) c).arrAt 1 cfg3.N
  unfold X10; exact Pipeline.withArrays_arr spec3 launch3.win.arr_inj c _ _ 1

/-- The same equations under the names of what the arrays carry: the layer's activations and messages. -/
theorem outs_x0 (c : Dev nD) : outs m 4 main_v33_0 c = (dat0 (fun c b => V3 m c b) c).arrAt 3 cfg0.N := outs_0_3 m c
theorem outs_msg0 (c : Dev nD) : outs m 4 main_v33_1 c = (dat0 (fun c b => V3 m c b) c).arrAt 4 cfg0.N := outs_0_4 m c
theorem outs_x1 (c : Dev nD) : outs m 6 main_v55_0 c = (dat1 (fun c b => V5 m (outs m) c b) c).arrAt 3 cfg1.N := outs_1_3 m c
theorem outs_msg1 (c : Dev nD) : outs m 6 main_v55_1 c = (dat1 (fun c b => V5 m (outs m) c b) c).arrAt 4 cfg1.N := outs_1_4 m c
theorem outs_x2 (c : Dev nD) : outs m 8 main_v77_0 c = (dat2 (fun c b => V7 m (outs m) c b) c).arrAt 3 cfg2.N := outs_2_3 m c
theorem outs_msg2 (c : Dev nD) : outs m 8 main_v77_1 c = (dat2 (fun c b => V7 m (outs m) c b) c).arrAt 4 cfg2.N := outs_2_4 m c
theorem outs_x3 (c : Dev nD) : outs m 10 main_v91 c = (dat3 (fun c b => V9 m (outs m) c b) c).arrAt 1 cfg3.N := outs_3_1 m c

/-! ## The two hypotheses of putting a region's arrays back among the unscoped buffers -/

set_option maxHeartbeats 2000000 in
/-- At region 0's exit each of its arrays holds what the pipeline leaves: an input's array is as entered, an output's
    is the region's entry in `outs`. -/
theorem hF0 (c : Dev nD) (w : Fin cfg0.W) :
    (dat0 (fun c b => V3 m c b) c).arrAt w cfg0.N = V4 m (outs m) c (Pipeline.arrRef spec0 w) := by
  match w with
  | ⟨0, _⟩ =>
    exact ((dat0 (fun c b => V3 m c b) c).arrAt_in 0 rfl _).trans
      ((A_eq0 (fun c b => V3 m c b) c 0).trans (V4_of m (outs m) c _ (by decide)).symm)
  | ⟨1, _⟩ =>
    exact ((dat0 (fun c b => V3 m c b) c).arrAt_in 1 rfl _).trans
      ((A_eq0 (fun c b => V3 m c b) c 1).trans (V4_of m (outs m) c _ (by decide)).symm)
  | ⟨2, _⟩ =>
    exact ((dat0 (fun c b => V3 m c b) c).arrAt_in 2 rfl _).trans
      ((A_eq0 (fun c b => V3 m c b) c 2).trans (V4_of m (outs m) c _ (by decide)).symm)
  | ⟨3, _⟩ => exact (outs_0_3 m c).symm.trans (V4_at_main_v33_0 m (outs m) c).symm
  | ⟨4, _⟩ => exact (outs_0_4 m c).symm.trans (V4_at_main_v33_1 m (outs m) c).symm

/-- Every other buffer holds at region 0's exit what it held at entry. -/
theorem hrest0 (c : Dev nD) : ∀ b, b ∉ Finset.univ.image (Pipeline.arrRef spec0) → V4 m (outs m) c b = V3 m c b :=
  fun b hb => V4_of m (outs m) c b fun hmem => hb (Finset.mem_image.mpr (by
    rcases List.mem_cons.mp hmem with h | h
    · exact ⟨3, Finset.mem_univ _, h.symm⟩
    · exact ⟨4, Finset.mem_univ _, (List.mem_singleton.mp h).symm⟩))

set_option maxHeartbeats 2000000 in
/-- At region 1's exit each of its arrays holds what the pipeline leaves: an input's array is as entered, an output's
    is the region's entry in `outs`. -/
theorem hF1 (c : Dev nD) (w : Fin cfg1.W) :
    (dat1 (fun c b => V5 m (outs m) c b) c).arrAt w cfg1.N = V6 m (outs m) c (Pipeline.arrRef spec1 w) := by
  match w with
  | ⟨0, _⟩ =>
    exact ((dat1 (fun c b => V5 m (outs m) c b) c).arrAt_in 0 rfl _).trans
      ((A_eq1 (fun c b => V5 m (outs m) c b) c 0).trans (V6_of m (outs m) c _ (by decide)).symm)
  | ⟨1, _⟩ =>
    exact ((dat1 (fun c b => V5 m (outs m) c b) c).arrAt_in 1 rfl _).trans
      ((A_eq1 (fun c b => V5 m (outs m) c b) c 1).trans (V6_of m (outs m) c _ (by decide)).symm)
  | ⟨2, _⟩ =>
    exact ((dat1 (fun c b => V5 m (outs m) c b) c).arrAt_in 2 rfl _).trans
      ((A_eq1 (fun c b => V5 m (outs m) c b) c 2).trans (V6_of m (outs m) c _ (by decide)).symm)
  | ⟨3, _⟩ => exact (outs_1_3 m c).symm.trans (V6_at_main_v55_0 m (outs m) c).symm
  | ⟨4, _⟩ => exact (outs_1_4 m c).symm.trans (V6_at_main_v55_1 m (outs m) c).symm

/-- Every other buffer holds at region 1's exit what it held at entry. -/
theorem hrest1 (c : Dev nD) : ∀ b, b ∉ Finset.univ.image (Pipeline.arrRef spec1) → V6 m (outs m) c b = V5 m (outs m) c b :=
  fun b hb => V6_of m (outs m) c b fun hmem => hb (Finset.mem_image.mpr (by
    rcases List.mem_cons.mp hmem with h | h
    · exact ⟨3, Finset.mem_univ _, h.symm⟩
    · exact ⟨4, Finset.mem_univ _, (List.mem_singleton.mp h).symm⟩))

set_option maxHeartbeats 2000000 in
/-- At region 2's exit each of its arrays holds what the pipeline leaves: an input's array is as entered, an output's
    is the region's entry in `outs`. -/
theorem hF2 (c : Dev nD) (w : Fin cfg2.W) :
    (dat2 (fun c b => V7 m (outs m) c b) c).arrAt w cfg2.N = V8 m (outs m) c (Pipeline.arrRef spec2 w) := by
  match w with
  | ⟨0, _⟩ =>
    exact ((dat2 (fun c b => V7 m (outs m) c b) c).arrAt_in 0 rfl _).trans
      ((A_eq2 (fun c b => V7 m (outs m) c b) c 0).trans (V8_of m (outs m) c _ (by decide)).symm)
  | ⟨1, _⟩ =>
    exact ((dat2 (fun c b => V7 m (outs m) c b) c).arrAt_in 1 rfl _).trans
      ((A_eq2 (fun c b => V7 m (outs m) c b) c 1).trans (V8_of m (outs m) c _ (by decide)).symm)
  | ⟨2, _⟩ =>
    exact ((dat2 (fun c b => V7 m (outs m) c b) c).arrAt_in 2 rfl _).trans
      ((A_eq2 (fun c b => V7 m (outs m) c b) c 2).trans (V8_of m (outs m) c _ (by decide)).symm)
  | ⟨3, _⟩ => exact (outs_2_3 m c).symm.trans (V8_at_main_v77_0 m (outs m) c).symm
  | ⟨4, _⟩ => exact (outs_2_4 m c).symm.trans (V8_at_main_v77_1 m (outs m) c).symm

/-- Every other buffer holds at region 2's exit what it held at entry. -/
theorem hrest2 (c : Dev nD) : ∀ b, b ∉ Finset.univ.image (Pipeline.arrRef spec2) → V8 m (outs m) c b = V7 m (outs m) c b :=
  fun b hb => V8_of m (outs m) c b fun hmem => hb (Finset.mem_image.mpr (by
    rcases List.mem_cons.mp hmem with h | h
    · exact ⟨3, Finset.mem_univ _, h.symm⟩
    · exact ⟨4, Finset.mem_univ _, (List.mem_singleton.mp h).symm⟩))

set_option maxHeartbeats 2000000 in
/-- At region 3's exit each of its arrays holds what the pipeline leaves: an input's array is as entered, an output's
    is the region's entry in `outs`. -/
theorem hF3 (c : Dev nD) (w : Fin cfg3.W) :
    (dat3 (fun c b => V9 m (outs m) c b) c).arrAt w cfg3.N = V10 m (outs m) c (Pipeline.arrRef spec3 w) := by
  match w with
  | ⟨0, _⟩ =>
    exact ((dat3 (fun c b => V9 m (outs m) c b) c).arrAt_in 0 rfl _).trans
      ((A_eq3 (fun c b => V9 m (outs m) c b) c 0).trans (V10_of m (outs m) c _ (by decide)).symm)
  | ⟨1, _⟩ => exact (outs_3_1 m c).symm.trans (V10_at_main_v91 m (outs m) c).symm

/-- Every other buffer holds at region 3's exit what it held at entry. -/
theorem hrest3 (c : Dev nD) : ∀ b, b ∉ Finset.univ.image (Pipeline.arrRef spec3) → V10 m (outs m) c b = V9 m (outs m) c b :=
  fun b hb => V10_of m (outs m) c b fun hmem => hb (Finset.mem_image.mpr (by
    exact ⟨1, Finset.mem_univ _, (List.mem_singleton.mp hmem).symm⟩))

end Cert.KernelIdeal.Hand

end
-- ==== Proof.KIHalf0.lean ====
import proofs.«125319_j22917945491468_1_alg».proof.Proof.Gen.KernelIdeal.Launch
import proofs.«125319_j22917945491468_1_alg».proof.Proof.Gen.KernelIdeal.Skeleton
import proofs.«125319_j22917945491468_1_alg».proof.Proof.Gen.KernelIdeal.Points
import proofs.«125319_j22917945491468_1_alg».proof.Proof.KIData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the layer kernel of pipeline 0) at a parameter `V`: the buffer contents at region entry -/

variable (V : (c : Dev nD) → (b : Ref sig .tc) → Buf (Elt F) ((c : Thread nD τ).loc b))

/-- An input window's current staging buffer holds its block at every point, fetched there or not, for any proof
    data whose array is `V`'s and whose body leaves the block in place: unfetched, the block index has not moved
    (the two weight windows have a constant index map and are fetched at the first point only). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Each output's one store covers its buffer: the rectangle is the whole block. -/
theorem cover0 (p0 : Vec F S5000x64 .f32) (y : S5000x64.Idx) :
    ∃ pc ∈ ([⟨rX, p0⟩] : List (View.Piece (Elt F) S5000x64 .f32)), y ∈ pc.1.set :=
  View.cover_of_tiled [⟨rX, p0⟩] S5000x64.size (by rfl) y

set_option maxHeartbeats 4000000 in
/-- The kernel body on whole staging memrefs, the inputs' at read contents `x0`, `w1`, `w2` and the outputs' at
    anything, runs to the continuation holding the inputs' as they were and the outputs' at `out0_3`, `out0_4`
    of the inputs'. -/
theorem sound_kernel0 (c : Dev nD) (E : Set ℕ) (i : grid0.Coords)
    (arg1 : Memref sig .tc .vmem S5000x64 .f32) (harg1 : arg1.IsWhole)
    (arg2 : Memref sig .tc .vmem S64x64 .bf16) (harg2 : arg2.IsWhole)
    (arg3 : Memref sig .tc .vmem S64x64 .bf16) (harg3 : arg3.IsWhole)
    (arg4 : Memref sig .tc .vmem S5000x64 .f32) (harg4 : arg4.IsWhole)
    (arg5 : Memref sig .tc .vmem S5000x64 .f32) (harg5 : arg5.IsWhole)
    (x0 : Vec F S5000x64 .f32) (w1 : Vec F S64x64 .bf16) (w2 : Vec F S64x64 .bf16) (K : PUnit → sProp 𝕄) :
    iprop(owns (c : Thread nD τ) arg1 fullShare x0 ∗ owns (c : Thread nD τ) arg2 fullShare w1 ∗ owns (c : Thread nD τ) arg3 fullShare w2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare w1 ∗ owns (c : Thread nD τ) arg3 fullShare w2
            ∗ owns (c : Thread nD τ) arg4 fullShare (out0_3 x0) ∗ owns (c : Thread nD τ) arg5 fullShare (out0_4 x0 w1 w2)) -∗ K ⟨⟩))
      ⊢ wp frame (wpE (defs₀ (F := F)) Variants.none c none) E (cc0__layer_kernel i arg1 harg1 arg2 harg2 arg3 harg3 arg4 harg4 arg5 harg5) K := by
  simp only [cc0__layer_kernel_eq_skeleton]; unfold cc0__layer_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so `sound_kernel0` applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIHalf1.lean ====
import proofs.«125319_j22917945491468_1_alg».proof.Proof.Gen.KernelIdeal.Launch
import proofs.«125319_j22917945491468_1_alg».proof.Proof.Gen.KernelIdeal.Skeleton
import proofs.«125319_j22917945491468_1_alg».proof.Proof.Gen.KernelIdeal.Points
import proofs.«125319_j22917945491468_1_alg».proof.Proof.KIData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the layer kernel of pipeline 1) at a parameter `V`: the buffer contents at region entry -/

variable (V : (c : Dev nD) → (b : Ref sig .tc) → Buf (Elt F) ((c : Thread nD τ).loc b))

/-- An input window's current staging buffer holds its block at every point, fetched there or not, for any proof
    data whose array is `V`'s and whose body leaves the block in place: unfetched, the block index has not moved
    (the two weight windows have a constant index map and are fetched at the first point only). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Each output's one store covers its buffer: the rectangle is the whole block. -/
theorem cover1 (p0 : Vec F S5000x64 .f32) (y : S5000x64.Idx) :
    ∃ pc ∈ ([⟨rX, p0⟩] : List (View.Piece (Elt F) S5000x64 .f32)), y ∈ pc.1.set :=
  View.cover_of_tiled [⟨rX, p0⟩] S5000x64.size (by rfl) y

set_option maxHeartbeats 4000000 in
/-- The kernel body on whole staging memrefs, the inputs' at read contents `x0`, `w1`, `w2` and the outputs' at
    anything, runs to the continuation holding the inputs' as they were and the outputs' at `out1_3`, `out1_4`
    of the inputs'. -/
theorem sound_kernel1 (c : Dev nD) (E : Set ℕ) (i : grid1.Coords)
    (arg1 : Memref sig .tc .vmem S5000x64 .f32) (harg1 : arg1.IsWhole)
    (arg2 : Memref sig .tc .vmem S64x64 .bf16) (harg2 : arg2.IsWhole)
    (arg3 : Memref sig .tc .vmem S64x64 .bf16) (harg3 : arg3.IsWhole)
    (arg4 : Memref sig .tc .vmem S5000x64 .f32) (harg4 : arg4.IsWhole)
    (arg5 : Memref sig .tc .vmem S5000x64 .f32) (harg5 : arg5.IsWhole)
    (x0 : Vec F S5000x64 .f32) (w1 : Vec F S64x64 .bf16) (w2 : Vec F S64x64 .bf16) (K : PUnit → sProp 𝕄) :
    iprop(owns (c : Thread nD τ) arg1 fullShare x0 ∗ owns (c : Thread nD τ) arg2 fullShare w1 ∗ owns (c : Thread nD τ) arg3 fullShare w2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare w1 ∗ owns (c : Thread nD τ) arg3 fullShare w2
            ∗ owns (c : Thread nD τ) arg4 fullShare (out1_3 x0) ∗ owns (c : Thread nD τ) arg5 fullShare (out1_4 x0 w1 w2)) -∗ K ⟨⟩))
      ⊢ wp frame (wpE (defs₀ (F := F)) Variants.none c none) E (cc1__layer_kernel i arg1 harg1 arg2 harg2 arg3 harg3 arg4 harg4 arg5 harg5) K := by
  simp only [cc1__layer_kernel_eq_skeleton]; unfold cc1__layer_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1 _)
  iexists _; isplitr
  swap; · iexact H4
  ipureintro
  exact View.read_writes_eq_canon _ _ _ (cover1 _)

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_kernel1` applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIHalf2.lean ====
import proofs.«125319_j22917945491468_1_alg».proof.Proof.Gen.KernelIdeal.Launch
import proofs.«125319_j22917945491468_1_alg».proof.Proof.Gen.KernelIdeal.Skeleton
import proofs.«125319_j22917945491468_1_alg».proof.Proof.Gen.KernelIdeal.Points
import proofs.«125319_j22917945491468_1_alg».proof.Proof.KIData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 (the layer kernel of pipeline 2) at a parameter `V`: the buffer contents at region entry -/

variable (V : (c : Dev nD) → (b : Ref sig .tc) → Buf (Elt F) ((c : Thread nD τ).loc b))

/-- An input window's current staging buffer holds its block at every point, fetched there or not, for any proof
    data whose array is `V`'s and whose body leaves the block in place: unfetched, the block index has not moved
    (the two weight windows have a constant index map and are fetched at the first point only). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Each output's one store covers its buffer: the rectangle is the whole block. -/
theorem cover2 (p0 : Vec F S5000x64 .f32) (y : S5000x64.Idx) :
    ∃ pc ∈ ([⟨rX, p0⟩] : List (View.Piece (Elt F) S5000x64 .f32)), y ∈ pc.1.set :=
  View.cover_of_tiled [⟨rX, p0⟩] S5000x64.size (by rfl) y

set_option maxHeartbeats 4000000 in
/-- The kernel body on whole staging memrefs, the inputs' at read contents `x0`, `w1`, `w2` and the outputs' at
    anything, runs to the continuation holding the inputs' as they were and the outputs' at `out2_3`, `out2_4`
    of the inputs'. -/
theorem sound_kernel2 (c : Dev nD) (E : Set ℕ) (i : grid2.Coords)
    (arg1 : Memref sig .tc .vmem S5000x64 .f32) (harg1 : arg1.IsWhole)
    (arg2 : Memref sig .tc .vmem S64x64 .bf16) (harg2 : arg2.IsWhole)
    (arg3 : Memref sig .tc .vmem S64x64 .bf16) (harg3 : arg3.IsWhole)
    (arg4 : Memref sig .tc .vmem S5000x64 .f32) (harg4 : arg4.IsWhole)
    (arg5 : Memref sig .tc .vmem S5000x64 .f32) (harg5 : arg5.IsWhole)
    (x0 : Vec F S5000x64 .f32) (w1 : Vec F S64x64 .bf16) (w2 : Vec F S64x64 .bf16) (K : PUnit → sProp 𝕄) :
    iprop(owns (c : Thread nD τ) arg1 fullShare x0 ∗ owns (c : Thread nD τ) arg2 fullShare w1 ∗ owns (c : Thread nD τ) arg3 fullShare w2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare w1 ∗ owns (c : Thread nD τ) arg3 fullShare w2
            ∗ owns (c : Thread nD τ) arg4 fullShare (out2_3 x0) ∗ owns (c : Thread nD τ) arg5 fullShare (out2_4 x0 w1 w2)) -∗ K ⟨⟩))
      ⊢ wp frame (wpE (defs₀ (F := F)) Variants.none c none) E (cc2__layer_kernel i arg1 harg1 arg2 harg2 arg3 harg3 arg4 harg4 arg5 harg5) K := by
  simp only [cc2__layer_kernel_eq_skeleton]; unfold cc2__layer_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover2 _)
  iexists _; isplitr
  swap; · iexact H4
  ipureintro
  exact View.read_writes_eq_canon _ _ _ (cover2 _)

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so `sound_kernel2` applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIHalf3.lean ====
import proofs.«125319_j22917945491468_1_alg».proof.Proof.Gen.KernelIdeal.Launch
import proofs.«125319_j22917945491468_1_alg».proof.Proof.Gen.KernelIdeal.Skeleton
import proofs.«125319_j22917945491468_1_alg».proof.Proof.Gen.KernelIdeal.Points
import proofs.«125319_j22917945491468_1_alg».proof.Proof.KIData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3 (the activation kernel, pipeline 3) at a parameter `V`: the buffer contents at region entry -/

variable (V : (c : Dev nD) → (b : Ref sig .tc) → Buf (Elt F) ((c : Thread nD τ).loc b))

/-- Input window 0's current staging buffer holds its block at every point, fetched there or not, for any proof
    data whose array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The one store covers the output buffer: its rectangle is the whole block. -/
theorem cover3_1 (p0 : Vec F S5000x64 .f32) (y : S5000x64.Idx) :
    ∃ pc ∈ ([⟨rX, p0⟩] : List (View.Piece (Elt F) S5000x64 .f32)), y ∈ pc.1.set :=
  View.cover_of_tiled [⟨rX, p0⟩] S5000x64.size (by rfl) y

set_option maxHeartbeats 1000000 in
/-- The kernel body on whole staging memrefs, the input's at read contents `x0` and the output's at anything, runs to
    the continuation holding the input's as it was and the output's at `out3_1 x0`. -/
theorem sound_kernel3 (c : Dev nD) (E : Set ℕ) (i : grid3.Coords) (arg1 : Memref sig .tc .vmem S5000x64 .f32) (harg1 : arg1.IsWhole)
    (arg2 : Memref sig .tc .vmem S5000x64 .f32) (harg2 : arg2.IsWhole)
    (x0 : Vec F S5000x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out3_1 x0)) -∗ K ⟨⟩))
      ⊢ wp frame (wpE (defs₀ (F := F)) Variants.none c none) E (cc3__activate_kernel i arg1 harg1 arg2 harg2) K := by
  simp only [cc3__activate_kernel_eq_skeleton]; unfold cc3__activate_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-- The input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

/-- The body at any point: the input's memref holds its block, so `sound_kernel3` applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ _ _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KIFrame.lean ====
import proofs.«125319_j22917945491468_1_alg».proof.Proof.Gen.KernelIdeal.Launch
import proofs.«125319_j22917945491468_1_alg».proof.Proof.Gen.KernelIdeal.Skeleton
import proofs.«125319_j22917945491468_1_alg».proof.Proof.Gen.KernelIdeal.Points
import proofs.«125319_j22917945491468_1_alg».proof.Proof.KIOuts
import proofs.«125319_j22917945491468_1_alg».proof.Proof.KIHalf0
import proofs.«125319_j22917945491468_1_alg».proof.Proof.KIHalf1
import proofs.«125319_j22917945491468_1_alg».proof.Proof.KIHalf2
import proofs.«125319_j22917945491468_1_alg».proof.Proof.KIHalf3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: the four kernel regions as segments between the host stretches, and the frame -/

variable (m : (ℓ : Loc nD τ sig) → Buf (Elt F) ℓ)

/-! ## The proof data family and the thread state -/

/-- Every pipeline's proof data, each at its region's entry contents: a literal match. -/
def pdats : (p : Fin 4) → (c : Dev nD) → Dat τ (Elt F) Unit ℕ (UR sig nD τ) ℕ (cfgs p) c
  | ⟨0, _⟩ => fun c => dat0 (fun c b => V3 m c b) c
  | ⟨1, _⟩ => fun c => dat1 (fun c b => V5 m (outs m) c b) c
  | ⟨2, _⟩ => fun c => dat2 (fun c b => V7 m (outs m) c b) c
  | ⟨3, _⟩ => fun c => dat3 (fun c b => V9 m (outs m) c b) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's random-number register at some state and its
    dues, at nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- REGION 0 over the thread state: entered from every unscoped buffer at the entry contents, left at the exit
    contents. Its arrays split out of the unscoped buffers and put back at the exit contents; the random-number
    register into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => V3 m c b) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => V3 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V3 m c b) (fun b => V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the entry contents, left at the exit
    contents. Its arrays split out of the unscoped buffers and put back at the exit contents; the random-number
    register into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (fun c b => V5 m (outs m) c b) c).loose
  hwaits := Pipeline.hwaits_of_owed_zero _ _ _ _ L lv 1 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V5 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V5 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V5 m (outs m) c b) (fun b => V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at the entry contents, left at the exit
    contents. Its arrays split out of the unscoped buffers and put back at the exit contents; the random-number
    register into the invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (fun c b => V7 m (outs m) c b) c).loose
  hwaits := Pipeline.hwaits_of_owed_zero _ _ _ _ L lv 2 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => V7 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V7 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V7 m (outs m) c b) (fun b => V8 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at the entry contents, left at the exit
    contents. Its arrays split out of the unscoped buffers and put back at the exit contents; the random-number
    register into the invariant and out; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (fun c b => V9 m (outs m) c b) c).loose
  hwaits := Pipeline.hwaits_of_owed_zero _ _ _ _ L lv 3 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec3 c (fun b => V9 m (outs m) c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => V9 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => V9 m (outs m) c b) (fun b => V10 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- The launch element yields the pipelines' at every staging cell; no ghost resource rides along. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The launch makes the first rest state on every core: the random-number register as dealt, nothing owed. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE FRAME: from any memory with zero counters, every weakly fair execution of @main on the TensorCores
    terminates, and every final memory holds each argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_cond m emb₁ () 𝒱₀ L lv (fun _ _ => rfl) ρ (outs m) (pdats m) 0 (fun _ => iprop(emp))
    (initOf (Pipeline.cells cfgs cellOf_inj) (Pipeline.launchToks cfgs cellOf_inj)) hu₀
    (fun _ c => R c) (hE0 ρ) (fun c => by iintro ⟨-, HO⟩; iexact HO)
    (reg0 m) (fun c => .rfl) (fun c => .rfl)
    (reg1 m) (fun c => .rfl) (fun c => .rfl)
    (reg2 m) (fun c => .rfl) (fun c => .rfl)
    (reg3 m) (fun c => .rfl) (fun c => .rfl)

/-! ## The run with the result buffer read off the last valuation -/

set_option backward.isDefEq.respectTransparency.types false in
/-- The frame's run, reading one more buffer at the end: every final memory holds in `main_v112` what the fold through
    @main leaves there, beside each argument array as launched. -/
theorem run_value (ρ : Dev nD → PrngReg) : θ_run defs (onTc (τ := τ) (main (F := F))) ⟨m, fun _ => 0, ρ⟩ (fun r => ∀ c : Dev nD,
      r.2.mem ((c.tc : Thread nD τ).loc main_v112) = V11 m (outs m) c main_v112
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m) (reg1 m) (reg2 m) (reg3 m))
    (fun c Q => by
      rewrite [main_chain c, Pipeline.Seg.run_eq_chain,
        show ((segs m (outs m) 𝒱₀ L lv (fun _ c => R c) () (pdats m) (reg0 m) (reg1 m) (reg2 m) (reg3 m)) c).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [segs, Pipeline.Seg.pipes_host, Pipeline.Seg.pipes_region, Pipeline.Seg.pipes_nil]; decide)
    0 (fun _ _ => rfl) (fun _ => iprop(emp))
    (initOf (Pipeline.cells cfgs cellOf_inj) (Pipeline.launchToks cfgs cellOf_inj)) hu₀
    (T₀ := fun c => iprop(StableHlo.held (c : Thread nD τ) (Pipeline.ucRefs τ sig) (V0 m c) ∗ R c))
    (Tₙ := fun c => StableHlo.held (c : Thread nD τ) (Pipeline.ucRefs τ sig) (V11 m (outs m) c))
    (hch := fun c => ⟨.rfl, .rfl, .rfl, .rfl, .rfl, .rfl, .rfl, .rfl, .rfl, .rfl, .rfl,
      sep_mono .rfl (by iintro ⟨-, HO⟩; iexact HO)⟩)
    (hinit := ?_) (QY := fun c s => s.mem ((c.tc : Thread nD τ).loc main_v112) = V11 m (outs m) c main_v112 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- the launch: the unscoped buffers are held at the launch contents; the rest makes the first rest state
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    have hjoin : ∀ A B : Dev nD → sProp 𝕄, iprop(bigSep Finset.univ A ∗ bigSep Finset.univ B) ⊢ bigSep Finset.univ (fun c => iprop(A c ∗ B c)) :=
      fun A B => by rw [bigSep_sep']
    iintro ⟨H, Hla⟩
    ihave H' := hsplit $$ H
    icases H' with ⟨Hh, Hr⟩
    imod (hE0 (F := F) ρ) $$ [Hr Hla] with HE
    · isplitl [Hr]; · iexact Hr
      iexact Hla
    imodintro
    iapply (hjoin (fun c : Dev nD => StableHlo.held (c : Thread nD τ) (Pipeline.ucRefs τ sig) (V0 m c)) (fun c : Dev nD => R (F := F) c))
    isplitl [Hh]; · iexact Hh
    iexact HE
  · -- the end: the result buffer and each argument's read off the last valuation
    unfold StableHlo.held
    iintro ⟨Hh, HSI⟩
    ihave Hr := (pointsTo_read_all (Pipeline.ucRefs τ sig) (fun b => ((c : Thread nD τ).1, b)) (V11 m (outs m) c) s') $$ [Hh HSI]
    · isplitl [Hh] <;> iassumption
    icases Hr with ⟨%h, HSI⟩
    imodintro
    isplitr
    · ipureintro
      exact ⟨h (Proc.devRef .tc main_v112) (Finset.mem_filter.mpr ⟨StableHlo.devRef_mem_tcRefs main_v112, by decide⟩),
        (h (Proc.devRef .tc main_arg0) (Finset.mem_filter.mpr ⟨StableHlo.devRef_mem_tcRefs main_arg0, by decide⟩)).trans (V11_main_arg0 m (outs m) c),
        (h (Proc.devRef .tc main_arg1) (Finset.mem_filter.mpr ⟨StableHlo.devRef_mem_tcRefs main_arg1, by decide⟩)).trans (V11_main_arg1 m (outs m) c),
        (h (Proc.devRef .tc main_arg2) (Finset.mem_filter.mpr ⟨StableHlo.devRef_mem_tcRefs main_arg2, by decide⟩)).trans (V11_main_arg2 m (outs m) c),
        (h (Proc.devRef .tc main_arg3) (Finset.mem_filter.mpr ⟨StableHlo.devRef_mem_tcRefs main_arg3, by decide⟩)).trans (V11_main_arg3 m (outs m) c),
        (h (Proc.devRef .tc main_arg4) (Finset.mem_filter.mpr ⟨StableHlo.devRef_mem_tcRefs main_arg4, by decide⟩)).trans (V11_main_arg4 m (outs m) c),
        (h (Proc.devRef .tc main_arg5) (Finset.mem_filter.mpr ⟨StableHlo.devRef_mem_tcRefs main_arg5, by decide⟩)).trans (V11_main_arg5 m (outs m) c)⟩
    · iexact HSI

end Cert.KernelIdeal.Hand

end
-- ==== Proof.RefOps.lean ====
/- The reference program's @main as a list of its host operations, in order.

   @main is a straight line: no kernel launch, and three outlined functions (`@_where`, `@leaky_relu`, which itself
   calls `@_where_0`) called through the records `main_callK`. Listed with each callee's operations inline at its call
   site over the call's own buffers, it is 164 operations, each writing a buffer of its own: the 164 buffers of the
   signature other than the six arguments. The list is cut where the mathematics cuts — the degree normalisation, the
   edge weights, each layer's message, aggregation and rectifier, the read-out — so that what a buffer holds at the
   end can be read one stage at a time. -/
import proofs.«125319_j22917945491468_1_alg».proof.Proof.Gen.ReferenceIdeal
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-! ## The operations, stage by stage -/

/-- The degree part, `%cst … %9`: ones scattered (added) at the destination indices `%arg4` give each node's in-degree; `%9` is `rsqrt (max deg 1)` where the degree is positive and `0` elsewhere (the inlined `@_where`). (17 operations.) -/
abbrev ops_a : List (HloOp τ sig (Elt F)) :=
  [ StableHlo.nullary main_cst (constant S_ .f32 0x3F800000#32),
    StableHlo.unary main_cst main_v0 (broadcastInDim S1000000 ![] bcast_S_S1000000 : (⟨S_, .f32⟩ : BufTy).Contents (Elt F) → (⟨S1000000, .f32⟩ : BufTy).Contents (Elt F)),
    StableHlo.nullary main_cst_0 (constant S_ .f32 0x00000000#32),
    StableHlo.unary main_cst_0 main_v1 (broadcastInDim S150000 ![] bcast_S_S150000 : (⟨S_, .f32⟩ : BufTy).Contents (Elt F) → (⟨S150000, .f32⟩ : BufTy).Contents (Elt F)),
    StableHlo.unary main_arg4 main_v2 (broadcastInDim S1000000x1 ![0] bcast_S1000000_S1000000x1_0 : (⟨S1000000, .i32⟩ : BufTy).Contents (Elt F) → (⟨S1000000x1, .i32⟩ : BufTy).Contents (Elt F)),
    StableHlo.ternary main_v1 main_v2 main_v0 main_v3 ((fun x i u => Host.scatterAdd scatter_S150000_S1000000x1_S1000000_n_0_0_1 x i u) : (⟨S150000, .f32⟩ : BufTy).Contents (Elt F) → (⟨S1000000x1, .i32⟩ : BufTy).Contents (Elt F) → (⟨S1000000, .f32⟩ : BufTy).Contents (Elt F) → (⟨S150000, .f32⟩ : BufTy).Contents (Elt F)),
    StableHlo.nullary main_cst_1 (constant S_ .f32 0x00000000#32),
    StableHlo.unary main_cst_1 main_v4 (broadcastInDim S150000 ![] bcast_S_S150000 : (⟨S_, .f32⟩ : BufTy).Contents (Elt F) → (⟨S150000, .f32⟩ : BufTy).Contents (Elt F)),
    StableHlo.binary main_v3 main_v4 main_v5 (cmpf .ogt : (⟨S150000, .f32⟩ : BufTy).Contents (Elt F) → (⟨S150000, .f32⟩ : BufTy).Contents (Elt F) → (⟨S150000, .i1⟩ : BufTy).Contents (Elt F)),
    StableHlo.nullary main_cst_2 (constant S_ .f32 0x3F800000#32),
    StableHlo.unary main_cst_2 main_v6 (broadcastInDim S150000 ![] bcast_S_S150000 : (⟨S_, .f32⟩ : BufTy).Contents (Elt F) → (⟨S150000, .f32⟩ : BufTy).Contents (Elt F)),
    StableHlo.binary main_v3 main_v6 main_v7 (maximumf : (⟨S150000, .f32⟩ : BufTy).Contents (Elt F) → (⟨S150000, .f32⟩ : BufTy).Contents (Elt F) → (⟨S150000, .f32⟩ : BufTy).Contents (Elt F)),
    StableHlo.unary main_v7 main_v8 (Host.rsqrt : (⟨S150000, .f32⟩ : BufTy).Contents (Elt F) → (⟨S150000, .f32⟩ : BufTy).Contents (Elt F)),
    StableHlo.nullary main_cst_3 (constant S_ .f32 0x00000000#32),
    StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S150000, .f32⟩) (broadcastInDim S150000 ![] bcast_S_S150000),
    StableHlo.TRef.ternary (.of main_v5 : StableHlo.TRef sig ⟨S150000, .i1⟩) (.of main_v8 : StableHlo.TRef sig ⟨S150000, .f32⟩) (.of main_call0_v1 : StableHlo.TRef sig ⟨S150000, .f32⟩) (.of main_v9 : StableHlo.TRef sig ⟨S150000, .f32⟩) select ]

/-- The edge weights, `%c … %24`: both index vectors wrapped into range (`i < 0 ? i + 150000 : i`), `%9` gathered at the destinations (`%16`) and at the sources (`%23`), and their product `%24`, one weight per edge. (19 operations.) -/
abbrev ops_b : List (HloOp τ sig (Elt F)) :=
  [ StableHlo.nullary main_c (constantI S_ 32 0#32),
    StableHlo.unary main_c main_v10 (broadcastInDim S1000000 ![] bcast_S_S1000000 : (⟨S_, .i32⟩ : BufTy).Contents (Elt F) → (⟨S1000000, .i32⟩ : BufTy).Contents (Elt F)),
    StableHlo.binary main_arg4 main_v10 main_v11 (cmpi .slt : (⟨S1000000, .i32⟩ : BufTy).Contents (Elt F) → (⟨S1000000, .i32⟩ : BufTy).Contents (Elt F) → (⟨S1000000, .i1⟩ : BufTy).Contents (Elt F)),
    StableHlo.nullary main_c_4 (constantI S_ 32 150000#32),
    StableHlo.unary main_c_4 main_v12 (broadcastInDim S1000000 ![] bcast_S_S1000000 : (⟨S_, .i32⟩ : BufTy).Contents (Elt F) → (⟨S1000000, .i32⟩ : BufTy).Contents (Elt F)),
    StableHlo.binary main_arg4 main_v12 main_v13 (addi : (⟨S1000000, .i32⟩ : BufTy).Contents (Elt F) → (⟨S1000000, .i32⟩ : BufTy).Contents (Elt F) → (⟨S1000000, .i32⟩ : BufTy).Contents (Elt F)),
    StableHlo.ternary main_v11 main_v13 main_arg4 main_v14 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v14 main_v15 (broadcastInDim S1000000x1 ![0] bcast_S1000000_S1000000x1_0 : (⟨S1000000, .i32⟩ : BufTy).Contents (Elt F) → (⟨S1000000x1, .i32⟩ : BufTy).Contents (Elt F)),
    StableHlo.binary main_v9 main_v15 main_v16 ((fun x i => Host.gather gather_S150000_S1000000x1_S1000000_n_0_n_n_0_1_1 x i) : (⟨S150000, .f32⟩ : BufTy).Contents (Elt F) → (⟨S1000000x1, .i32⟩ : BufTy).Contents (Elt F) → (⟨S1000000, .f32⟩ : BufTy).Contents (Elt F)),
    StableHlo.nullary main_c_5 (constantI S_ 32 0#32),
    StableHlo.unary main_c_5 main_v17 (broadcastInDim S1000000 ![] bcast_S_S1000000 : (⟨S_, .i32⟩ : BufTy).Contents (Elt F) → (⟨S1000000, .i32⟩ : BufTy).Contents (Elt F)),
    StableHlo.binary main_arg3 main_v17 main_v18 (cmpi .slt : (⟨S1000000, .i32⟩ : BufTy).Contents (Elt F) → (⟨S1000000, .i32⟩ : BufTy).Contents (Elt F) → (⟨S1000000, .i1⟩ : BufTy).Contents (Elt F)),
    StableHlo.nullary main_c_6 (constantI S_ 32 150000#32),
    StableHlo.unary main_c_6 main_v19 (broadcastInDim S1000000 ![] bcast_S_S1000000 : (⟨S_, .i32⟩ : BufTy).Contents (Elt F) → (⟨S1000000, .i32⟩ : BufTy).Contents (Elt F)),
    StableHlo.binary main_arg3 main_v19 main_v20 (addi : (⟨S1000000, .i32⟩ : BufTy).Contents (Elt F) → (⟨S1000000, .i32⟩ : BufTy).Contents (Elt F) → (⟨S1000000, .i32⟩ : BufTy).Contents (Elt F)),
    StableHlo.ternary main_v18 main_v20 main_arg3 main_v21 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v21 main_v22 (broadcastInDim S1000000x1 ![0] bcast_S1000000_S1000000x1_0 : (⟨S1000000, .i32⟩ : BufTy).Contents (Elt F) → (⟨S1000000x1, .i32⟩ : BufTy).Contents (Elt F)),
    StableHlo.binary main_v9 main_v22 main_v23 ((fun x i => Host.gather gather_S150000_S1000000x1_S1000000_n_0_n_n_0_1_1 x i) : (⟨S150000, .f32⟩ : BufTy).Contents (Elt F) → (⟨S1000000x1, .i32⟩ : BufTy).Contents (Elt F) → (⟨S1000000, .f32⟩ : BufTy).Contents (Elt F)),
    StableHlo.binary main_v16 main_v23 main_v24 (mulf : (⟨S1000000, .f32⟩ : BufTy).Contents (Elt F) → (⟨S1000000, .f32⟩ : BufTy).Contents (Elt F) → (⟨S1000000, .f32⟩ : BufTy).Contents (Elt F)) ]

/-- Layer 1, the message: with `x = %arg0` and slices `0` of the weights `%arg1`, `%arg2` (each reshaped to a matrix and transposed), `%34` `= x · Wᵀ + (x ⊙ x) · Vᵀ`. (10 operations.) -/
abbrev ops_c1 : List (HloOp τ sig (Elt F)) :=
  [ StableHlo.unary main_arg1 main_v25 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v25 main_v26 rfl shapeCasts_S1x64x64_S64x64,
    StableHlo.unary main_v26 main_v27 ((transpose S64x64 [1, 0] · transposes_S64x64_S64x64_1_0) : (⟨S64x64, .f32⟩ : BufTy).Contents (Elt F) → (⟨S64x64, .f32⟩ : BufTy).Contents (Elt F)),
    StableHlo.binary main_arg0 main_v27 main_v28 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.binary main_arg0 main_arg0 main_v29 (mulf : (⟨S150000x64, .f32⟩ : BufTy).Contents (Elt F) → (⟨S150000x64, .f32⟩ : BufTy).Contents (Elt F) → (⟨S150000x64, .f32⟩ : BufTy).Contents (Elt F)),
    StableHlo.unary main_arg2 main_v30 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v30 main_v31 rfl shapeCasts_S1x64x64_S64x64,
    StableHlo.unary main_v31 main_v32 ((transpose S64x64 [1, 0] · transposes_S64x64_S64x64_1_0) : (⟨S64x64, .f32⟩ : BufTy).Contents (Elt F) → (⟨S64x64, .f32⟩ : BufTy).Contents (Elt F)),
    StableHlo.binary main_v29 main_v32 main_v33 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.binary main_v28 main_v33 main_v34 (addf : (⟨S150000x64, .f32⟩ : BufTy).Contents (Elt F) → (⟨S150000x64, .f32⟩ : BufTy).Contents (Elt F) → (⟨S150000x64, .f32⟩ : BufTy).Contents (Elt F)) ]

/-- Layer 1, the aggregation: the edge weights `%24` as a column, the message's rows gathered at the sources (`%arg3` wrapped into range) and scaled by them, scatter-added into zeros at the destinations `%arg4`: `%47`. (16 operations.) -/
abbrev ops_c2 : List (HloOp τ sig (Elt F)) :=
  [ StableHlo.unary main_v24 main_v35 (broadcastInDim S1000000x1 ![0] bcast_S1000000_S1000000x1_0 : (⟨S1000000, .f32⟩ : BufTy).Contents (Elt F) → (⟨S1000000x1, .f32⟩ : BufTy).Contents (Elt F)),
    StableHlo.nullary main_c_7 (constantI S_ 32 0#32),
    StableHlo.unary main_c_7 main_v36 (broadcastInDim S1000000 ![] bcast_S_S1000000 : (⟨S_, .i32⟩ : BufTy).Contents (Elt F) → (⟨S1000000, .i32⟩ : BufTy).Contents (Elt F)),
    StableHlo.binary main_arg3 main_v36 main_v37 (cmpi .slt : (⟨S1000000, .i32⟩ : BufTy).Contents (Elt F) → (⟨S1000000, .i32⟩ : BufTy).Contents (Elt F) → (⟨S1000000, .i1⟩ : BufTy).Contents (Elt F)),
    StableHlo.nullary main_c_8 (constantI S_ 32 150000#32),
    StableHlo.unary main_c_8 main_v38 (broadcastInDim S1000000 ![] bcast_S_S1000000 : (⟨S_, .i32⟩ : BufTy).Contents (Elt F) → (⟨S1000000, .i32⟩ : BufTy).Contents (Elt F)),
    StableHlo.binary main_arg3 main_v38 main_v39 (addi : (⟨S1000000, .i32⟩ : BufTy).Contents (Elt F) → (⟨S1000000, .i32⟩ : BufTy).Contents (Elt F) → (⟨S1000000, .i32⟩ : BufTy).Contents (Elt F)),
    StableHlo.ternary main_v37 main_v39 main_arg3 main_v40 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v40 main_v41 (broadcastInDim S1000000x1 ![0] bcast_S1000000_S1000000x1_0 : (⟨S1000000, .i32⟩ : BufTy).Contents (Elt F) → (⟨S1000000x1, .i32⟩ : BufTy).Contents (Elt F)),
    StableHlo.binary main_v34 main_v41 main_v42 ((fun x i => Host.gather gather_S150000x64_S1000000x1_S1000000x64_1_0_n_n_0_1_164 x i) : (⟨S150000x64, .f32⟩ : BufTy).Contents (Elt F) → (⟨S1000000x1, .i32⟩ : BufTy).Contents (Elt F) → (⟨S1000000x64, .f32⟩ : BufTy).Contents (Elt F)),
    StableHlo.unary main_v35 main_v43 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v43 main_v42 main_v44 (mulf : (⟨S1000000x64, .f32⟩ : BufTy).Contents (Elt F) → (⟨S1000000x64, .f32⟩ : BufTy).Contents (Elt F) → (⟨S1000000x64, .f32⟩ : BufTy).Contents (Elt F)),
    StableHlo.nullary main_cst_9 (constant S_ .f32 0x00000000#32),
    StableHlo.unary main_cst_9 main_v45 (broadcastInDim S150000x64 ![] bcast_S_S150000x64 : (⟨S_, .f32⟩ : BufTy).Contents (Elt F) → (⟨S150000x64, .f32⟩ : BufTy).Contents (Elt F)),
    StableHlo.unary main_arg4 main_v46 (broadcastInDim S1000000x1 ![0] bcast_S1000000_S1000000x1_0 : (⟨S1000000, .i32⟩ : BufTy).Contents (Elt F) → (⟨S1000000x1, .i32⟩ : BufTy).Contents (Elt F)),
    StableHlo.ternary main_v45 main_v46 main_v44 main_v47 ((fun x i u => Host.scatterAdd scatter_S150000x64_S1000000x1_S1000000x64_1_0_0_1 x i u) : (⟨S150000x64, .f32⟩ : BufTy).Contents (Elt F) → (⟨S1000000x1, .i32⟩ : BufTy).Contents (Elt F) → (⟨S1000000x64, .f32⟩ : BufTy).Contents (Elt F) → (⟨S150000x64, .f32⟩ : BufTy).Contents (Elt F)) ]

/-- Layer 1, the rectifier: the slope constant and the inlined `@leaky_relu` (with its `@_where_0`), `%48` `= where (y ≥ 0) y (slope · y)` of the aggregate `y`. (8 operations.) -/
abbrev ops_c3 : List (HloOp τ sig (Elt F)) :=
  [ StableHlo.nullary main_cst_10 (constant S_ .f32 0x3E4CCCCD#32),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S150000x64, .f32⟩) (broadcastInDim S150000x64 ![] bcast_S_S150000x64),
    StableHlo.TRef.binary (.of main_v47 : StableHlo.TRef sig ⟨S150000x64, .f32⟩) (.of main_call1_v0 : StableHlo.TRef sig ⟨S150000x64, .f32⟩) (.of main_call1_v1 : StableHlo.TRef sig ⟨S150000x64, .i1⟩) (cmpf .oge),
    StableHlo.TRef.unary (.of main_cst_10 : StableHlo.TRef sig ⟨S_, .f32⟩) (.of main_call1_v2 : StableHlo.TRef sig ⟨S_, .f32⟩) id,
    StableHlo.TRef.unary (.of main_call1_v2 : StableHlo.TRef sig ⟨S_, .f32⟩) (.of main_call1_v3 : StableHlo.TRef sig ⟨S150000x64, .f32⟩) (broadcastInDim S150000x64 ![] bcast_S_S150000x64),
    StableHlo.TRef.binary (.of main_call1_v3 : StableHlo.TRef sig ⟨S150000x64, .f32⟩) (.of main_v47 : StableHlo.TRef sig ⟨S150000x64, .f32⟩) (.of main_call1_v4 : StableHlo.TRef sig ⟨S150000x64, .f32⟩) mulf,
    StableHlo.TRef.ternary (.of main_call1_v1 : StableHlo.TRef sig ⟨S150000x64, .i1⟩) (.of main_v47 : StableHlo.TRef sig ⟨S150000x64, .f32⟩) (.of main_call1_v4 : StableHlo.TRef sig ⟨S150000x64, .f32⟩) (.of main_v48 : StableHlo.TRef sig ⟨S150000x64, .f32⟩) select ]

/-- Layer 1: its message, its aggregation, its rectifier (34 operations). -/
abbrev ops_c : List (HloOp τ sig (Elt F)) := ops_c1 ++ ops_c2 ++ ops_c3

/-- Layer 2, the message: with `x = %48` and slices `1` of the weights `%arg1`, `%arg2` (each reshaped to a matrix and transposed), `%58` `= x · Wᵀ + (x ⊙ x) · Vᵀ`. (10 operations.) -/
abbrev ops_d1 : List (HloOp τ sig (Elt F)) :=
  [ StableHlo.unary main_arg1 main_v49 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v49 main_v50 rfl shapeCasts_S1x64x64_S64x64,
    StableHlo.unary main_v50 main_v51 ((transpose S64x64 [1, 0] · transposes_S64x64_S64x64_1_0) : (⟨S64x64, .f32⟩ : BufTy).Contents (Elt F) → (⟨S64x64, .f32⟩ : BufTy).Contents (Elt F)),
    StableHlo.binary main_v48 main_v51 main_v52 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.binary main_v48 main_v48 main_v53 (mulf : (⟨S150000x64, .f32⟩ : BufTy).Contents (Elt F) → (⟨S150000x64, .f32⟩ : BufTy).Contents (Elt F) → (⟨S150000x64, .f32⟩ : BufTy).Contents (Elt F)),
    StableHlo.unary main_arg2 main_v54 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v54 main_v55 rfl shapeCasts_S1x64x64_S64x64,
    StableHlo.unary main_v55 main_v56 ((transpose S64x64 [1, 0] · transposes_S64x64_S64x64_1_0) : (⟨S64x64, .f32⟩ : BufTy).Contents (Elt F) → (⟨S64x64, .f32⟩ : BufTy).Contents (Elt F)),
    StableHlo.binary main_v53 main_v56 main_v57 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.binary main_v52 main_v57 main_v58 (addf : (⟨S150000x64, .f32⟩ : BufTy).Contents (Elt F) → (⟨S150000x64, .f32⟩ : BufTy).Contents (Elt F) → (⟨S150000x64, .f32⟩ : BufTy).Contents (Elt F)) ]

/-- Layer 2, the aggregation: the edge weights `%24` as a column, the message's rows gathered at the sources (`%arg3` wrapped into range) and scaled by them, scatter-added into zeros at the destinations `%arg4`: `%71`. (16 operations.) -/
abbrev ops_d2 : List (HloOp τ sig (Elt F)) :=
  [ StableHlo.unary main_v24 main_v59 (broadcastInDim S1000000x1 ![0] bcast_S1000000_S1000000x1_0 : (⟨S1000000, .f32⟩ : BufTy).Contents (Elt F) → (⟨S1000000x1, .f32⟩ : BufTy).Contents (Elt F)),
    StableHlo.nullary main_c_11 (constantI S_ 32 0#32),
    StableHlo.unary main_c_11 main_v60 (broadcastInDim S1000000 ![] bcast_S_S1000000 : (⟨S_, .i32⟩ : BufTy).Contents (Elt F) → (⟨S1000000, .i32⟩ : BufTy).Contents (Elt F)),
    StableHlo.binary main_arg3 main_v60 main_v61 (cmpi .slt : (⟨S1000000, .i32⟩ : BufTy).Contents (Elt F) → (⟨S1000000, .i32⟩ : BufTy).Contents (Elt F) → (⟨S1000000, .i1⟩ : BufTy).Contents (Elt F)),
    StableHlo.nullary main_c_12 (constantI S_ 32 150000#32),
    StableHlo.unary main_c_12 main_v62 (broadcastInDim S1000000 ![] bcast_S_S1000000 : (⟨S_, .i32⟩ : BufTy).Contents (Elt F) → (⟨S1000000, .i32⟩ : BufTy).Contents (Elt F)),
    StableHlo.binary main_arg3 main_v62 main_v63 (addi : (⟨S1000000, .i32⟩ : BufTy).Contents (Elt F) → (⟨S1000000, .i32⟩ : BufTy).Contents (Elt F) → (⟨S1000000, .i32⟩ : BufTy).Contents (Elt F)),
    StableHlo.ternary main_v61 main_v63 main_arg3 main_v64 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v64 main_v65 (broadcastInDim S1000000x1 ![0] bcast_S1000000_S1000000x1_0 : (⟨S1000000, .i32⟩ : BufTy).Contents (Elt F) → (⟨S1000000x1, .i32⟩ : BufTy).Contents (Elt F)),
    StableHlo.binary main_v58 main_v65 main_v66 ((fun x i => Host.gather gather_S150000x64_S1000000x1_S1000000x64_1_0_n_n_0_1_164 x i) : (⟨S150000x64, .f32⟩ : BufTy).Contents (Elt F) → (⟨S1000000x1, .i32⟩ : BufTy).Contents (Elt F) → (⟨S1000000x64, .f32⟩ : BufTy).Contents (Elt F)),
    StableHlo.unary main_v59 main_v67 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v67 main_v66 main_v68 (mulf : (⟨S1000000x64, .f32⟩ : BufTy).Contents (Elt F) → (⟨S1000000x64, .f32⟩ : BufTy).Contents (Elt F) → (⟨S1000000x64, .f32⟩ : BufTy).Contents (Elt F)),
    StableHlo.nullary main_cst_13 (constant S_ .f32 0x00000000#32),
    StableHlo.unary main_cst_13 main_v69 (broadcastInDim S150000x64 ![] bcast_S_S150000x64 : (⟨S_, .f32⟩ : BufTy).Contents (Elt F) → (⟨S150000x64, .f32⟩ : BufTy).Contents (Elt F)),
    StableHlo.unary main_arg4 main_v70 (broadcastInDim S1000000x1 ![0] bcast_S1000000_S1000000x1_0 : (⟨S1000000, .i32⟩ : BufTy).Contents (Elt F) → (⟨S1000000x1, .i32⟩ : BufTy).Contents (Elt F)),
    StableHlo.ternary main_v69 main_v70 main_v68 main_v71 ((fun x i u => Host.scatterAdd scatter_S150000x64_S1000000x1_S1000000x64_1_0_0_1 x i u) : (⟨S150000x64, .f32⟩ : BufTy).Contents (Elt F) → (⟨S1000000x1, .i32⟩ : BufTy).Contents (Elt F) → (⟨S1000000x64, .f32⟩ : BufTy).Contents (Elt F) → (⟨S150000x64, .f32⟩ : BufTy).Contents (Elt F)) ]

/-- Layer 2, the rectifier: the slope constant and the inlined `@leaky_relu` (with its `@_where_0`), `%72` `= where (y ≥ 0) y (slope · y)` of the aggregate `y`. (8 operations.) -/
abbrev ops_d3 : List (HloOp τ sig (Elt F)) :=
  [ StableHlo.nullary main_cst_14 (constant S_ .f32 0x3E4CCCCD#32),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S150000x64, .f32⟩) (broadcastInDim S150000x64 ![] bcast_S_S150000x64),
    StableHlo.TRef.binary (.of main_v71 : StableHlo.TRef sig ⟨S150000x64, .f32⟩) (.of main_call2_v0 : StableHlo.TRef sig ⟨S150000x64, .f32⟩) (.of main_call2_v1 : StableHlo.TRef sig ⟨S150000x64, .i1⟩) (cmpf .oge),
    StableHlo.TRef.unary (.of main_cst_14 : StableHlo.TRef sig ⟨S_, .f32⟩) (.of main_call2_v2 : StableHlo.TRef sig ⟨S_, .f32⟩) id,
    StableHlo.TRef.unary (.of main_call2_v2 : StableHlo.TRef sig ⟨S_, .f32⟩) (.of main_call2_v3 : StableHlo.TRef sig ⟨S150000x64, .f32⟩) (broadcastInDim S150000x64 ![] bcast_S_S150000x64),
    StableHlo.TRef.binary (.of main_call2_v3 : StableHlo.TRef sig ⟨S150000x64, .f32⟩) (.of main_v71 : StableHlo.TRef sig ⟨S150000x64, .f32⟩) (.of main_call2_v4 : StableHlo.TRef sig ⟨S150000x64, .f32⟩) mulf,
    StableHlo.TRef.ternary (.of main_call2_v1 : StableHlo.TRef sig ⟨S150000x64, .i1⟩) (.of main_v71 : StableHlo.TRef sig ⟨S150000x64, .f32⟩) (.of main_call2_v4 : StableHlo.TRef sig ⟨S150000x64, .f32⟩) (.of main_v72 : StableHlo.TRef sig ⟨S150000x64, .f32⟩) select ]

/-- Layer 2: its message, its aggregation, its rectifier (34 operations). -/
abbrev ops_d : List (HloOp τ sig (Elt F)) := ops_d1 ++ ops_d2 ++ ops_d3

/-- Layer 3, the message: with `x = %72` and slices `2` of the weights `%arg1`, `%arg2` (each reshaped to a matrix and transposed), `%82` `= x · Wᵀ + (x ⊙ x) · Vᵀ`. (10 operations.) -/
abbrev ops_e1 : List (HloOp τ sig (Elt F)) :=
  [ StableHlo.unary main_arg1 main_v73 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v73 main_v74 rfl shapeCasts_S1x64x64_S64x64,
    StableHlo.unary main_v74 main_v75 ((transpose S64x64 [1, 0] · transposes_S64x64_S64x64_1_0) : (⟨S64x64, .f32⟩ : BufTy).Contents (Elt F) → (⟨S64x64, .f32⟩ : BufTy).Contents (Elt F)),
    StableHlo.binary main_v72 main_v75 main_v76 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.binary main_v72 main_v72 main_v77 (mulf : (⟨S150000x64, .f32⟩ : BufTy).Contents (Elt F) → (⟨S150000x64, .f32⟩ : BufTy).Contents (Elt F) → (⟨S150000x64, .f32⟩ : BufTy).Contents (Elt F)),
    StableHlo.unary main_arg2 main_v78 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v78 main_v79 rfl shapeCasts_S1x64x64_S64x64,
    StableHlo.unary main_v79 main_v80 ((transpose S64x64 [1, 0] · transposes_S64x64_S64x64_1_0) : (⟨S64x64, .f32⟩ : BufTy).Contents (Elt F) → (⟨S64x64, .f32⟩ : BufTy).Contents (Elt F)),
    StableHlo.binary main_v77 main_v80 main_v81 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.binary main_v76 main_v81 main_v82 (addf : (⟨S150000x64, .f32⟩ : BufTy).Contents (Elt F) → (⟨S150000x64, .f32⟩ : BufTy).Contents (Elt F) → (⟨S150000x64, .f32⟩ : BufTy).Contents (Elt F)) ]

/-- Layer 3, the aggregation: the edge weights `%24` as a column, the message's rows gathered at the sources (`%arg3` wrapped into range) and scaled by them, scatter-added into zeros at the destinations `%arg4`: `%95`. (16 operations.) -/
abbrev ops_e2 : List (HloOp τ sig (Elt F)) :=
  [ StableHlo.unary main_v24 main_v83 (broadcastInDim S1000000x1 ![0] bcast_S1000000_S1000000x1_0 : (⟨S1000000, .f32⟩ : BufTy).Contents (Elt F) → (⟨S1000000x1, .f32⟩ : BufTy).Contents (Elt F)),
    StableHlo.nullary main_c_15 (constantI S_ 32 0#32),
    StableHlo.unary main_c_15 main_v84 (broadcastInDim S1000000 ![] bcast_S_S1000000 : (⟨S_, .i32⟩ : BufTy).Contents (Elt F) → (⟨S1000000, .i32⟩ : BufTy).Contents (Elt F)),
    StableHlo.binary main_arg3 main_v84 main_v85 (cmpi .slt : (⟨S1000000, .i32⟩ : BufTy).Contents (Elt F) → (⟨S1000000, .i32⟩ : BufTy).Contents (Elt F) → (⟨S1000000, .i1⟩ : BufTy).Contents (Elt F)),
    StableHlo.nullary main_c_16 (constantI S_ 32 150000#32),
    StableHlo.unary main_c_16 main_v86 (broadcastInDim S1000000 ![] bcast_S_S1000000 : (⟨S_, .i32⟩ : BufTy).Contents (Elt F) → (⟨S1000000, .i32⟩ : BufTy).Contents (Elt F)),
    StableHlo.binary main_arg3 main_v86 main_v87 (addi : (⟨S1000000, .i32⟩ : BufTy).Contents (Elt F) → (⟨S1000000, .i32⟩ : BufTy).Contents (Elt F) → (⟨S1000000, .i32⟩ : BufTy).Contents (Elt F)),
    StableHlo.ternary main_v85 main_v87 main_arg3 main_v88 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v88 main_v89 (broadcastInDim S1000000x1 ![0] bcast_S1000000_S1000000x1_0 : (⟨S1000000, .i32⟩ : BufTy).Contents (Elt F) → (⟨S1000000x1, .i32⟩ : BufTy).Contents (Elt F)),
    StableHlo.binary main_v82 main_v89 main_v90 ((fun x i => Host.gather gather_S150000x64_S1000000x1_S1000000x64_1_0_n_n_0_1_164 x i) : (⟨S150000x64, .f32⟩ : BufTy).Contents (Elt F) → (⟨S1000000x1, .i32⟩ : BufTy).Contents (Elt F) → (⟨S1000000x64, .f32⟩ : BufTy).Contents (Elt F)),
    StableHlo.unary main_v83 main_v91 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v91 main_v90 main_v92 (mulf : (⟨S1000000x64, .f32⟩ : BufTy).Contents (Elt F) → (⟨S1000000x64, .f32⟩ : BufTy).Contents (Elt F) → (⟨S1000000x64, .f32⟩ : BufTy).Contents (Elt F)),
    StableHlo.nullary main_cst_17 (constant S_ .f32 0x00000000#32),
    StableHlo.unary main_cst_17 main_v93 (broadcastInDim S150000x64 ![] bcast_S_S150000x64 : (⟨S_, .f32⟩ : BufTy).Contents (Elt F) → (⟨S150000x64, .f32⟩ : BufTy).Contents (Elt F)),
    StableHlo.unary main_arg4 main_v94 (broadcastInDim S1000000x1 ![0] bcast_S1000000_S1000000x1_0 : (⟨S1000000, .i32⟩ : BufTy).Contents (Elt F) → (⟨S1000000x1, .i32⟩ : BufTy).Contents (Elt F)),
    StableHlo.ternary main_v93 main_v94 main_v92 main_v95 ((fun x i u => Host.scatterAdd scatter_S150000x64_S1000000x1_S1000000x64_1_0_0_1 x i u) : (⟨S150000x64, .f32⟩ : BufTy).Contents (Elt F) → (⟨S1000000x1, .i32⟩ : BufTy).Contents (Elt F) → (⟨S1000000x64, .f32⟩ : BufTy).Contents (Elt F) → (⟨S150000x64, .f32⟩ : BufTy).Contents (Elt F)) ]

/-- Layer 3, the rectifier: the slope constant and the inlined `@leaky_relu` (with its `@_where_0`), `%96` `= where (y ≥ 0) y (slope · y)` of the aggregate `y`. (8 operations.) -/
abbrev ops_e3 : List (HloOp τ sig (Elt F)) :=
  [ StableHlo.nullary main_cst_18 (constant S_ .f32 0x3E4CCCCD#32),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S150000x64, .f32⟩) (broadcastInDim S150000x64 ![] bcast_S_S150000x64),
    StableHlo.TRef.binary (.of main_v95 : StableHlo.TRef sig ⟨S150000x64, .f32⟩) (.of main_call3_v0 : StableHlo.TRef sig ⟨S150000x64, .f32⟩) (.of main_call3_v1 : StableHlo.TRef sig ⟨S150000x64, .i1⟩) (cmpf .oge),
    StableHlo.TRef.unary (.of main_cst_18 : StableHlo.TRef sig ⟨S_, .f32⟩) (.of main_call3_v2 : StableHlo.TRef sig ⟨S_, .f32⟩) id,
    StableHlo.TRef.unary (.of main_call3_v2 : StableHlo.TRef sig ⟨S_, .f32⟩) (.of main_call3_v3 : StableHlo.TRef sig ⟨S150000x64, .f32⟩) (broadcastInDim S150000x64 ![] bcast_S_S150000x64),
    StableHlo.TRef.binary (.of main_call3_v3 : StableHlo.TRef sig ⟨S150000x64, .f32⟩) (.of main_v95 : StableHlo.TRef sig ⟨S150000x64, .f32⟩) (.of main_call3_v4 : StableHlo.TRef sig ⟨S150000x64, .f32⟩) mulf,
    StableHlo.TRef.ternary (.of main_call3_v1 : StableHlo.TRef sig ⟨S150000x64, .i1⟩) (.of main_v95 : StableHlo.TRef sig ⟨S150000x64, .f32⟩) (.of main_call3_v4 : StableHlo.TRef sig ⟨S150000x64, .f32⟩) (.of main_v96 : StableHlo.TRef sig ⟨S150000x64, .f32⟩) select ]

/-- Layer 3: its message, its aggregation, its rectifier (34 operations). -/
abbrev ops_e : List (HloOp τ sig (Elt F)) := ops_e1 ++ ops_e2 ++ ops_e3

/-- The tail, `%97 … %117`: the four feature blocks `%arg0, %48, %72, %96` concatenated along the columns (`%97`), its rows gathered at the two rows of `%arg5` (indices wrapped into range), multiplied, and summed along the columns (`%117`). (26 operations.) -/
abbrev ops_f : List (HloOp τ sig (Elt F)) :=
  [ StableHlo.nary ![main_arg0, main_v48, main_v72, main_v96] main_v97 (fun u => concatenate S150000x256 1 [⟨S150000x64, u 0⟩, ⟨S150000x64, u 1⟩, ⟨S150000x64, u 2⟩, ⟨S150000x64, u 3⟩] concatenates_S150000x64_S150000x64_S150000x64_S150000x64_S150000x256_d1),
    StableHlo.unary main_arg5 main_v98 ((extractStridedSlice S1x16384 ![0, 0] · slices_S2x16384_S1x16384_0_0) : (⟨S2x16384, .i32⟩ : BufTy).Contents (Elt F) → (⟨S1x16384, .i32⟩ : BufTy).Contents (Elt F)),
    StableHlo.reshape main_v98 main_v99 rfl shapeCasts_S1x16384_S16384,
    StableHlo.nullary main_c_19 (constantI S_ 32 0#32),
    StableHlo.unary main_c_19 main_v100 (broadcastInDim S16384 ![] bcast_S_S16384 : (⟨S_, .i32⟩ : BufTy).Contents (Elt F) → (⟨S16384, .i32⟩ : BufTy).Contents (Elt F)),
    StableHlo.binary main_v99 main_v100 main_v101 (cmpi .slt : (⟨S16384, .i32⟩ : BufTy).Contents (Elt F) → (⟨S16384, .i32⟩ : BufTy).Contents (Elt F) → (⟨S16384, .i1⟩ : BufTy).Contents (Elt F)),
    StableHlo.nullary main_c_20 (constantI S_ 32 150000#32),
    StableHlo.unary main_c_20 main_v102 (broadcastInDim S16384 ![] bcast_S_S16384 : (⟨S_, .i32⟩ : BufTy).Contents (Elt F) → (⟨S16384, .i32⟩ : BufTy).Contents (Elt F)),
    StableHlo.binary main_v99 main_v102 main_v103 (addi : (⟨S16384, .i32⟩ : BufTy).Contents (Elt F) → (⟨S16384, .i32⟩ : BufTy).Contents (Elt F) → (⟨S16384, .i32⟩ : BufTy).Contents (Elt F)),
    StableHlo.ternary main_v101 main_v103 main_v99 main_v104 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v104 main_v105 (broadcastInDim S16384x1 ![0] bcast_S16384_S16384x1_0 : (⟨S16384, .i32⟩ : BufTy).Contents (Elt F) → (⟨S16384x1, .i32⟩ : BufTy).Contents (Elt F)),
    StableHlo.binary main_v97 main_v105 main_v106 ((fun x i => Host.gather gather_S150000x256_S16384x1_S16384x256_1_0_n_n_0_1_1256 x i) : (⟨S150000x256, .f32⟩ : BufTy).Contents (Elt F) → (⟨S16384x1, .i32⟩ : BufTy).Contents (Elt F) → (⟨S16384x256, .f32⟩ : BufTy).Contents (Elt F)),
    StableHlo.unary main_arg5 main_v107 ((extractStridedSlice S1x16384 ![1, 0] · slices_S2x16384_S1x16384_1_0) : (⟨S2x16384, .i32⟩ : BufTy).Contents (Elt F) → (⟨S1x16384, .i32⟩ : BufTy).Contents (Elt F)),
    StableHlo.reshape main_v107 main_v108 rfl shapeCasts_S1x16384_S16384,
    StableHlo.nullary main_c_21 (constantI S_ 32 0#32),
    StableHlo.unary main_c_21 main_v109 (broadcastInDim S16384 ![] bcast_S_S16384 : (⟨S_, .i32⟩ : BufTy).Contents (Elt F) → (⟨S16384, .i32⟩ : BufTy).Contents (Elt F)),
    StableHlo.binary main_v108 main_v109 main_v110 (cmpi .slt : (⟨S16384, .i32⟩ : BufTy).Contents (Elt F) → (⟨S16384, .i32⟩ : BufTy).Contents (Elt F) → (⟨S16384, .i1⟩ : BufTy).Contents (Elt F)),
    StableHlo.nullary main_c_22 (constantI S_ 32 150000#32),
    StableHlo.unary main_c_22 main_v111 (broadcastInDim S16384 ![] bcast_S_S16384 : (⟨S_, .i32⟩ : BufTy).Contents (Elt F) → (⟨S16384, .i32⟩ : BufTy).Contents (Elt F)),
    StableHlo.binary main_v108 main_v111 main_v112 (addi : (⟨S16384, .i32⟩ : BufTy).Contents (Elt F) → (⟨S16384, .i32⟩ : BufTy).Contents (Elt F) → (⟨S16384, .i32⟩ : BufTy).Contents (Elt F)),
    StableHlo.ternary main_v110 main_v112 main_v108 main_v113 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v113 main_v114 (broadcastInDim S16384x1 ![0] bcast_S16384_S16384x1_0 : (⟨S16384, .i32⟩ : BufTy).Contents (Elt F) → (⟨S16384x1, .i32⟩ : BufTy).Contents (Elt F)),
    StableHlo.binary main_v97 main_v114 main_v115 ((fun x i => Host.gather gather_S150000x256_S16384x1_S16384x256_1_0_n_n_0_1_1256 x i) : (⟨S150000x256, .f32⟩ : BufTy).Contents (Elt F) → (⟨S16384x1, .i32⟩ : BufTy).Contents (Elt F) → (⟨S16384x256, .f32⟩ : BufTy).Contents (Elt F)),
    StableHlo.binary main_v106 main_v115 main_v116 (mulf : (⟨S16384x256, .f32⟩ : BufTy).Contents (Elt F) → (⟨S16384x256, .f32⟩ : BufTy).Contents (Elt F) → (⟨S16384x256, .f32⟩ : BufTy).Contents (Elt F)),
    StableHlo.nullary main_cst_23 (constant S_ .f32 0x00000000#32),
    StableHlo.binary main_v116 main_cst_23 main_v117 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)) ]

/-- @main's 164 operations, in order: the stages one after the other. -/
abbrev ops : List (HloOp τ sig (Elt F)) := ops_a ++ ops_b ++ ops_c ++ ops_d ++ ops_e ++ ops_f

theorem ops_eq : (ops : List (HloOp τ sig (Elt F))) = ops_a ++ ops_b ++ ops_c ++ ops_d ++ ops_e ++ ops_f := rfl

/-! ## Each operation touches TensorCore references only, and determines its result -/

theorem ops_a_sub : (ops_a : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub ..⟩

theorem ops_b_sub : (ops_b : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩

theorem ops_c1_sub : (ops_c1 : List (HloOp τ sig (Elt F))).Forall fun op => op.bufs ⊆ StableHlo.tcRefs τ sig :=
  ⟨StableHlo.unary_bufs_sub .., StableHlo.reshape_bufs_sub .., StableHlo.unary_bufs_sub .., StableHlo.binary_bufs_sub .., StableHlo.binary_bufs_sub .., StableHlo.unary_bufs_sub .., StableHlo.reshape_bufs_sub .., StableHlo.unary_bufs_sub .., StableHlo.binary_bufs_sub .., StableHlo.binary_bufs_sub ..⟩

theorem ops_c2_sub : (ops_c2 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub ..⟩

theorem ops_c3_sub : (ops_c3 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub ..⟩

theorem ops_d1_sub : (ops_d1 : List (HloOp τ sig (Elt F))).Forall fun op => op.bufs ⊆ StableHlo.tcRefs τ sig :=
  ⟨StableHlo.unary_bufs_sub .., StableHlo.reshape_bufs_sub .., StableHlo.unary_bufs_sub .., StableHlo.binary_bufs_sub .., StableHlo.binary_bufs_sub .., StableHlo.unary_bufs_sub .., StableHlo.reshape_bufs_sub .., StableHlo.unary_bufs_sub .., StableHlo.binary_bufs_sub .., StableHlo.binary_bufs_sub ..⟩

theorem ops_d2_sub : (ops_d2 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub ..⟩

theorem ops_d3_sub : (ops_d3 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub ..⟩

theorem ops_e1_sub : (ops_e1 : List (HloOp τ sig (Elt F))).Forall fun op => op.bufs ⊆ StableHlo.tcRefs τ sig :=
  ⟨StableHlo.unary_bufs_sub .., StableHlo.reshape_bufs_sub .., StableHlo.unary_bufs_sub .., StableHlo.binary_bufs_sub .., StableHlo.binary_bufs_sub .., StableHlo.unary_bufs_sub .., StableHlo.reshape_bufs_sub .., StableHlo.unary_bufs_sub .., StableHlo.binary_bufs_sub .., StableHlo.binary_bufs_sub ..⟩

theorem ops_e2_sub : (ops_e2 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub ..⟩

theorem ops_e3_sub : (ops_e3 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub ..⟩

theorem ops_f_sub : (ops_f : List (HloOp τ sig (Elt F))).Forall fun op => op.bufs ⊆ StableHlo.tcRefs τ sig :=
  ⟨StableHlo.nary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.binary_bufs_sub ..⟩

theorem ops_c_sub : (ops_c : List (HloOp τ sig (Elt F))).Forall fun op => op.bufs ⊆ StableHlo.tcRefs τ sig :=
  List.forall_append.2 ⟨List.forall_append.2 ⟨ops_c1_sub, ops_c2_sub⟩, ops_c3_sub⟩

theorem ops_d_sub : (ops_d : List (HloOp τ sig (Elt F))).Forall fun op => op.bufs ⊆ StableHlo.tcRefs τ sig :=
  List.forall_append.2 ⟨List.forall_append.2 ⟨ops_d1_sub, ops_d2_sub⟩, ops_d3_sub⟩

theorem ops_e_sub : (ops_e : List (HloOp τ sig (Elt F))).Forall fun op => op.bufs ⊆ StableHlo.tcRefs τ sig :=
  List.forall_append.2 ⟨List.forall_append.2 ⟨ops_e1_sub, ops_e2_sub⟩, ops_e3_sub⟩

theorem ops_sub : (ops : List (HloOp τ sig (Elt F))).Forall fun op => op.bufs ⊆ StableHlo.tcRefs τ sig :=
  List.forall_append.2 ⟨List.forall_append.2 ⟨List.forall_append.2 ⟨List.forall_append.2 ⟨List.forall_append.2
    ⟨ops_a_sub, ops_b_sub⟩, ops_c_sub⟩, ops_d_sub⟩, ops_e_sub⟩, ops_f_sub⟩

theorem ops_a_fresh : (ops_a : List (HloOp τ sig (Elt F))).Forall fun op => op.fresh = ∅ :=
  ⟨rfl, rfl, rfl, rfl, rfl, rfl, rfl, rfl, rfl, rfl, rfl, rfl, rfl, rfl, rfl, rfl, rfl⟩

theorem ops_b_fresh : (ops_b : List (HloOp τ sig (Elt F))).Forall fun op => op.fresh = ∅ :=
  ⟨rfl, rfl, rfl, rfl, rfl, rfl, rfl, rfl, rfl, rfl, rfl, rfl, rfl, rfl, rfl, rfl, rfl, rfl, rfl⟩

theorem ops_c1_fresh : (ops_c1 : List (HloOp τ sig (Elt F))).Forall fun op => op.fresh = ∅ :=
  ⟨rfl, rfl, rfl, rfl, rfl, rfl, rfl, rfl, rfl, rfl⟩

theorem ops_c2_fresh : (ops_c2 : List (HloOp τ sig (Elt F))).Forall fun op => op.fresh = ∅ :=
  ⟨rfl, rfl, rfl, rfl, rfl, rfl, rfl, rfl, rfl, rfl, rfl, rfl, rfl, rfl, rfl, rfl⟩

theorem ops_c3_fresh : (ops_c3 : List (HloOp τ sig (Elt F))).Forall fun op => op.fresh = ∅ :=
  ⟨rfl, rfl, rfl, rfl, rfl, rfl, rfl, rfl⟩

theorem ops_d1_fresh : (ops_d1 : List (HloOp τ sig (Elt F))).Forall fun op => op.fresh = ∅ :=
  ⟨rfl, rfl, rfl, rfl, rfl, rfl, rfl, rfl, rfl, rfl⟩

theorem ops_d2_fresh : (ops_d2 : List (HloOp τ sig (Elt F))).Forall fun op => op.fresh = ∅ :=
  ⟨rfl, rfl, rfl, rfl, rfl, rfl, rfl, rfl, rfl, rfl, rfl, rfl, rfl, rfl, rfl, rfl⟩

theorem ops_d3_fresh : (ops_d3 : List (HloOp τ sig (Elt F))).Forall fun op => op.fresh = ∅ :=
  ⟨rfl, rfl, rfl, rfl, rfl, rfl, rfl, rfl⟩

theorem ops_e1_fresh : (ops_e1 : List (HloOp τ sig (Elt F))).Forall fun op => op.fresh = ∅ :=
  ⟨rfl, rfl, rfl, rfl, rfl, rfl, rfl, rfl, rfl, rfl⟩

theorem ops_e2_fresh : (ops_e2 : List (HloOp τ sig (Elt F))).Forall fun op => op.fresh = ∅ :=
  ⟨rfl, rfl, rfl, rfl, rfl, rfl, rfl, rfl, rfl, rfl, rfl, rfl, rfl, rfl, rfl, rfl⟩

theorem ops_e3_fresh : (ops_e3 : List (HloOp τ sig (Elt F))).Forall fun op => op.fresh = ∅ :=
  ⟨rfl, rfl, rfl, rfl, rfl, rfl, rfl, rfl⟩

theorem ops_f_fresh : (ops_f : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

theorem ops_c_fresh : (ops_c : List (HloOp τ sig (Elt F))).Forall fun op => op.fresh = ∅ :=
  List.forall_append.2 ⟨List.forall_append.2 ⟨ops_c1_fresh, ops_c2_fresh⟩, ops_c3_fresh⟩

theorem ops_d_fresh : (ops_d : List (HloOp τ sig (Elt F))).Forall fun op => op.fresh = ∅ :=
  List.forall_append.2 ⟨List.forall_append.2 ⟨ops_d1_fresh, ops_d2_fresh⟩, ops_d3_fresh⟩

theorem ops_e_fresh : (ops_e : List (HloOp τ sig (Elt F))).Forall fun op => op.fresh = ∅ :=
  List.forall_append.2 ⟨List.forall_append.2 ⟨ops_e1_fresh, ops_e2_fresh⟩, ops_e3_fresh⟩

/-- No operation leaves a result undetermined (there is no `AllocateBuffer` among them). -/
theorem ops_fresh : ∀ op ∈ (ops : List (HloOp τ sig (Elt F))), op.fresh = ∅ :=
  List.forall_iff_forall_mem.1 (List.forall_append.2 ⟨List.forall_append.2 ⟨List.forall_append.2 ⟨List.forall_append.2
    ⟨List.forall_append.2 ⟨ops_a_fresh, ops_b_fresh⟩, ops_c_fresh⟩, ops_d_fresh⟩, ops_e_fresh⟩, ops_f_fresh⟩)

end Cert.ReferenceIdeal.Hand

end
-- ==== Proof.RefRun.lean ====
/- The reference program's @main IS the straight line of `ops`, and what every buffer holds after its run.

   @main is printed in three consecutive windows (`main_part0/1/2`) and calls its outlined functions through the
   records `main_callK`. The equation `main c = StableHlo.seq ops` is definitional — unfolding each function at its
   call and each record at its fields leaves one chain of `hlo` steps on both sides — and is proved window by
   window: each window is the chain of its stretches, which open and close at every call (so that a function's
   constant never has to be unfolded on one side of a comparison only); the windows' chains are joined
   (`Pipeline.chainK_bind_chain`) and the stretches glued into one line (`StableHlo.seq_append`). -/
import proofs.«125319_j22917945491468_1_alg».proof.Proof.RefOps

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-! ## Two general facts about straight lines -/

/-- A chain of straight lines is the straight line of their concatenation. -/
theorem chain_map_seq {nD : Nat} {τ : Topo} {sig : RefSig} {Val : EltTy → Type} {Λ : Labels}
    (ls : List (List (HloOp τ sig Val))) :
    Pipeline.chain (ls.map fun l => (StableHlo.seq l : Prog (TpuEff nD τ sig Val Λ .tc) PUnit)) = StableHlo.seq ls.flatten := by
  induction ls with
  | nil => rfl
  | cons l ls ih => simp only [List.map_cons, Pipeline.chain_cons, ih, List.flatten_cons, StableHlo.seq_append]

/-- The contents after two lines run one after the other: the second's fold over the first's. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- The contents after one layer, one stage at a time. -/
theorem after_ops_c (V : Valuation τ sig (Elt F)) :
    StableHlo.after ops_c V = StableHlo.after ops_c3 (StableHlo.after ops_c2 (StableHlo.after ops_c1 V)) := by
  simp only [ops_c, after_append]
theorem after_ops_d (V : Valuation τ sig (Elt F)) :
    StableHlo.after ops_d V = StableHlo.after ops_d3 (StableHlo.after ops_d2 (StableHlo.after ops_d1 V)) := by
  simp only [ops_d, after_append]
theorem after_ops_e (V : Valuation τ sig (Elt F)) :
    StableHlo.after ops_e V = StableHlo.after ops_e3 (StableHlo.after ops_e2 (StableHlo.after ops_e1 V)) := by
  simp only [ops_e, after_append]

/-- The contents after @main's operations, one stage at a time. -/
theorem after_ops (V : Valuation τ sig (Elt F)) :
    StableHlo.after ops V
      = StableHlo.after ops_f (StableHlo.after ops_e3 (StableHlo.after ops_e2 (StableHlo.after ops_e1
          (StableHlo.after ops_d3 (StableHlo.after ops_d2 (StableHlo.after ops_d1
          (StableHlo.after ops_c3 (StableHlo.after ops_c2 (StableHlo.after ops_c1
          (StableHlo.after ops_b (StableHlo.after ops_a V))))))))))) := by
  simp only [ops, ops_c, ops_d, ops_e, after_append]

/-! ## The stretches: @main's own operations between calls and window boundaries, and each call's -/

/-- Stretch 0: 14 operations, writing `main_cst` … `main_cst_3`. -/
abbrev pc0 : List (HloOp τ sig (Elt F)) :=
  [ StableHlo.nullary main_cst (constant S_ .f32 0x3F800000#32),
    StableHlo.unary main_cst main_v0 (broadcastInDim S1000000 ![] bcast_S_S1000000 : (⟨S_, .f32⟩ : BufTy).Contents (Elt F) → (⟨S1000000, .f32⟩ : BufTy).Contents (Elt F)),
    StableHlo.nullary main_cst_0 (constant S_ .f32 0x00000000#32),
    StableHlo.unary main_cst_0 main_v1 (broadcastInDim S150000 ![] bcast_S_S150000 : (⟨S_, .f32⟩ : BufTy).Contents (Elt F) → (⟨S150000, .f32⟩ : BufTy).Contents (Elt F)),
    StableHlo.unary main_arg4 main_v2 (broadcastInDim S1000000x1 ![0] bcast_S1000000_S1000000x1_0 : (⟨S1000000, .i32⟩ : BufTy).Contents (Elt F) → (⟨S1000000x1, .i32⟩ : BufTy).Contents (Elt F)),
    StableHlo.ternary main_v1 main_v2 main_v0 main_v3 ((fun x i u => Host.scatterAdd scatter_S150000_S1000000x1_S1000000_n_0_0_1 x i u) : (⟨S150000, .f32⟩ : BufTy).Contents (Elt F) → (⟨S1000000x1, .i32⟩ : BufTy).Contents (Elt F) → (⟨S1000000, .f32⟩ : BufTy).Contents (Elt F) → (⟨S150000, .f32⟩ : BufTy).Contents (Elt F)),
    StableHlo.nullary main_cst_1 (constant S_ .f32 0x00000000#32),
    StableHlo.unary main_cst_1 main_v4 (broadcastInDim S150000 ![] bcast_S_S150000 : (⟨S_, .f32⟩ : BufTy).Contents (Elt F) → (⟨S150000, .f32⟩ : BufTy).Contents (Elt F)),
    StableHlo.binary main_v3 main_v4 main_v5 (cmpf .ogt : (⟨S150000, .f32⟩ : BufTy).Contents (Elt F) → (⟨S150000, .f32⟩ : BufTy).Contents (Elt F) → (⟨S150000, .i1⟩ : BufTy).Contents (Elt F)),
    StableHlo.nullary main_cst_2 (constant S_ .f32 0x3F800000#32),
    StableHlo.unary main_cst_2 main_v6 (broadcastInDim S150000 ![] bcast_S_S150000 : (⟨S_, .f32⟩ : BufTy).Contents (Elt F) → (⟨S150000, .f32⟩ : BufTy).Contents (Elt F)),
    StableHlo.binary main_v3 main_v6 main_v7 (maximumf : (⟨S150000, .f32⟩ : BufTy).Contents (Elt F) → (⟨S150000, .f32⟩ : BufTy).Contents (Elt F) → (⟨S150000, .f32⟩ : BufTy).Contents (Elt F)),
    StableHlo.unary main_v7 main_v8 (Host.rsqrt : (⟨S150000, .f32⟩ : BufTy).Contents (Elt F) → (⟨S150000, .f32⟩ : BufTy).Contents (Elt F)),
    StableHlo.nullary main_cst_3 (constant S_ .f32 0x00000000#32) ]

/-- Stretch 1: 3 operations, writing `main_call0_v0` … `main_v9`. -/
abbrev pc1 : List (HloOp τ sig (Elt F)) :=
  [ StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S150000, .f32⟩) (broadcastInDim S150000 ![] bcast_S_S150000),
    StableHlo.TRef.ternary (.of main_v5 : StableHlo.TRef sig ⟨S150000, .i1⟩) (.of main_v8 : StableHlo.TRef sig ⟨S150000, .f32⟩) (.of main_call0_v1 : StableHlo.TRef sig ⟨S150000, .f32⟩) (.of main_v9 : StableHlo.TRef sig ⟨S150000, .f32⟩) select ]

/-- Stretch 2: 45 operations, writing `main_c` … `main_v47`. -/
abbrev pc2 : List (HloOp τ sig (Elt F)) :=
  [ StableHlo.nullary main_c (constantI S_ 32 0#32),
    StableHlo.unary main_c main_v10 (broadcastInDim S1000000 ![] bcast_S_S1000000 : (⟨S_, .i32⟩ : BufTy).Contents (Elt F) → (⟨S1000000, .i32⟩ : BufTy).Contents (Elt F)),
    StableHlo.binary main_arg4 main_v10 main_v11 (cmpi .slt : (⟨S1000000, .i32⟩ : BufTy).Contents (Elt F) → (⟨S1000000, .i32⟩ : BufTy).Contents (Elt F) → (⟨S1000000, .i1⟩ : BufTy).Contents (Elt F)),
    StableHlo.nullary main_c_4 (constantI S_ 32 150000#32),
    StableHlo.unary main_c_4 main_v12 (broadcastInDim S1000000 ![] bcast_S_S1000000 : (⟨S_, .i32⟩ : BufTy).Contents (Elt F) → (⟨S1000000, .i32⟩ : BufTy).Contents (Elt F)),
    StableHlo.binary main_arg4 main_v12 main_v13 (addi : (⟨S1000000, .i32⟩ : BufTy).Contents (Elt F) → (⟨S1000000, .i32⟩ : BufTy).Contents (Elt F) → (⟨S1000000, .i32⟩ : BufTy).Contents (Elt F)),
    StableHlo.ternary main_v11 main_v13 main_arg4 main_v14 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v14 main_v15 (broadcastInDim S1000000x1 ![0] bcast_S1000000_S1000000x1_0 : (⟨S1000000, .i32⟩ : BufTy).Contents (Elt F) → (⟨S1000000x1, .i32⟩ : BufTy).Contents (Elt F)),
    StableHlo.binary main_v9 main_v15 main_v16 ((fun x i => Host.gather gather_S150000_S1000000x1_S1000000_n_0_n_n_0_1_1 x i) : (⟨S150000, .f32⟩ : BufTy).Contents (Elt F) → (⟨S1000000x1, .i32⟩ : BufTy).Contents (Elt F) → (⟨S1000000, .f32⟩ : BufTy).Contents (Elt F)),
    StableHlo.nullary main_c_5 (constantI S_ 32 0#32),
    StableHlo.unary main_c_5 main_v17 (broadcastInDim S1000000 ![] bcast_S_S1000000 : (⟨S_, .i32⟩ : BufTy).Contents (Elt F) → (⟨S1000000, .i32⟩ : BufTy).Contents (Elt F)),
    StableHlo.binary main_arg3 main_v17 main_v18 (cmpi .slt : (⟨S1000000, .i32⟩ : BufTy).Contents (Elt F) → (⟨S1000000, .i32⟩ : BufTy).Contents (Elt F) → (⟨S1000000, .i1⟩ : BufTy).Contents (Elt F)),
    StableHlo.nullary main_c_6 (constantI S_ 32 150000#32),
    StableHlo.unary main_c_6 main_v19 (broadcastInDim S1000000 ![] bcast_S_S1000000 : (⟨S_, .i32⟩ : BufTy).Contents (Elt F) → (⟨S1000000, .i32⟩ : BufTy).Contents (Elt F)),
    StableHlo.binary main_arg3 main_v19 main_v20 (addi : (⟨S1000000, .i32⟩ : BufTy).Contents (Elt F) → (⟨S1000000, .i32⟩ : BufTy).Contents (Elt F) → (⟨S1000000, .i32⟩ : BufTy).Contents (Elt F)),
    StableHlo.ternary main_v18 main_v20 main_arg3 main_v21 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v21 main_v22 (broadcastInDim S1000000x1 ![0] bcast_S1000000_S1000000x1_0 : (⟨S1000000, .i32⟩ : BufTy).Contents (Elt F) → (⟨S1000000x1, .i32⟩ : BufTy).Contents (Elt F)),
    StableHlo.binary main_v9 main_v22 main_v23 ((fun x i => Host.gather gather_S150000_S1000000x1_S1000000_n_0_n_n_0_1_1 x i) : (⟨S150000, .f32⟩ : BufTy).Contents (Elt F) → (⟨S1000000x1, .i32⟩ : BufTy).Contents (Elt F) → (⟨S1000000, .f32⟩ : BufTy).Contents (Elt F)),
    StableHlo.binary main_v16 main_v23 main_v24 (mulf : (⟨S1000000, .f32⟩ : BufTy).Contents (Elt F) → (⟨S1000000, .f32⟩ : BufTy).Contents (Elt F) → (⟨S1000000, .f32⟩ : BufTy).Contents (Elt F)),
    StableHlo.unary main_arg1 main_v25 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v25 main_v26 rfl shapeCasts_S1x64x64_S64x64,
    StableHlo.unary main_v26 main_v27 ((transpose S64x64 [1, 0] · transposes_S64x64_S64x64_1_0) : (⟨S64x64, .f32⟩ : BufTy).Contents (Elt F) → (⟨S64x64, .f32⟩ : BufTy).Contents (Elt F)),
    StableHlo.binary main_arg0 main_v27 main_v28 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.binary main_arg0 main_arg0 main_v29 (mulf : (⟨S150000x64, .f32⟩ : BufTy).Contents (Elt F) → (⟨S150000x64, .f32⟩ : BufTy).Contents (Elt F) → (⟨S150000x64, .f32⟩ : BufTy).Contents (Elt F)),
    StableHlo.unary main_arg2 main_v30 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v30 main_v31 rfl shapeCasts_S1x64x64_S64x64,
    StableHlo.unary main_v31 main_v32 ((transpose S64x64 [1, 0] · transposes_S64x64_S64x64_1_0) : (⟨S64x64, .f32⟩ : BufTy).Contents (Elt F) → (⟨S64x64, .f32⟩ : BufTy).Contents (Elt F)),
    StableHlo.binary main_v29 main_v32 main_v33 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.binary main_v28 main_v33 main_v34 (addf : (⟨S150000x64, .f32⟩ : BufTy).Contents (Elt F) → (⟨S150000x64, .f32⟩ : BufTy).Contents (Elt F) → (⟨S150000x64, .f32⟩ : BufTy).Contents (Elt F)),
    StableHlo.unary main_v24 main_v35 (broadcastInDim S1000000x1 ![0] bcast_S1000000_S1000000x1_0 : (⟨S1000000, .f32⟩ : BufTy).Contents (Elt F) → (⟨S1000000x1, .f32⟩ : BufTy).Contents (Elt F)),
    StableHlo.nullary main_c_7 (constantI S_ 32 0#32),
    StableHlo.unary main_c_7 main_v36 (broadcastInDim S1000000 ![] bcast_S_S1000000 : (⟨S_, .i32⟩ : BufTy).Contents (Elt F) → (⟨S1000000, .i32⟩ : BufTy).Contents (Elt F)),
    StableHlo.binary main_arg3 main_v36 main_v37 (cmpi .slt : (⟨S1000000, .i32⟩ : BufTy).Contents (Elt F) → (⟨S1000000, .i32⟩ : BufTy).Contents (Elt F) → (⟨S1000000, .i1⟩ : BufTy).Contents (Elt F)),
    StableHlo.nullary main_c_8 (constantI S_ 32 150000#32),
    StableHlo.unary main_c_8 main_v38 (broadcastInDim S1000000 ![] bcast_S_S1000000 : (⟨S_, .i32⟩ : BufTy).Contents (Elt F) → (⟨S1000000, .i32⟩ : BufTy).Contents (Elt F)),
    StableHlo.binary main_arg3 main_v38 main_v39 (addi : (⟨S1000000, .i32⟩ : BufTy).Contents (Elt F) → (⟨S1000000, .i32⟩ : BufTy).Contents (Elt F) → (⟨S1000000, .i32⟩ : BufTy).Contents (Elt F)),
    StableHlo.ternary main_v37 main_v39 main_arg3 main_v40 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v40 main_v41 (broadcastInDim S1000000x1 ![0] bcast_S1000000_S1000000x1_0 : (⟨S1000000, .i32⟩ : BufTy).Contents (Elt F) → (⟨S1000000x1, .i32⟩ : BufTy).Contents (Elt F)),
    StableHlo.binary main_v34 main_v41 main_v42 ((fun x i => Host.gather gather_S150000x64_S1000000x1_S1000000x64_1_0_n_n_0_1_164 x i) : (⟨S150000x64, .f32⟩ : BufTy).Contents (Elt F) → (⟨S1000000x1, .i32⟩ : BufTy).Contents (Elt F) → (⟨S1000000x64, .f32⟩ : BufTy).Contents (Elt F)),
    StableHlo.unary main_v35 main_v43 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v43 main_v42 main_v44 (mulf : (⟨S1000000x64, .f32⟩ : BufTy).Contents (Elt F) → (⟨S1000000x64, .f32⟩ : BufTy).Contents (Elt F) → (⟨S1000000x64, .f32⟩ : BufTy).Contents (Elt F)),
    StableHlo.nullary main_cst_9 (constant S_ .f32 0x00000000#32),
    StableHlo.unary main_cst_9 main_v45 (broadcastInDim S150000x64 ![] bcast_S_S150000x64 : (⟨S_, .f32⟩ : BufTy).Contents (Elt F) → (⟨S150000x64, .f32⟩ : BufTy).Contents (Elt F)),
    StableHlo.unary main_arg4 main_v46 (broadcastInDim S1000000x1 ![0] bcast_S1000000_S1000000x1_0 : (⟨S1000000, .i32⟩ : BufTy).Contents (Elt F) → (⟨S1000000x1, .i32⟩ : BufTy).Contents (Elt F)),
    StableHlo.ternary main_v45 main_v46 main_v44 main_v47 ((fun x i u => Host.scatterAdd scatter_S150000x64_S1000000x1_S1000000x64_1_0_0_1 x i u) : (⟨S150000x64, .f32⟩ : BufTy).Contents (Elt F) → (⟨S1000000x1, .i32⟩ : BufTy).Contents (Elt F) → (⟨S1000000x64, .f32⟩ : BufTy).Contents (Elt F) → (⟨S150000x64, .f32⟩ : BufTy).Contents (Elt F)) ]

/-- Stretch 3: 1 operation, writing `main_cst_10`. -/
abbrev pc3 : List (HloOp τ sig (Elt F)) :=
  [ StableHlo.nullary main_cst_10 (constant S_ .f32 0x3E4CCCCD#32) ]

/-- Stretch 4: 7 operations, writing `main_call1_cst` … `main_v48`. -/
abbrev pc4 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S150000x64, .f32⟩) (broadcastInDim S150000x64 ![] bcast_S_S150000x64),
    StableHlo.TRef.binary (.of main_v47 : StableHlo.TRef sig ⟨S150000x64, .f32⟩) (.of main_call1_v0 : StableHlo.TRef sig ⟨S150000x64, .f32⟩) (.of main_call1_v1 : StableHlo.TRef sig ⟨S150000x64, .i1⟩) (cmpf .oge),
    StableHlo.TRef.unary (.of main_cst_10 : StableHlo.TRef sig ⟨S_, .f32⟩) (.of main_call1_v2 : StableHlo.TRef sig ⟨S_, .f32⟩) id,
    StableHlo.TRef.unary (.of main_call1_v2 : StableHlo.TRef sig ⟨S_, .f32⟩) (.of main_call1_v3 : StableHlo.TRef sig ⟨S150000x64, .f32⟩) (broadcastInDim S150000x64 ![] bcast_S_S150000x64),
    StableHlo.TRef.binary (.of main_call1_v3 : StableHlo.TRef sig ⟨S150000x64, .f32⟩) (.of main_v47 : StableHlo.TRef sig ⟨S150000x64, .f32⟩) (.of main_call1_v4 : StableHlo.TRef sig ⟨S150000x64, .f32⟩) mulf,
    StableHlo.TRef.ternary (.of main_call1_v1 : StableHlo.TRef sig ⟨S150000x64, .i1⟩) (.of main_v47 : StableHlo.TRef sig ⟨S150000x64, .f32⟩) (.of main_call1_v4 : StableHlo.TRef sig ⟨S150000x64, .f32⟩) (.of main_v48 : StableHlo.TRef sig ⟨S150000x64, .f32⟩) select ]

/-- Stretch 5: 27 operations, writing `main_v49` … `main_cst_14`. -/
abbrev pc5 : List (HloOp τ sig (Elt F)) :=
  [ StableHlo.unary main_arg1 main_v49 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v49 main_v50 rfl shapeCasts_S1x64x64_S64x64,
    StableHlo.unary main_v50 main_v51 ((transpose S64x64 [1, 0] · transposes_S64x64_S64x64_1_0) : (⟨S64x64, .f32⟩ : BufTy).Contents (Elt F) → (⟨S64x64, .f32⟩ : BufTy).Contents (Elt F)),
    StableHlo.binary main_v48 main_v51 main_v52 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.binary main_v48 main_v48 main_v53 (mulf : (⟨S150000x64, .f32⟩ : BufTy).Contents (Elt F) → (⟨S150000x64, .f32⟩ : BufTy).Contents (Elt F) → (⟨S150000x64, .f32⟩ : BufTy).Contents (Elt F)),
    StableHlo.unary main_arg2 main_v54 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v54 main_v55 rfl shapeCasts_S1x64x64_S64x64,
    StableHlo.unary main_v55 main_v56 ((transpose S64x64 [1, 0] · transposes_S64x64_S64x64_1_0) : (⟨S64x64, .f32⟩ : BufTy).Contents (Elt F) → (⟨S64x64, .f32⟩ : BufTy).Contents (Elt F)),
    StableHlo.binary main_v53 main_v56 main_v57 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.binary main_v52 main_v57 main_v58 (addf : (⟨S150000x64, .f32⟩ : BufTy).Contents (Elt F) → (⟨S150000x64, .f32⟩ : BufTy).Contents (Elt F) → (⟨S150000x64, .f32⟩ : BufTy).Contents (Elt F)),
    StableHlo.unary main_v24 main_v59 (broadcastInDim S1000000x1 ![0] bcast_S1000000_S1000000x1_0 : (⟨S1000000, .f32⟩ : BufTy).Contents (Elt F) → (⟨S1000000x1, .f32⟩ : BufTy).Contents (Elt F)),
    StableHlo.nullary main_c_11 (constantI S_ 32 0#32),
    StableHlo.unary main_c_11 main_v60 (broadcastInDim S1000000 ![] bcast_S_S1000000 : (⟨S_, .i32⟩ : BufTy).Contents (Elt F) → (⟨S1000000, .i32⟩ : BufTy).Contents (Elt F)),
    StableHlo.binary main_arg3 main_v60 main_v61 (cmpi .slt : (⟨S1000000, .i32⟩ : BufTy).Contents (Elt F) → (⟨S1000000, .i32⟩ : BufTy).Contents (Elt F) → (⟨S1000000, .i1⟩ : BufTy).Contents (Elt F)),
    StableHlo.nullary main_c_12 (constantI S_ 32 150000#32),
    StableHlo.unary main_c_12 main_v62 (broadcastInDim S1000000 ![] bcast_S_S1000000 : (⟨S_, .i32⟩ : BufTy).Contents (Elt F) → (⟨S1000000, .i32⟩ : BufTy).Contents (Elt F)),
    StableHlo.binary main_arg3 main_v62 main_v63 (addi : (⟨S1000000, .i32⟩ : BufTy).Contents (Elt F) → (⟨S1000000, .i32⟩ : BufTy).Contents (Elt F) → (⟨S1000000, .i32⟩ : BufTy).Contents (Elt F)),
    StableHlo.ternary main_v61 main_v63 main_arg3 main_v64 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v64 main_v65 (broadcastInDim S1000000x1 ![0] bcast_S1000000_S1000000x1_0 : (⟨S1000000, .i32⟩ : BufTy).Contents (Elt F) → (⟨S1000000x1, .i32⟩ : BufTy).Contents (Elt F)),
    StableHlo.binary main_v58 main_v65 main_v66 ((fun x i => Host.gather gather_S150000x64_S1000000x1_S1000000x64_1_0_n_n_0_1_164 x i) : (⟨S150000x64, .f32⟩ : BufTy).Contents (Elt F) → (⟨S1000000x1, .i32⟩ : BufTy).Contents (Elt F) → (⟨S1000000x64, .f32⟩ : BufTy).Contents (Elt F)),
    StableHlo.unary main_v59 main_v67 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v67 main_v66 main_v68 (mulf : (⟨S1000000x64, .f32⟩ : BufTy).Contents (Elt F) → (⟨S1000000x64, .f32⟩ : BufTy).Contents (Elt F) → (⟨S1000000x64, .f32⟩ : BufTy).Contents (Elt F)),
    StableHlo.nullary main_cst_13 (constant S_ .f32 0x00000000#32),
    StableHlo.unary main_cst_13 main_v69 (broadcastInDim S150000x64 ![] bcast_S_S150000x64 : (⟨S_, .f32⟩ : BufTy).Contents (Elt F) → (⟨S150000x64, .f32⟩ : BufTy).Contents (Elt F)),
    StableHlo.unary main_arg4 main_v70 (broadcastInDim S1000000x1 ![0] bcast_S1000000_S1000000x1_0 : (⟨S1000000, .i32⟩ : BufTy).Contents (Elt F) → (⟨S1000000x1, .i32⟩ : BufTy).Contents (Elt F)),
    StableHlo.ternary main_v69 main_v70 main_v68 main_v71 ((fun x i u => Host.scatterAdd scatter_S150000x64_S1000000x1_S1000000x64_1_0_0_1 x i u) : (⟨S150000x64, .f32⟩ : BufTy).Contents (Elt F) → (⟨S1000000x1, .i32⟩ : BufTy).Contents (Elt F) → (⟨S1000000x64, .f32⟩ : BufTy).Contents (Elt F) → (⟨S150000x64, .f32⟩ : BufTy).Contents (Elt F)),
    StableHlo.nullary main_cst_14 (constant S_ .f32 0x3E4CCCCD#32) ]

/-- Stretch 6: 7 operations, writing `main_call2_cst` … `main_v72`. -/
abbrev pc6 : List (HloOp τ sig (Elt F)) :=
  [ StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S150000x64, .f32⟩) (broadcastInDim S150000x64 ![] bcast_S_S150000x64),
    StableHlo.TRef.binary (.of main_v71 : StableHlo.TRef sig ⟨S150000x64, .f32⟩) (.of main_call2_v0 : StableHlo.TRef sig ⟨S150000x64, .f32⟩) (.of main_call2_v1 : StableHlo.TRef sig ⟨S150000x64, .i1⟩) (cmpf .oge),
    StableHlo.TRef.unary (.of main_cst_14 : StableHlo.TRef sig ⟨S_, .f32⟩) (.of main_call2_v2 : StableHlo.TRef sig ⟨S_, .f32⟩) id,
    StableHlo.TRef.unary (.of main_call2_v2 : StableHlo.TRef sig ⟨S_, .f32⟩) (.of main_call2_v3 : StableHlo.TRef sig ⟨S150000x64, .f32⟩) (broadcastInDim S150000x64 ![] bcast_S_S150000x64),
    StableHlo.TRef.binary (.of main_call2_v3 : StableHlo.TRef sig ⟨S150000x64, .f32⟩) (.of main_v71 : StableHlo.TRef sig ⟨S150000x64, .f32⟩) (.of main_call2_v4 : StableHlo.TRef sig ⟨S150000x64, .f32⟩) mulf,
    StableHlo.TRef.ternary (.of main_call2_v1 : StableHlo.TRef sig ⟨S150000x64, .i1⟩) (.of main_v71 : StableHlo.TRef sig ⟨S150000x64, .f32⟩) (.of main_call2_v4 : StableHlo.TRef sig ⟨S150000x64, .f32⟩) (.of main_v72 : StableHlo.TRef sig ⟨S150000x64, .f32⟩) select ]

/-- Stretch 7: 27 operations, writing `main_v73` … `main_cst_18`. -/
abbrev pc7 : List (HloOp τ sig (Elt F)) :=
  [ StableHlo.unary main_arg1 main_v73 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v73 main_v74 rfl shapeCasts_S1x64x64_S64x64,
    StableHlo.unary main_v74 main_v75 ((transpose S64x64 [1, 0] · transposes_S64x64_S64x64_1_0) : (⟨S64x64, .f32⟩ : BufTy).Contents (Elt F) → (⟨S64x64, .f32⟩ : BufTy).Contents (Elt F)),
    StableHlo.binary main_v72 main_v75 main_v76 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.binary main_v72 main_v72 main_v77 (mulf : (⟨S150000x64, .f32⟩ : BufTy).Contents (Elt F) → (⟨S150000x64, .f32⟩ : BufTy).Contents (Elt F) → (⟨S150000x64, .f32⟩ : BufTy).Contents (Elt F)),
    StableHlo.unary main_arg2 main_v78 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v78 main_v79 rfl shapeCasts_S1x64x64_S64x64,
    StableHlo.unary main_v79 main_v80 ((transpose S64x64 [1, 0] · transposes_S64x64_S64x64_1_0) : (⟨S64x64, .f32⟩ : BufTy).Contents (Elt F) → (⟨S64x64, .f32⟩ : BufTy).Contents (Elt F)),
    StableHlo.binary main_v77 main_v80 main_v81 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.binary main_v76 main_v81 main_v82 (addf : (⟨S150000x64, .f32⟩ : BufTy).Contents (Elt F) → (⟨S150000x64, .f32⟩ : BufTy).Contents (Elt F) → (⟨S150000x64, .f32⟩ : BufTy).Contents (Elt F)),
    StableHlo.unary main_v24 main_v83 (broadcastInDim S1000000x1 ![0] bcast_S1000000_S1000000x1_0 : (⟨S1000000, .f32⟩ : BufTy).Contents (Elt F) → (⟨S1000000x1, .f32⟩ : BufTy).Contents (Elt F)),
    StableHlo.nullary main_c_15 (constantI S_ 32 0#32),
    StableHlo.unary main_c_15 main_v84 (broadcastInDim S1000000 ![] bcast_S_S1000000 : (⟨S_, .i32⟩ : BufTy).Contents (Elt F) → (⟨S1000000, .i32⟩ : BufTy).Contents (Elt F)),
    StableHlo.binary main_arg3 main_v84 main_v85 (cmpi .slt : (⟨S1000000, .i32⟩ : BufTy).Contents (Elt F) → (⟨S1000000, .i32⟩ : BufTy).Contents (Elt F) → (⟨S1000000, .i1⟩ : BufTy).Contents (Elt F)),
    StableHlo.nullary main_c_16 (constantI S_ 32 150000#32),
    StableHlo.unary main_c_16 main_v86 (broadcastInDim S1000000 ![] bcast_S_S1000000 : (⟨S_, .i32⟩ : BufTy).Contents (Elt F) → (⟨S1000000, .i32⟩ : BufTy).Contents (Elt F)),
    StableHlo.binary main_arg3 main_v86 main_v87 (addi : (⟨S1000000, .i32⟩ : BufTy).Contents (Elt F) → (⟨S1000000, .i32⟩ : BufTy).Contents (Elt F) → (⟨S1000000, .i32⟩ : BufTy).Contents (Elt F)),
    StableHlo.ternary main_v85 main_v87 main_arg3 main_v88 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v88 main_v89 (broadcastInDim S1000000x1 ![0] bcast_S1000000_S1000000x1_0 : (⟨S1000000, .i32⟩ : BufTy).Contents (Elt F) → (⟨S1000000x1, .i32⟩ : BufTy).Contents (Elt F)),
    StableHlo.binary main_v82 main_v89 main_v90 ((fun x i => Host.gather gather_S150000x64_S1000000x1_S1000000x64_1_0_n_n_0_1_164 x i) : (⟨S150000x64, .f32⟩ : BufTy).Contents (Elt F) → (⟨S1000000x1, .i32⟩ : BufTy).Contents (Elt F) → (⟨S1000000x64, .f32⟩ : BufTy).Contents (Elt F)),
    StableHlo.unary main_v83 main_v91 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v91 main_v90 main_v92 (mulf : (⟨S1000000x64, .f32⟩ : BufTy).Contents (Elt F) → (⟨S1000000x64, .f32⟩ : BufTy).Contents (Elt F) → (⟨S1000000x64, .f32⟩ : BufTy).Contents (Elt F)),
    StableHlo.nullary main_cst_17 (constant S_ .f32 0x00000000#32),
    StableHlo.unary main_cst_17 main_v93 (broadcastInDim S150000x64 ![] bcast_S_S150000x64 : (⟨S_, .f32⟩ : BufTy).Contents (Elt F) → (⟨S150000x64, .f32⟩ : BufTy).Contents (Elt F)),
    StableHlo.unary main_arg4 main_v94 (broadcastInDim S1000000x1 ![0] bcast_S1000000_S1000000x1_0 : (⟨S1000000, .i32⟩ : BufTy).Contents (Elt F) → (⟨S1000000x1, .i32⟩ : BufTy).Contents (Elt F)),
    StableHlo.ternary main_v93 main_v94 main_v92 main_v95 ((fun x i u => Host.scatterAdd scatter_S150000x64_S1000000x1_S1000000x64_1_0_0_1 x i u) : (⟨S150000x64, .f32⟩ : BufTy).Contents (Elt F) → (⟨S1000000x1, .i32⟩ : BufTy).Contents (Elt F) → (⟨S1000000x64, .f32⟩ : BufTy).Contents (Elt F) → (⟨S150000x64, .f32⟩ : BufTy).Contents (Elt F)),
    StableHlo.nullary main_cst_18 (constant S_ .f32 0x3E4CCCCD#32) ]

/-- Stretch 8: 7 operations, writing `main_call3_cst` … `main_v96`. -/
abbrev pc8 : List (HloOp τ sig (Elt F)) :=
  [ StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S150000x64, .f32⟩) (broadcastInDim S150000x64 ![] bcast_S_S150000x64),
    StableHlo.TRef.binary (.of main_v95 : StableHlo.TRef sig ⟨S150000x64, .f32⟩) (.of main_call3_v0 : StableHlo.TRef sig ⟨S150000x64, .f32⟩) (.of main_call3_v1 : StableHlo.TRef sig ⟨S150000x64, .i1⟩) (cmpf .oge),
    StableHlo.TRef.unary (.of main_cst_18 : StableHlo.TRef sig ⟨S_, .f32⟩) (.of main_call3_v2 : StableHlo.TRef sig ⟨S_, .f32⟩) id,
    StableHlo.TRef.unary (.of main_call3_v2 : StableHlo.TRef sig ⟨S_, .f32⟩) (.of main_call3_v3 : StableHlo.TRef sig ⟨S150000x64, .f32⟩) (broadcastInDim S150000x64 ![] bcast_S_S150000x64),
    StableHlo.TRef.binary (.of main_call3_v3 : StableHlo.TRef sig ⟨S150000x64, .f32⟩) (.of main_v95 : StableHlo.TRef sig ⟨S150000x64, .f32⟩) (.of main_call3_v4 : StableHlo.TRef sig ⟨S150000x64, .f32⟩) mulf,
    StableHlo.TRef.ternary (.of main_call3_v1 : StableHlo.TRef sig ⟨S150000x64, .i1⟩) (.of main_v95 : StableHlo.TRef sig ⟨S150000x64, .f32⟩) (.of main_call3_v4 : StableHlo.TRef sig ⟨S150000x64, .f32⟩) (.of main_v96 : StableHlo.TRef sig ⟨S150000x64, .f32⟩) select ]

/-- Stretch 9: 2 operations, writing `main_v97` … `main_v98`. -/
abbrev pc9 : List (HloOp τ sig (Elt F)) :=
  [ StableHlo.nary ![main_arg0, main_v48, main_v72, main_v96] main_v97 (fun u => concatenate S150000x256 1 [⟨S150000x64, u 0⟩, ⟨S150000x64, u 1⟩, ⟨S150000x64, u 2⟩, ⟨S150000x64, u 3⟩] concatenates_S150000x64_S150000x64_S150000x64_S150000x64_S150000x256_d1),
    StableHlo.unary main_arg5 main_v98 ((extractStridedSlice S1x16384 ![0, 0] · slices_S2x16384_S1x16384_0_0) : (⟨S2x16384, .i32⟩ : BufTy).Contents (Elt F) → (⟨S1x16384, .i32⟩ : BufTy).Contents (Elt F)) ]

/-- Stretch 10: 24 operations, writing `main_v99` … `main_v117`. -/
abbrev pc10 : List (HloOp τ sig (Elt F)) :=
  [ StableHlo.reshape main_v98 main_v99 rfl shapeCasts_S1x16384_S16384,
    StableHlo.nullary main_c_19 (constantI S_ 32 0#32),
    StableHlo.unary main_c_19 main_v100 (broadcastInDim S16384 ![] bcast_S_S16384 : (⟨S_, .i32⟩ : BufTy).Contents (Elt F) → (⟨S16384, .i32⟩ : BufTy).Contents (Elt F)),
    StableHlo.binary main_v99 main_v100 main_v101 (cmpi .slt : (⟨S16384, .i32⟩ : BufTy).Contents (Elt F) → (⟨S16384, .i32⟩ : BufTy).Contents (Elt F) → (⟨S16384, .i1⟩ : BufTy).Contents (Elt F)),
    StableHlo.nullary main_c_20 (constantI S_ 32 150000#32),
    StableHlo.unary main_c_20 main_v102 (broadcastInDim S16384 ![] bcast_S_S16384 : (⟨S_, .i32⟩ : BufTy).Contents (Elt F) → (⟨S16384, .i32⟩ : BufTy).Contents (Elt F)),
    StableHlo.binary main_v99 main_v102 main_v103 (addi : (⟨S16384, .i32⟩ : BufTy).Contents (Elt F) → (⟨S16384, .i32⟩ : BufTy).Contents (Elt F) → (⟨S16384, .i32⟩ : BufTy).Contents (Elt F)),
    StableHlo.ternary main_v101 main_v103 main_v99 main_v104 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v104 main_v105 (broadcastInDim S16384x1 ![0] bcast_S16384_S16384x1_0 : (⟨S16384, .i32⟩ : BufTy).Contents (Elt F) → (⟨S16384x1, .i32⟩ : BufTy).Contents (Elt F)),
    StableHlo.binary main_v97 main_v105 main_v106 ((fun x i => Host.gather gather_S150000x256_S16384x1_S16384x256_1_0_n_n_0_1_1256 x i) : (⟨S150000x256, .f32⟩ : BufTy).Contents (Elt F) → (⟨S16384x1, .i32⟩ : BufTy).Contents (Elt F) → (⟨S16384x256, .f32⟩ : BufTy).Contents (Elt F)),
    StableHlo.unary main_arg5 main_v107 ((extractStridedSlice S1x16384 ![1, 0] · slices_S2x16384_S1x16384_1_0) : (⟨S2x16384, .i32⟩ : BufTy).Contents (Elt F) → (⟨S1x16384, .i32⟩ : BufTy).Contents (Elt F)),
    StableHlo.reshape main_v107 main_v108 rfl shapeCasts_S1x16384_S16384,
    StableHlo.nullary main_c_21 (constantI S_ 32 0#32),
    StableHlo.unary main_c_21 main_v109 (broadcastInDim S16384 ![] bcast_S_S16384 : (⟨S_, .i32⟩ : BufTy).Contents (Elt F) → (⟨S16384, .i32⟩ : BufTy).Contents (Elt F)),
    StableHlo.binary main_v108 main_v109 main_v110 (cmpi .slt : (⟨S16384, .i32⟩ : BufTy).Contents (Elt F) → (⟨S16384, .i32⟩ : BufTy).Contents (Elt F) → (⟨S16384, .i1⟩ : BufTy).Contents (Elt F)),
    StableHlo.nullary main_c_22 (constantI S_ 32 150000#32),
    StableHlo.unary main_c_22 main_v111 (broadcastInDim S16384 ![] bcast_S_S16384 : (⟨S_, .i32⟩ : BufTy).Contents (Elt F) → (⟨S16384, .i32⟩ : BufTy).Contents (Elt F)),
    StableHlo.binary main_v108 main_v111 main_v112 (addi : (⟨S16384, .i32⟩ : BufTy).Contents (Elt F) → (⟨S16384, .i32⟩ : BufTy).Contents (Elt F) → (⟨S16384, .i32⟩ : BufTy).Contents (Elt F)),
    StableHlo.ternary main_v110 main_v112 main_v108 main_v113 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v113 main_v114 (broadcastInDim S16384x1 ![0] bcast_S16384_S16384x1_0 : (⟨S16384, .i32⟩ : BufTy).Contents (Elt F) → (⟨S16384x1, .i32⟩ : BufTy).Contents (Elt F)),
    StableHlo.binary main_v97 main_v114 main_v115 ((fun x i => Host.gather gather_S150000x256_S16384x1_S16384x256_1_0_n_n_0_1_1256 x i) : (⟨S150000x256, .f32⟩ : BufTy).Contents (Elt F) → (⟨S16384x1, .i32⟩ : BufTy).Contents (Elt F) → (⟨S16384x256, .f32⟩ : BufTy).Contents (Elt F)),
    StableHlo.binary main_v106 main_v115 main_v116 (mulf : (⟨S16384x256, .f32⟩ : BufTy).Contents (Elt F) → (⟨S16384x256, .f32⟩ : BufTy).Contents (Elt F) → (⟨S16384x256, .f32⟩ : BufTy).Contents (Elt F)),
    StableHlo.nullary main_cst_23 (constant S_ .f32 0x00000000#32),
    StableHlo.binary main_v116 main_cst_23 main_v117 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)) ]

/-- The first window is its stretches in order, the last in tail position. -/
theorem main_part0_chain (c : Dev nD) : main_part0 (F := F) c = (Pipeline.chainK
  [ StableHlo.seq pc0,
    StableHlo.seq pc1 ]
  (StableHlo.seq pc2) : Prog (TpuEff nD τ sig (Elt F) (Pipeline.Sig Λ₀ (Fin 0) fun p => (pcfgs (F := F) p).Adm) .tc) PUnit) := by
  chain_rfl

/-- The second window likewise. -/
theorem main_part1_chain (c : Dev nD) : main_part1 (F := F) c = (Pipeline.chainK
  [ StableHlo.seq pc3,
    StableHlo.seq pc4,
    StableHlo.seq pc5,
    StableHlo.seq pc6,
    StableHlo.seq pc7,
    StableHlo.seq pc8 ]
  (StableHlo.seq pc9) : Prog (TpuEff nD τ sig (Elt F) (Pipeline.Sig Λ₀ (Fin 0) fun p => (pcfgs (F := F) p).Adm) .tc) PUnit) := by
  chain_rfl

/-- The last window, which ends in the return. -/
theorem main_part2_chain (c : Dev nD) : main_part2 (F := F) c = (Pipeline.chain
  [ StableHlo.seq pc10 ] : Prog (TpuEff nD τ sig (Elt F) (Pipeline.Sig Λ₀ (Fin 0) fun p => (pcfgs (F := F) p).Adm) .tc) PUnit) := by
  chain_rfl

/-- @main is the chain of all eleven stretches. -/
theorem main_chain (c : Dev nD) : main (F := F) c = (Pipeline.chain
  [ StableHlo.seq pc0,
    StableHlo.seq pc1,
    StableHlo.seq pc2,
    StableHlo.seq pc3,
    StableHlo.seq pc4,
    StableHlo.seq pc5,
    StableHlo.seq pc6,
    StableHlo.seq pc7,
    StableHlo.seq pc8,
    StableHlo.seq pc9,
    StableHlo.seq pc10 ] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

/-- The stretches in order are the stages in order: the same 164 operations, cut at other places. -/
theorem ops_eq_stretches :
    (ops : List (HloOp τ sig (Elt F))) = [pc0, pc1, pc2, pc3, pc4, pc5, pc6, pc7, pc8, pc9, pc10].flatten := by
  chain_rfl

/-! ## @main is the straight line of `ops` -/

theorem main_eq (c : Dev nD) : main (F := F) c = StableHlo.seq ops := by
  rw [main_chain c, ops_eq_stretches]
  exact chain_map_seq [pc0, pc1, pc2, pc3, pc4, pc5, pc6, pc7, pc8, pc9, pc10]

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates, and every buffer ends at the operations' fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = StableHlo.after ops (StableHlo.launchContents m c) (Proc.devRef .tc b) :=
  StableHlo.run_seq scopedRefs_eq scopedSems_eq defs main (fun _ => ops) main_eq (fun _ => ops_sub) m ρ (fun _ => ops_fresh)

end Cert.ReferenceIdeal.Hand

end
-- ==== Proof.RefFrame.lean ====
/- The reference program leaves its arguments unchanged.

   Each of @main's 164 operations writes one buffer, and none of those is an argument: a reference that is not among a
   stage's written buffers holds after the stage what it held before (`StableHlo.after_of_writes_sub`), so stage by
   stage the six arguments end the run at their launch contents. The same fact carries any buffer across the stages
   that do not write it: the edge weights, an earlier layer's output. -/
import proofs.«125319_j22917945491468_1_alg».proof.Proof.RefRun

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- One operation's written set is the singleton of its result buffer, which is in the stage's list. -/
local macro "writes_mem" : tactic =>
  `(tactic| (simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
             exact List.mem_map_of_mem (by decide)))

/-! ## What each stage writes -/

/-- The references stage `ops_a` writes, one per operation. -/
abbrev ops_a_W : List (Ref sig .tc) := [main_cst, main_v0, main_cst_0, main_v1, main_v2, main_v3, main_cst_1, main_v4, main_v5, main_cst_2, main_v6, main_v7, main_v8, main_cst_3, main_call0_v0, main_call0_v1, main_v9]
theorem ops_a_writes : (ops_a : List (HloOp τ sig (Elt F))).Forall fun op => op.writes ⊆ (ops_a_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem⟩
/-- A reference stage `ops_a` does not write keeps its contents through it. -/
theorem after_a_of (V : Valuation τ sig (Elt F)) (r : Ref sig .tc) (h : r ∉ ops_a_W) :
    StableHlo.after ops_a V (Proc.devRef .tc r) = V (Proc.devRef .tc r) :=
  StableHlo.after_of_writes_sub ops_a V ops_a_writes h

/-- The references stage `ops_b` writes, one per operation. -/
abbrev ops_b_W : List (Ref sig .tc) := [main_c, main_v10, main_v11, main_c_4, main_v12, main_v13, main_v14, main_v15, main_v16, main_c_5, main_v17, main_v18, main_c_6, main_v19, main_v20, main_v21, main_v22, main_v23, main_v24]
theorem ops_b_writes : (ops_b : List (HloOp τ sig (Elt F))).Forall fun op => op.writes ⊆ (ops_b_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩
/-- A reference stage `ops_b` does not write keeps its contents through it. -/
theorem after_b_of (V : Valuation τ sig (Elt F)) (r : Ref sig .tc) (h : r ∉ ops_b_W) :
    StableHlo.after ops_b V (Proc.devRef .tc r) = V (Proc.devRef .tc r) :=
  StableHlo.after_of_writes_sub ops_b V ops_b_writes h

/-- The references stage `ops_c1` writes, one per operation. -/
abbrev ops_c1_W : List (Ref sig .tc) := [main_v25, main_v26, main_v27, main_v28, main_v29, main_v30, main_v31, main_v32, main_v33, main_v34]
theorem ops_c1_writes : (ops_c1 : List (HloOp τ sig (Elt F))).Forall fun op => op.writes ⊆ (ops_c1_W.map (Proc.devRef (τ := τ) .tc)).toFinset := by
  simp only [List.Forall]
  exact ⟨by writes_mem, by writes_mem, by writes_mem, by writes_mem, by writes_mem, by writes_mem, by writes_mem, by writes_mem, by writes_mem, by writes_mem⟩
/-- A reference stage `ops_c1` does not write keeps its contents through it. -/
theorem after_c1_of (V : Valuation τ sig (Elt F)) (r : Ref sig .tc) (h : r ∉ ops_c1_W) :
    StableHlo.after ops_c1 V (Proc.devRef .tc r) = V (Proc.devRef .tc r) :=
  StableHlo.after_of_writes_sub ops_c1 V ops_c1_writes h

/-- The references stage `ops_c2` writes, one per operation. -/
abbrev ops_c2_W : List (Ref sig .tc) := [main_v35, main_c_7, main_v36, main_v37, main_c_8, main_v38, main_v39, main_v40, main_v41, main_v42, main_v43, main_v44, main_cst_9, main_v45, main_v46, main_v47]
theorem ops_c2_writes : (ops_c2 : List (HloOp τ sig (Elt F))).Forall fun op => op.writes ⊆ (ops_c2_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem⟩
/-- A reference stage `ops_c2` does not write keeps its contents through it. -/
theorem after_c2_of (V : Valuation τ sig (Elt F)) (r : Ref sig .tc) (h : r ∉ ops_c2_W) :
    StableHlo.after ops_c2 V (Proc.devRef .tc r) = V (Proc.devRef .tc r) :=
  StableHlo.after_of_writes_sub ops_c2 V ops_c2_writes h

/-- The references stage `ops_c3` writes, one per operation. -/
abbrev ops_c3_W : List (Ref sig .tc) := [main_cst_10, main_call1_cst, main_call1_v0, main_call1_v1, main_call1_v2, main_call1_v3, main_call1_v4, main_v48]
theorem ops_c3_writes : (ops_c3 : List (HloOp τ sig (Elt F))).Forall fun op => op.writes ⊆ (ops_c3_W.map (Proc.devRef (τ := τ) .tc)).toFinset := by
  simp only [List.Forall]
  exact ⟨by writes_mem, by writes_mem, by writes_mem, by writes_mem, by writes_mem, by writes_mem, by writes_mem, by writes_mem⟩
/-- A reference stage `ops_c3` does not write keeps its contents through it. -/
theorem after_c3_of (V : Valuation τ sig (Elt F)) (r : Ref sig .tc) (h : r ∉ ops_c3_W) :
    StableHlo.after ops_c3 V (Proc.devRef .tc r) = V (Proc.devRef .tc r) :=
  StableHlo.after_of_writes_sub ops_c3 V ops_c3_writes h

/-- The references stage `ops_d1` writes, one per operation. -/
abbrev ops_d1_W : List (Ref sig .tc) := [main_v49, main_v50, main_v51, main_v52, main_v53, main_v54, main_v55, main_v56, main_v57, main_v58]
theorem ops_d1_writes : (ops_d1 : List (HloOp τ sig (Elt F))).Forall fun op => op.writes ⊆ (ops_d1_W.map (Proc.devRef (τ := τ) .tc)).toFinset := by
  simp only [List.Forall]
  exact ⟨by writes_mem, by writes_mem, by writes_mem, by writes_mem, by writes_mem, by writes_mem, by writes_mem, by writes_mem, by writes_mem, by writes_mem⟩
/-- A reference stage `ops_d1` does not write keeps its contents through it. -/
theorem after_d1_of (V : Valuation τ sig (Elt F)) (r : Ref sig .tc) (h : r ∉ ops_d1_W) :
    StableHlo.after ops_d1 V (Proc.devRef .tc r) = V (Proc.devRef .tc r) :=
  StableHlo.after_of_writes_sub ops_d1 V ops_d1_writes h

/-- The references stage `ops_d2` writes, one per operation. -/
abbrev ops_d2_W : List (Ref sig .tc) := [main_v59, main_c_11, main_v60, main_v61, main_c_12, main_v62, main_v63, main_v64, main_v65, main_v66, main_v67, main_v68, main_cst_13, main_v69, main_v70, main_v71]
theorem ops_d2_writes : (ops_d2 : List (HloOp τ sig (Elt F))).Forall fun op => op.writes ⊆ (ops_d2_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem⟩
/-- A reference stage `ops_d2` does not write keeps its contents through it. -/
theorem after_d2_of (V : Valuation τ sig (Elt F)) (r : Ref sig .tc) (h : r ∉ ops_d2_W) :
    StableHlo.after ops_d2 V (Proc.devRef .tc r) = V (Proc.devRef .tc r) :=
  StableHlo.after_of_writes_sub ops_d2 V ops_d2_writes h

/-- The references stage `ops_d3` writes, one per operation. -/
abbrev ops_d3_W : List (Ref sig .tc) := [main_cst_14, main_call2_cst, main_call2_v0, main_call2_v1, main_call2_v2, main_call2_v3, main_call2_v4, main_v72]
theorem ops_d3_writes : (ops_d3 : List (HloOp τ sig (Elt F))).Forall fun op => op.writes ⊆ (ops_d3_W.map (Proc.devRef (τ := τ) .tc)).toFinset := by
  simp only [List.Forall]
  exact ⟨by writes_mem, by writes_mem, by writes_mem, by writes_mem, by writes_mem, by writes_mem, by writes_mem, by writes_mem⟩
/-- A reference stage `ops_d3` does not write keeps its contents through it. -/
theorem after_d3_of (V : Valuation τ sig (Elt F)) (r : Ref sig .tc) (h : r ∉ ops_d3_W) :
    StableHlo.after ops_d3 V (Proc.devRef .tc r) = V (Proc.devRef .tc r) :=
  StableHlo.after_of_writes_sub ops_d3 V ops_d3_writes h

/-- The references stage `ops_e1` writes, one per operation. -/
abbrev ops_e1_W : List (Ref sig .tc) := [main_v73, main_v74, main_v75, main_v76, main_v77, main_v78, main_v79, main_v80, main_v81, main_v82]
theorem ops_e1_writes : (ops_e1 : List (HloOp τ sig (Elt F))).Forall fun op => op.writes ⊆ (ops_e1_W.map (Proc.devRef (τ := τ) .tc)).toFinset := by
  simp only [List.Forall]
  exact ⟨by writes_mem, by writes_mem, by writes_mem, by writes_mem, by writes_mem, by writes_mem, by writes_mem, by writes_mem, by writes_mem, by writes_mem⟩
/-- A reference stage `ops_e1` does not write keeps its contents through it. -/
theorem after_e1_of (V : Valuation τ sig (Elt F)) (r : Ref sig .tc) (h : r ∉ ops_e1_W) :
    StableHlo.after ops_e1 V (Proc.devRef .tc r) = V (Proc.devRef .tc r) :=
  StableHlo.after_of_writes_sub ops_e1 V ops_e1_writes h

/-- The references stage `ops_e2` writes, one per operation. -/
abbrev ops_e2_W : List (Ref sig .tc) := [main_v83, main_c_15, main_v84, main_v85, main_c_16, main_v86, main_v87, main_v88, main_v89, main_v90, main_v91, main_v92, main_cst_17, main_v93, main_v94, main_v95]
theorem ops_e2_writes : (ops_e2 : List (HloOp τ sig (Elt F))).Forall fun op => op.writes ⊆ (ops_e2_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem⟩
/-- A reference stage `ops_e2` does not write keeps its contents through it. -/
theorem after_e2_of (V : Valuation τ sig (Elt F)) (r : Ref sig .tc) (h : r ∉ ops_e2_W) :
    StableHlo.after ops_e2 V (Proc.devRef .tc r) = V (Proc.devRef .tc r) :=
  StableHlo.after_of_writes_sub ops_e2 V ops_e2_writes h

/-- The references stage `ops_e3` writes, one per operation. -/
abbrev ops_e3_W : List (Ref sig .tc) := [main_cst_18, main_call3_cst, main_call3_v0, main_call3_v1, main_call3_v2, main_call3_v3, main_call3_v4, main_v96]
theorem ops_e3_writes : (ops_e3 : List (HloOp τ sig (Elt F))).Forall fun op => op.writes ⊆ (ops_e3_W.map (Proc.devRef (τ := τ) .tc)).toFinset := by
  simp only [List.Forall]
  exact ⟨by writes_mem, by writes_mem, by writes_mem, by writes_mem, by writes_mem, by writes_mem, by writes_mem, by writes_mem⟩
/-- A reference stage `ops_e3` does not write keeps its contents through it. -/
theorem after_e3_of (V : Valuation τ sig (Elt F)) (r : Ref sig .tc) (h : r ∉ ops_e3_W) :
    StableHlo.after ops_e3 V (Proc.devRef .tc r) = V (Proc.devRef .tc r) :=
  StableHlo.after_of_writes_sub ops_e3 V ops_e3_writes h

/-- The references stage `ops_f` writes, one per operation. -/
abbrev ops_f_W : List (Ref sig .tc) := [main_v97, main_v98, main_v99, main_c_19, main_v100, main_v101, main_c_20, main_v102, main_v103, main_v104, main_v105, main_v106, main_v107, main_v108, main_c_21, main_v109, main_v110, main_c_22, main_v111, main_v112, main_v113, main_v114, main_v115, main_v116, main_cst_23, main_v117]
theorem ops_f_writes : (ops_f : List (HloOp τ sig (Elt F))).Forall fun op => op.writes ⊆ (ops_f_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩
/-- A reference stage `ops_f` does not write keeps its contents through it. -/
theorem after_f_of (V : Valuation τ sig (Elt F)) (r : Ref sig .tc) (h : r ∉ ops_f_W) :
    StableHlo.after ops_f V (Proc.devRef .tc r) = V (Proc.devRef .tc r) :=
  StableHlo.after_of_writes_sub ops_f V ops_f_writes h

/-! ## A whole layer, and the whole line -/

/-- The references layer 1 writes. -/
abbrev ops_c_W : List (Ref sig .tc) := ops_c1_W ++ ops_c2_W ++ ops_c3_W
/-- A reference layer 1 does not write keeps its contents through it. -/
theorem after_c_of (V : Valuation τ sig (Elt F)) (r : Ref sig .tc) (h : r ∉ ops_c_W) :
    StableHlo.after ops_c V (Proc.devRef .tc r) = V (Proc.devRef .tc r) := by
  simp only [ops_c_W, List.mem_append, not_or] at h
  obtain ⟨⟨h1, h2⟩, h3⟩ := h
  rw [after_ops_c, after_c3_of _ r h3, after_c2_of _ r h2, after_c1_of _ r h1]

/-- The references layer 2 writes. -/
abbrev ops_d_W : List (Ref sig .tc) := ops_d1_W ++ ops_d2_W ++ ops_d3_W
/-- A reference layer 2 does not write keeps its contents through it. -/
theorem after_d_of (V : Valuation τ sig (Elt F)) (r : Ref sig .tc) (h : r ∉ ops_d_W) :
    StableHlo.after ops_d V (Proc.devRef .tc r) = V (Proc.devRef .tc r) := by
  simp only [ops_d_W, List.mem_append, not_or] at h
  obtain ⟨⟨h1, h2⟩, h3⟩ := h
  rw [after_ops_d, after_d3_of _ r h3, after_d2_of _ r h2, after_d1_of _ r h1]

/-- The references layer 3 writes. -/
abbrev ops_e_W : List (Ref sig .tc) := ops_e1_W ++ ops_e2_W ++ ops_e3_W
/-- A reference layer 3 does not write keeps its contents through it. -/
theorem after_e_of (V : Valuation τ sig (Elt F)) (r : Ref sig .tc) (h : r ∉ ops_e_W) :
    StableHlo.after ops_e V (Proc.devRef .tc r) = V (Proc.devRef .tc r) := by
  simp only [ops_e_W, List.mem_append, not_or] at h
  obtain ⟨⟨h1, h2⟩, h3⟩ := h
  rw [after_ops_e, after_e3_of _ r h3, after_e2_of _ r h2, after_e1_of _ r h1]

/-- The 164 references @main writes: every buffer of the signature but the six arguments. -/
abbrev ops_W : List (Ref sig .tc) := ops_a_W ++ ops_b_W ++ ops_c_W ++ ops_d_W ++ ops_e_W ++ ops_f_W

/-- A reference @main does not write keeps its contents through the whole line. -/
theorem after_ops_of (V : Valuation τ sig (Elt F)) (r : Ref sig .tc) (h : r ∉ ops_W) :
    StableHlo.after ops V (Proc.devRef .tc r) = V (Proc.devRef .tc r) := by
  simp only [ops_W, ops_c_W, ops_d_W, ops_e_W, List.mem_append, not_or] at h
  obtain ⟨⟨⟨⟨⟨ha, hb⟩, ⟨⟨hc1, hc2⟩, hc3⟩⟩, ⟨⟨hd1, hd2⟩, hd3⟩⟩, ⟨⟨he1, he2⟩, he3⟩⟩, hf⟩ := h
  rw [after_ops, after_f_of _ r hf, after_e3_of _ r he3, after_e2_of _ r he2, after_e1_of _ r he1,
    after_d3_of _ r hd3, after_d2_of _ r hd2, after_d1_of _ r hd1, after_c3_of _ r hc3, after_c2_of _ r hc2,
    after_c1_of _ r hc1, after_b_of _ r hb, after_a_of _ r ha]

/-- On every device, for any float values, from any memory with zero counters: every weakly fair execution of @main
    terminates with the six arguments unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_arg0).trans (after_ops_of _ main_arg0 (by decide)),
       (h c main_arg1).trans (after_ops_of _ main_arg1 (by decide)),
       (h c main_arg2).trans (after_ops_of _ main_arg2 (by decide)),
       (h c main_arg3).trans (after_ops_of _ main_arg3 (by decide)),
       (h c main_arg4).trans (after_ops_of _ main_arg4 (by decide)),
       (h c main_arg5).trans (after_ops_of _ main_arg5 (by decide))⟩)
    (run_after m ρ)

end Cert.ReferenceIdeal.Hand

end
-- ==== Proof.Spec.lean ====
import Idealize.ShloMosaic.Lib.ValueIdx
import Idealize.ShloMosaic.PureOps.Ideal

/-!
  What one layer computes, as functions of whole arrays on the extended reals.

  For node features `x : [150000, 64]` and two weight matrices `A, B : [64, 64]` (already transposed, so that the
  contraction runs over their first axis) the layer's message is
  `msg n q = ∑ k, x n k · A k q + ∑ k, (x n k)² · B k q`;
  the rectifier is pointwise, `x ↦ x` where `x ≥ 0` and `slope · x` elsewhere, the slope the binary32 value
  nearest one fifth.
-/

noncomputable section

namespace Cert.Spec

open Idealize.ShloMosaic Idealize.ShloMosaic.ValueIdx

/-- The node-feature shape and the weight shape. -/
abbrev SN : Shape := ⟨2, ![150000, 64]⟩
abbrev SW : Shape := ⟨2, ![64, 64]⟩

/-- The leaky rectifier on one extended real. -/
def leaky (x : Ideal .f32) : Ideal .f32 :=
  Scalar.select (FloatOps.cmpf .oge x (Scalar.ofBits .f32 0x00000000#32)) x
    (FloatOps.mulf (Scalar.ofBits .f32 0x3E4CCCCD#32) x)

/-- The rectifier of an array, entry by entry. -/
def leakyArr (x : SN.Idx → Ideal .f32) : SN.Idx → Ideal .f32 := fun i => leaky (x i)

/-- One entry of the message: row `xr` of the features against column `a` of the first matrix, and the row of
    squares against column `b` of the second. -/
def msgEntry (xr a b : Fin 64 → EReal) : EReal :=
  (∑ k : Fin 64, xr k * a k) + ∑ k : Fin 64, (xr k * xr k) * b k

/-- The message at node `n`, column `q`. -/
def msgAt (x : SN.Idx → Ideal .f32) (A B : SW.Idx → EReal) (n : Fin 150000) (q : Fin 64) : EReal :=
  msgEntry (fun k => x (ix2 n k)) (fun k => A (ix2 k q)) (fun k => B (ix2 k q))

/-- The message array. -/
def msgArr (x : SN.Idx → Ideal .f32) (A B : SW.Idx → EReal) : SN.Idx → Ideal .f32 := fun i => msgAt x A B (i 0) (i 1)

theorem msgArr_ix2 (x : SN.Idx → Ideal .f32) (A B : SW.Idx → EReal) (n : Fin 150000) (q : Fin 64) :
    msgArr x A B (ix2 n q) = msgAt x A B n q := rfl

end Cert.Spec

end
-- ==== Proof.RefMath.lean ====
import proofs.«125319_j22917945491468_1_alg».proof.ReferenceIdeal
import proofs.«125319_j22917945491468_1_alg».proof.Proof.Gen.ReferenceIdeal
import proofs.«125319_j22917945491468_1_alg».proof.Proof.Spec
import Idealize.ShloMosaic.Lib.ValueIdx
import Idealize.ShloMosaic.Lib.Pipeline.Value
import Idealize.ShloMosaic.PureOps.Ideal.Laws

/-!
  The reference's layer arithmetic read at an index: its two `dot_general`s and their sum are the message
  `∑ k, x n k · A k q + ∑ k, (x n k)² · B k q`, and its `where (x ≥ 0) x (slope · x)` is the pointwise rectifier.
-/

noncomputable section

namespace Cert.ReferenceIdeal.Bridge

open Idealize.ShloMosaic Idealize.ShloMosaic.ValueIdx Cert.ReferenceIdeal Cert.ReferenceIdeal.Facts₀ Cert.Spec

/-- The reference's contraction: [150000, 64] against [64, 64] over the second and the first axis. -/
abbrev rdot := dot_S150000x64_S64x64_S150000x64_1_0_0_1_n_n

/-- The host's `dot_general` at node `n`, column `q`: the sum over the contracted index. -/
theorem dotGeneral_at {φ₁ φ₂ : FTy} (l : FVec Ideal S150000x64 φ₁) (r : FVec Ideal S64x64 φ₂) (n : Fin 150000) (q : Fin 64) :
    Host.dotGeneral rdot none l r (ix2 n q) = ∑ k : Fin 64, l (ix2 n k) * r (ix2 k q) := by
  simp only [Host.dotGeneral]
  refine (Ideal.dotGeneral_apply rdot none _ l r (ix2 n q)).trans ?_
  rw [← Equiv.sum_comp (contrEquiv1 rdot 64 rfl rfl).symm]
  refine Finset.sum_congr rfl fun k _ => ?_
  have hl : rdot.lhsIdx (ix2 n q) ((contrEquiv1 rdot 64 rfl rfl).symm k) = ix2 n k := by
    funext a; apply Fin.ext
    match a with
    | ⟨0, _⟩ => rfl
    | ⟨1, _⟩ => exact (DotDims.lhsIdx_val_of_single rdot (cl := 1) rfl _ _).trans (contrEquiv1_symm_val rdot 64 rfl rfl k)
  have hr : rdot.rhsIdx (ix2 n q) ((contrEquiv1 rdot 64 rfl rfl).symm k) = ix2 k q := by
    funext a; apply Fin.ext
    match a with
    | ⟨0, _⟩ => exact (DotDims.rhsIdx_val_of_single rdot (cr := 0) rfl _ _).trans (contrEquiv1_symm_val rdot 64 rfl rfl k)
    | ⟨1, _⟩ => rfl
  rw [hl, hr]

/-- The reference's message: the two products' sum is the message array. -/
theorem msg_ref (x : FVec Ideal S150000x64 .f32) (A B : FVec Ideal S64x64 .f32) :
    addf (Host.dotGeneral rdot none x A) (Host.dotGeneral rdot none (mulf x x) B) = msgArr x A B := by
  funext i
  obtain ⟨n, q, rfl⟩ : ∃ (n : Fin 150000) (q : Fin 64), i = ix2 n q := ⟨i 0, i 1, eq_ix2 i⟩
  rw [msgArr_ix2]
  show Host.dotGeneral rdot none x A (ix2 n q) + Host.dotGeneral rdot none (mulf x x) B (ix2 n q) = _
  rw [dotGeneral_at, dotGeneral_at]
  rfl

/-- The reference's rectifier: `where (x ≥ 0) x (slope · x)` with the two scalars spread over the array. -/
theorem leaky_ref (x : FVec Ideal S150000x64 .f32) :
    select (cmpf .oge x (broadcastInDim S150000x64 ![] bcast_S_S150000x64 (constant (F := Ideal) S_ .f32 0x00000000#32))) x
      (mulf (broadcastInDim S150000x64 ![] bcast_S_S150000x64 (id (constant (F := Ideal) S_ .f32 0x3E4CCCCD#32))) x)
      = leakyArr x := by
  funext i
  rfl

end Cert.ReferenceIdeal.Bridge

end
-- ==== Proof.BridgeBase.lean ====
import proofs.«125319_j22917945491468_1_alg».proof.Proof.RefOps
import proofs.«125319_j22917945491468_1_alg».proof.Proof.RefMath
import proofs.«125319_j22917945491468_1_alg».proof.Proof.Gen.KernelIdeal.Launch
import Idealize.ShloMosaic.Lib.StableHlo.Run
import Idealize.ShloMosaic.PureOps.Ideal

/-!
  The two programs' host parts, stage against stage.

  Both programs compute the edge weights, each layer's aggregation (gather the messages at the edges' source nodes, scale
  each by its edge's weight, scatter-add at the target nodes) and the final scores (concatenate the four feature arrays,
  gather two rows per scored pair, multiply, sum along the row) by the same operations in the same order; they differ
  only in where the message and the rectifier are computed. Each lemma below runs one stage of the reference against the
  matching stage of the kernel program from buffers that agree, and concludes that the stage's result agrees. The
  reference's message (two `dot_general`s and their sum) is the message array of the specification; the kernel program's
  weight operands are the same transposed slices, their change of format the identity on the extended reals.
-/

set_option pp.deepTerms false
set_option pp.maxSteps 400

noncomputable section

namespace Cert.Bridge

open Idealize.ShloMosaic Idealize.ShloMosaic.TcCoe Idealize.ShloMosaic.StableHlo Cert.Spec

/-- The results of a line of host operations by one simp pass, a four-operand concatenate read with each operand at its own
    reference. -/
macro "after_results_four" : tactic =>
  `(tactic| (simp (disch := decide) only [after_cons, after_nil,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']))

/-- A valuation of the reference's buffers, and one of the kernel program's. -/
abbrev RVal := Valuation Cert.ReferenceIdeal.τ Cert.ReferenceIdeal.sig (Elt Ideal)
abbrev KVal := Valuation Cert.KernelIdeal.τ Cert.KernelIdeal.sig (Elt Ideal)

end Cert.Bridge

end
-- ==== Proof.BridgeSimW.lean ====
import proofs.«125319_j22917945491468_1_alg».proof.Proof.BridgeBase

/-! The edge weights, stage against stage: the same operations of agreeing index arrays. -/

set_option pp.deepTerms false
set_option pp.maxSteps 400

noncomputable section

namespace Cert.Bridge

open Idealize.ShloMosaic Idealize.ShloMosaic.TcCoe Idealize.ShloMosaic.StableHlo Cert.Spec

set_option maxHeartbeats 4000000 in
/-- The edge weights: degree, inverse square root where positive, product at an edge's two ends. -/
theorem w_sim (U : RVal) (V : KVal)
    (h3 : U (Proc.devRef .tc Cert.ReferenceIdeal.main_arg3) = V (Proc.devRef .tc Cert.KernelIdeal.main_arg3)) (h4 : U (Proc.devRef .tc Cert.ReferenceIdeal.main_arg4) = V (Proc.devRef .tc Cert.KernelIdeal.main_arg4)) :
    after (Cert.ReferenceIdeal.Hand.ops_b (F := Ideal)) (after (Cert.ReferenceIdeal.Hand.ops_a (F := Ideal)) U) (Proc.devRef .tc Cert.ReferenceIdeal.main_v24)
      = after (Cert.KernelIdeal.Gen.hostOps0_2 (F := Ideal)) (after (Cert.KernelIdeal.Gen.hostOps0_1 (F := Ideal)) (after (Cert.KernelIdeal.Gen.hostOps0 (F := Ideal)) V)) (Proc.devRef .tc Cert.KernelIdeal.main_v24) := by
  dsimp only [Cert.ReferenceIdeal.Hand.ops_a, Cert.ReferenceIdeal.Hand.ops_b, Cert.KernelIdeal.Gen.hostOps0, Cert.KernelIdeal.Gen.hostOps0_1, Cert.KernelIdeal.Gen.hostOps0_2]
  after_results_simp
  rw [h3, h4]
  rfl

end Cert.Bridge

end
-- ==== Proof.BridgeSimM.lean ====
import proofs.«125319_j22917945491468_1_alg».proof.Proof.BridgeBase

/-! The reference's messages and rectifiers, stage against stage: the two `dot_general`s and their sum are the message array; the `where` is the pointwise rectifier. -/

set_option pp.deepTerms false
set_option pp.maxSteps 400

noncomputable section

namespace Cert.Bridge

open Idealize.ShloMosaic Idealize.ShloMosaic.TcCoe Idealize.ShloMosaic.StableHlo Cert.Spec

set_option maxHeartbeats 4000000 in
/-- Layer 0's message in the reference is the message array of the input features and the kernel program's two weight operands. -/
theorem msg0_sim (U : RVal) (V : KVal)
    (h1 : U (Proc.devRef .tc Cert.ReferenceIdeal.main_arg1) = V (Proc.devRef .tc Cert.KernelIdeal.main_arg1)) (h2 : U (Proc.devRef .tc Cert.ReferenceIdeal.main_arg2) = V (Proc.devRef .tc Cert.KernelIdeal.main_arg2)) :
    after (Cert.ReferenceIdeal.Hand.ops_c1 (F := Ideal)) U (Proc.devRef .tc Cert.ReferenceIdeal.main_v34)
      = msgArr (U (Proc.devRef .tc Cert.ReferenceIdeal.main_arg0)) (after (Cert.KernelIdeal.Gen.hostOps0_2 (F := Ideal)) V (Proc.devRef .tc Cert.KernelIdeal.main_v28)) (after (Cert.KernelIdeal.Gen.hostOps0_2 (F := Ideal)) V (Proc.devRef .tc Cert.KernelIdeal.main_v32)) := by
  dsimp only [Cert.ReferenceIdeal.Hand.ops_c1, Cert.KernelIdeal.Gen.hostOps0_2]
  after_results
  dsimp only
  rw [Cert.ReferenceIdeal.Bridge.msg_ref, h1, h2]
  rfl

set_option maxHeartbeats 4000000 in
/-- Layer 1's message, of the reference's rectified features. -/
theorem msg1_sim (U : RVal) (V : KVal)
    (h1 : U (Proc.devRef .tc Cert.ReferenceIdeal.main_arg1) = V (Proc.devRef .tc Cert.KernelIdeal.main_arg1)) (h2 : U (Proc.devRef .tc Cert.ReferenceIdeal.main_arg2) = V (Proc.devRef .tc Cert.KernelIdeal.main_arg2)) :
    after (Cert.ReferenceIdeal.Hand.ops_d1 (F := Ideal)) U (Proc.devRef .tc Cert.ReferenceIdeal.main_v58)
      = msgArr (U (Proc.devRef .tc Cert.ReferenceIdeal.main_v48)) (after (Cert.KernelIdeal.Gen.hostOps1 (F := Ideal)) V (Proc.devRef .tc Cert.KernelIdeal.main_v50)) (after (Cert.KernelIdeal.Gen.hostOps1 (F := Ideal)) V (Proc.devRef .tc Cert.KernelIdeal.main_v54)) := by
  dsimp only [Cert.ReferenceIdeal.Hand.ops_d1, Cert.KernelIdeal.Gen.hostOps1]
  after_results
  dsimp only
  rw [Cert.ReferenceIdeal.Bridge.msg_ref, h1, h2]
  rfl

set_option maxHeartbeats 4000000 in
/-- Layer 2's message. -/
theorem msg2_sim (U : RVal) (V : KVal)
    (h1 : U (Proc.devRef .tc Cert.ReferenceIdeal.main_arg1) = V (Proc.devRef .tc Cert.KernelIdeal.main_arg1)) (h2 : U (Proc.devRef .tc Cert.ReferenceIdeal.main_arg2) = V (Proc.devRef .tc Cert.KernelIdeal.main_arg2)) :
    after (Cert.ReferenceIdeal.Hand.ops_e1 (F := Ideal)) U (Proc.devRef .tc Cert.ReferenceIdeal.main_v82)
      = msgArr (U (Proc.devRef .tc Cert.ReferenceIdeal.main_v72)) (after (Cert.KernelIdeal.Gen.hostOps2 (F := Ideal)) V (Proc.devRef .tc Cert.KernelIdeal.main_v72)) (after (Cert.KernelIdeal.Gen.hostOps2 (F := Ideal)) V (Proc.devRef .tc Cert.KernelIdeal.main_v76)) := by
  dsimp only [Cert.ReferenceIdeal.Hand.ops_e1, Cert.KernelIdeal.Gen.hostOps2]
  after_results
  dsimp only
  rw [Cert.ReferenceIdeal.Bridge.msg_ref, h1, h2]
  rfl

/-- The reference's rectifier after layer 0. -/
theorem leaky0_sim (U : RVal) : after (Cert.ReferenceIdeal.Hand.ops_c3 (F := Ideal)) U (Proc.devRef .tc Cert.ReferenceIdeal.main_v48) = leakyArr (U (Proc.devRef .tc Cert.ReferenceIdeal.main_v47)) := by
  dsimp only [Cert.ReferenceIdeal.Hand.ops_c3]
  after_results
  exact Cert.ReferenceIdeal.Bridge.leaky_ref _

/-- The reference's rectifier after layer 1. -/
theorem leaky1_sim (U : RVal) : after (Cert.ReferenceIdeal.Hand.ops_d3 (F := Ideal)) U (Proc.devRef .tc Cert.ReferenceIdeal.main_v72) = leakyArr (U (Proc.devRef .tc Cert.ReferenceIdeal.main_v71)) := by
  dsimp only [Cert.ReferenceIdeal.Hand.ops_d3]
  after_results
  exact Cert.ReferenceIdeal.Bridge.leaky_ref _

/-- The reference's rectifier after layer 2. -/
theorem leaky2_sim (U : RVal) : after (Cert.ReferenceIdeal.Hand.ops_e3 (F := Ideal)) U (Proc.devRef .tc Cert.ReferenceIdeal.main_v96) = leakyArr (U (Proc.devRef .tc Cert.ReferenceIdeal.main_v95)) := by
  dsimp only [Cert.ReferenceIdeal.Hand.ops_e3]
  after_results
  exact Cert.ReferenceIdeal.Bridge.leaky_ref _

end Cert.Bridge

end
-- ==== Proof.BridgeSimA.lean ====
import proofs.«125319_j22917945491468_1_alg».proof.Proof.BridgeBase

/-! The aggregations, stage against stage: gather, scale by the edge weight, scatter-add, of agreeing arrays. -/

set_option pp.deepTerms false
set_option pp.maxSteps 400

noncomputable section

namespace Cert.Bridge

open Idealize.ShloMosaic Idealize.ShloMosaic.TcCoe Idealize.ShloMosaic.StableHlo Cert.Spec

set_option maxHeartbeats 4000000 in
/-- Layer 0's aggregation: from agreeing weights, messages and edge arrays, the same aggregated array. -/
theorem agg0_sim (U : RVal) (V : KVal)
    (hw : U (Proc.devRef .tc Cert.ReferenceIdeal.main_v24) = V (Proc.devRef .tc Cert.KernelIdeal.main_v24)) (hmsg : U (Proc.devRef .tc Cert.ReferenceIdeal.main_v34) = V (Proc.devRef .tc Cert.KernelIdeal.main_v33_1))
    (h3 : U (Proc.devRef .tc Cert.ReferenceIdeal.main_arg3) = V (Proc.devRef .tc Cert.KernelIdeal.main_arg3)) (h4 : U (Proc.devRef .tc Cert.ReferenceIdeal.main_arg4) = V (Proc.devRef .tc Cert.KernelIdeal.main_arg4)) :
    after (Cert.ReferenceIdeal.Hand.ops_c2 (F := Ideal)) U (Proc.devRef .tc Cert.ReferenceIdeal.main_v47) = after (Cert.KernelIdeal.Gen.hostOps1 (F := Ideal)) V (Proc.devRef .tc Cert.KernelIdeal.main_v46) := by
  dsimp only [Cert.ReferenceIdeal.Hand.ops_c2, Cert.KernelIdeal.Gen.hostOps1]
  after_results_simp
  rw [hw, hmsg, h3, h4]
  rfl

set_option maxHeartbeats 4000000 in
/-- Layer 1's aggregation. -/
theorem agg1_sim (U : RVal) (V : KVal)
    (hw : U (Proc.devRef .tc Cert.ReferenceIdeal.main_v24) = V (Proc.devRef .tc Cert.KernelIdeal.main_v24)) (hmsg : U (Proc.devRef .tc Cert.ReferenceIdeal.main_v58) = V (Proc.devRef .tc Cert.KernelIdeal.main_v55_1))
    (h3 : U (Proc.devRef .tc Cert.ReferenceIdeal.main_arg3) = V (Proc.devRef .tc Cert.KernelIdeal.main_arg3)) (h4 : U (Proc.devRef .tc Cert.ReferenceIdeal.main_arg4) = V (Proc.devRef .tc Cert.KernelIdeal.main_arg4)) :
    after (Cert.ReferenceIdeal.Hand.ops_d2 (F := Ideal)) U (Proc.devRef .tc Cert.ReferenceIdeal.main_v71) = after (Cert.KernelIdeal.Gen.hostOps2 (F := Ideal)) V (Proc.devRef .tc Cert.KernelIdeal.main_v68) := by
  dsimp only [Cert.ReferenceIdeal.Hand.ops_d2, Cert.KernelIdeal.Gen.hostOps2]
  after_results_simp
  rw [hw, hmsg, h3, h4]
  rfl

set_option maxHeartbeats 4000000 in
/-- Layer 2's aggregation. -/
theorem agg2_sim (U : RVal) (V : KVal)
    (hw : U (Proc.devRef .tc Cert.ReferenceIdeal.main_v24) = V (Proc.devRef .tc Cert.KernelIdeal.main_v24)) (hmsg : U (Proc.devRef .tc Cert.ReferenceIdeal.main_v82) = V (Proc.devRef .tc Cert.KernelIdeal.main_v77_1))
    (h3 : U (Proc.devRef .tc Cert.ReferenceIdeal.main_arg3) = V (Proc.devRef .tc Cert.KernelIdeal.main_arg3)) (h4 : U (Proc.devRef .tc Cert.ReferenceIdeal.main_arg4) = V (Proc.devRef .tc Cert.KernelIdeal.main_arg4)) :
    after (Cert.ReferenceIdeal.Hand.ops_e2 (F := Ideal)) U (Proc.devRef .tc Cert.ReferenceIdeal.main_v95) = after (Cert.KernelIdeal.Gen.hostOps3 (F := Ideal)) V (Proc.devRef .tc Cert.KernelIdeal.main_v90) := by
  dsimp only [Cert.ReferenceIdeal.Hand.ops_e2, Cert.KernelIdeal.Gen.hostOps3]
  after_results_simp
  rw [hw, hmsg, h3, h4]
  rfl

end Cert.Bridge

end
-- ==== Proof.BridgeSimF.lean ====
import proofs.«125319_j22917945491468_1_alg».proof.Proof.BridgeBase

/-! The scores, stage against stage: concatenate, gather two rows per pair, multiply, sum. -/

set_option pp.deepTerms false
set_option pp.maxSteps 400

noncomputable section

namespace Cert.Bridge

open Idealize.ShloMosaic Idealize.ShloMosaic.TcCoe Idealize.ShloMosaic.StableHlo Cert.Spec

set_option maxHeartbeats 4000000 in
/-- The scores: from agreeing feature arrays and scored pairs, the same result. -/
theorem final_sim (U : RVal) (V : KVal)
    (h0 : U (Proc.devRef .tc Cert.ReferenceIdeal.main_arg0) = V (Proc.devRef .tc Cert.KernelIdeal.main_arg0)) (hx1 : U (Proc.devRef .tc Cert.ReferenceIdeal.main_v48) = V (Proc.devRef .tc Cert.KernelIdeal.main_v55_0))
    (hx2 : U (Proc.devRef .tc Cert.ReferenceIdeal.main_v72) = V (Proc.devRef .tc Cert.KernelIdeal.main_v77_0)) (hx3 : U (Proc.devRef .tc Cert.ReferenceIdeal.main_v96) = V (Proc.devRef .tc Cert.KernelIdeal.main_v91))
    (h5 : U (Proc.devRef .tc Cert.ReferenceIdeal.main_arg5) = V (Proc.devRef .tc Cert.KernelIdeal.main_arg5)) :
    after (Cert.ReferenceIdeal.Hand.ops_f (F := Ideal)) U (Proc.devRef .tc Cert.ReferenceIdeal.main_v117) = after (Cert.KernelIdeal.Gen.hostOps4 (F := Ideal)) V (Proc.devRef .tc Cert.KernelIdeal.main_v112) := by
  dsimp only [Cert.ReferenceIdeal.Hand.ops_f, Cert.KernelIdeal.Gen.hostOps4]
  after_results_four
  rw [h0, hx1, hx2, hx3, h5]
  rfl

end Cert.Bridge

end
-- ==== Proof.LayerMath.lean ====
import proofs.«125319_j22917945491468_1_alg».proof.Proof.Gen.KernelIdeal.Skeleton
import proofs.«125319_j22917945491468_1_alg».proof.Proof.Spec
import Idealize.ShloMosaic.Lib.ValueIdx
import Idealize.ShloMosaic.Lib.Pipeline.Value
import Idealize.ShloMosaic.PureOps.Ideal.Laws

/-!
  The arithmetic of one layer, read at an index on the extended reals.

  A layer's message at row `p`, column `q` is
  `∑ k, x p k · A k q + ∑ k, (x p k)² · B k q` for the row block `x` and the two (already transposed) weight
  matrices `A`, `B`; a change of float format is the identity on the extended reals, and a matrix product into
  the zero accumulator is the plain sum over the contracted axis. The rectifier is pointwise:
  `x ↦ x` where `x ≥ 0`, `slope · x` elsewhere.
-/

noncomputable section

namespace Cert.KernelIdeal.Bridge

open Idealize.ShloMosaic Idealize.ShloMosaic.ValueIdx Cert.KernelIdeal Cert.KernelIdeal.Gen Cert.Spec

/-- The activation kernel's stored value is the rectifier of the loaded block, entry by entry. -/
theorem k3_pay1_apply (v0 : Vec Ideal S5000x64 .f32) (j : S5000x64.Idx) : k3_pay1 v0 j = leaky (v0 j) := by
  unfold k3_pay1
  rw [shapeCast_self]
  rfl

theorem k1_pay1_apply (v0 : Vec Ideal S5000x64 .f32) (j : S5000x64.Idx) : k1_pay1 v0 j = leaky (v0 j) := by
  unfold k1_pay1
  rw [shapeCast_self]
  rfl

theorem k2_pay1_apply (v0 : Vec Ideal S5000x64 .f32) (j : S5000x64.Idx) : k2_pay1 v0 j = leaky (v0 j) := by
  unfold k2_pay1
  rw [shapeCast_self]
  rfl

/-- The contracted axis of the layer kernels' matrix product, as `Fin 64`. -/
abbrev kdot := dot_S5000x64_S64x64_S5000x64_1_0_0_1_n_n

/-- A matrix product of a [5000, 64] block with a [64, 64] matrix into the zero accumulator, at row `p`,
    column `q`: the sum over the contracted index `k` of `l p k · r k q`. -/
theorem matmul_zero_at {φ₁ φ₂ : FTy} (l : FVec Ideal S5000x64 φ₁) (r : FVec Ideal S64x64 φ₂) (p : Fin 5000) (q : Fin 64) :
    matmul kdot none l r (constant S5000x64 .f32 0x00000000#32) (ix2 p q) = ∑ k : Fin 64, l (ix2 p k) * r (ix2 k q) := by
  refine (Ideal.matmul_constant_zero_apply kdot none l r (ix2 p q)).trans ?_
  rw [← Equiv.sum_comp (contrEquiv1 kdot 64 rfl rfl).symm]
  refine Finset.sum_congr rfl fun k _ => ?_
  have hl : kdot.lhsIdx (ix2 p q) ((contrEquiv1 kdot 64 rfl rfl).symm k) = ix2 p k := by
    funext a; apply Fin.ext
    match a with
    | ⟨0, _⟩ => rfl
    | ⟨1, _⟩ => exact (DotDims.lhsIdx_val_of_single kdot (cl := 1) rfl _ _).trans (contrEquiv1_symm_val kdot 64 rfl rfl k)
  have hr : kdot.rhsIdx (ix2 p q) ((contrEquiv1 kdot 64 rfl rfl).symm k) = ix2 k q := by
    funext a; apply Fin.ext
    match a with
    | ⟨0, _⟩ => exact (DotDims.rhsIdx_val_of_single kdot (cr := 0) rfl _ _).trans (contrEquiv1_symm_val kdot 64 rfl rfl k)
    | ⟨1, _⟩ => rfl
  rw [hl, hr]

/-- The first layer's stored message at row `p`, column `q` of its block. -/
theorem k0_pay1_apply (x : Vec Ideal S5000x64 .f32) (w1 w2 : Vec Ideal S64x64 .bf16) (p : Fin 5000) (q : Fin 64) :
    k0_pay1 x w1 w2 (ix2 p q) = msgEntry (fun k => x (ix2 p k)) (fun k => w1 (ix2 k q)) (fun k => w2 (ix2 k q)) := by
  unfold k0_pay1
  rw [shapeCast_self, shapeCast_self]
  show matmul kdot none _ _ _ (ix2 p q) + matmul kdot none _ _ _ (ix2 p q) = _
  rw [matmul_zero_at, matmul_zero_at]
  rfl

/-- The later layers' stored message: the same of the rectified block. -/
theorem k1_pay2_apply (x : Vec Ideal S5000x64 .f32) (w1 w2 : Vec Ideal S64x64 .bf16) (p : Fin 5000) (q : Fin 64) :
    k1_pay2 x w1 w2 (ix2 p q) = msgEntry (fun k => leaky (x (ix2 p k))) (fun k => w1 (ix2 k q)) (fun k => w2 (ix2 k q)) := by
  unfold k1_pay2
  rw [shapeCast_self, shapeCast_self]
  show matmul kdot none _ _ _ (ix2 p q) + matmul kdot none _ _ _ (ix2 p q) = _
  rw [matmul_zero_at, matmul_zero_at]
  unfold msgEntry
  refine congrArg₂ (· + ·) (Finset.sum_congr rfl fun k _ => ?_) (Finset.sum_congr rfl fun k _ => ?_)
  · show k1_pay1 x (ix2 p k) * _ = _
    rw [k1_pay1_apply]
  · show (k1_pay1 x (ix2 p k) * k1_pay1 x (ix2 p k)) * _ = _
    rw [k1_pay1_apply]

theorem k2_pay2_apply (x : Vec Ideal S5000x64 .f32) (w1 w2 : Vec Ideal S64x64 .bf16) (p : Fin 5000) (q : Fin 64) :
    k2_pay2 x w1 w2 (ix2 p q) = msgEntry (fun k => leaky (x (ix2 p k))) (fun k => w1 (ix2 k q)) (fun k => w2 (ix2 k q)) := by
  unfold k2_pay2
  rw [shapeCast_self, shapeCast_self]
  show matmul kdot none _ _ _ (ix2 p q) + matmul kdot none _ _ _ (ix2 p q) = _
  rw [matmul_zero_at, matmul_zero_at]
  unfold msgEntry
  refine congrArg₂ (· + ·) (Finset.sum_congr rfl fun k _ => ?_) (Finset.sum_congr rfl fun k _ => ?_)
  · show k2_pay1 x (ix2 p k) * _ = _
    rw [k2_pay1_apply]
  · show (k2_pay1 x (ix2 p k) * k2_pay1 x (ix2 p k)) * _ = _
    rw [k2_pay1_apply]

end Cert.KernelIdeal.Bridge

end
-- ==== Proof.KIVal0.lean ====
import proofs.«125319_j22917945491468_1_alg».proof.Proof.KIData
import proofs.«125319_j22917945491468_1_alg».proof.Proof.LayerMath
import proofs.«125319_j22917945491468_1_alg».proof.Proof.Gen.KernelIdeal.Points
import Idealize.ShloMosaic.Lib.Pipeline.Value

/-!
  Layer kernel 0: what its two output arrays hold after the thirty grid points.

  Point `t` reads rows `5000·t … 5000·t + 4999` of the feature array and both whole weight matrices, and writes back
  the same rows of its outputs; the thirty row blocks tile the 150000 rows, so each output array ends as ONE function of
  the arrays the region finds: the message of the features.
-/

noncomputable section

namespace Cert.KernelIdeal.Bridge

open Idealize.ShloMosaic Idealize.ShloMosaic.TcCoe Idealize.ShloMosaic.ValueIdx Idealize.SL.Sem
open Cert.KernelIdeal Cert.KernelIdeal.Gen Cert.KernelIdeal.Hand Cert.Spec
open Idealize.ShloMosaic.Pipeline (Dat)

variable (V : (c : Dev nD) → (b : Ref sig .tc) → Buf (Elt Ideal) ((c : Thread nD τ).loc b))

theorem zero_off0 : (![0, 0] : Fin 2 → Nat) = fun _ => 0 := funext fun a => by fin_cases a <;> rfl

/-- The printed index maps over the grid: the feature and output windows sit at row block `t`, the weight windows
    at the one block there is. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem lt30_0 (t : Fin cfg0.N) : t.val < 30 := lt_of_lt_of_eq t.isLt N_0

/-- The feature window's block at point `t`: rows `5000·t + p` of the array. -/
theorem blk0_x (c : Dev nD) (t : Fin cfg0.N) (p : Fin 5000) (k : Fin 64) :
    iblk0 V c 0 t (ix2 p k) = V c main_arg0 (ix2 ⟨t.val * 5000 + p.val, by have := lt30_0 t; omega⟩ k) := by
  obtain ⟨e00, e01, -⟩ := idx0 t
  show V c main_arg0 (((cfg0.win 0).blk t).view.emb (ix2 p k)) = _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 64 + 1 * k.val = k.val; omega

/-- A weight window's block at any point is the whole matrix. -/
theorem blk0_w1 (c : Dev nD) (t : Fin cfg0.N) (a b : Fin 64) : iblk0 V c 1 t (ix2 a b) = V c main_v28 (ix2 a b) := by
  obtain ⟨-, -, e10, e11, -⟩ := idx0 t
  show V c main_v28 (((cfg0.win 1).blk t).view.emb (ix2 a b)) = _
  refine congrArg _ (funext fun d => Fin.ext ?_)
  match d with
  | ⟨0, _⟩ => show win0_1.index t (0 : Fin 2) * 64 + 1 * a.val = a.val; omega
  | ⟨1, _⟩ => show win0_1.index t (1 : Fin 2) * 64 + 1 * b.val = b.val; omega

theorem blk0_w2 (c : Dev nD) (t : Fin cfg0.N) (a b : Fin 64) : iblk0 V c 2 t (ix2 a b) = V c main_v32 (ix2 a b) := by
  obtain ⟨-, -, -, -, e20, e21, -⟩ := idx0 t
  show V c main_v32 (((cfg0.win 2).blk t).view.emb (ix2 a b)) = _
  refine congrArg _ (funext fun d => Fin.ext ?_)
  match d with
  | ⟨0, _⟩ => show win0_2.index t (0 : Fin 2) * 64 + 1 * a.val = a.val; omega
  | ⟨1, _⟩ => show win0_2.index t (1 : Fin 2) * 64 + 1 * b.val = b.val; omega

/-- What point `t` writes back into the message array is block `t` of the message of the arrays the region finds. -/
theorem flushed0_4 (c : Dev nD) (t : Fin cfg0.N) :
    (dat0 V c).flushed 4 t = ((cfg0.win 4).blk t).view.read (Elt Ideal)
      (msgArr (V c main_arg0) (V c main_v28) (V c main_v32)) := by
  show (cfg0.win 4).cut (grid0.coords t) ((dat0 V c).after 4 t) = _
  rw [after0_4]
  unfold out0_4
  rw [View.canon_unit_zero zero_off0]
  simp only [View.ld_unit_zero (S := S5000x64) zero_off0, View.ld_unit_zero (S := S64x64) zero_off0]
  obtain ⟨-, -, -, -, -, -, -, -, e40, e41⟩ := idx0 t
  funext j
  obtain ⟨p, q, rfl⟩ : ∃ (p : Fin 5000) (q : Fin 64), j = ix2 p q := ⟨j 0, j 1, eq_ix2 j⟩
  have hemb : ((cfg0.win 4).blk t).view.emb (ix2 p q) = ix2 ⟨t.val * 5000 + p.val, by have := lt30_0 t; omega⟩ q := by
    funext a; apply Fin.ext
    match a with
    | ⟨0, _⟩ => show win0_4.index t (0 : Fin 2) * 5000 + 1 * p.val = t.val * 5000 + p.val; omega
    | ⟨1, _⟩ => show win0_4.index t (1 : Fin 2) * 64 + 1 * q.val = q.val; omega
  show k0_pay1 (iblk0 V c 0 t) (iblk0 V c 1 t) (iblk0 V c 2 t) (ix2 p q)
    = msgArr (V c main_arg0) (V c main_v28) (V c main_v32) (((cfg0.win 4).blk t).view.emb (ix2 p q))
  rw [hemb, msgArr_ix2]
  refine (k0_pay1_apply (iblk0 V c 0 t) (iblk0 V c 1 t) (iblk0 V c 2 t) p q).trans ?_
  unfold msgAt
  refine congr (congr (congrArg msgEntry (funext fun k => ?_)) (funext fun k => ?_)) (funext fun k => ?_)
  · exact blk0_x V c t p k
  · exact blk0_w1 V c t k q
  · exact blk0_w2 V c t k q

/-- An index of the message array is in point `t`'s block iff its row is one of the block's 5000. -/
theorem mem_blk0_4 (t : Fin cfg0.N) (i : S150000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v33_1).slice (win0_4.rect t)).set ↔ _
  rw [View.set_slice_whole, Rect.mem_set_unit]
  exact Iff.rfl

/-- Every row lies in the block of the point `row / 5000`. -/
theorem cover0_4 (i : S150000x64.Idx) : ∃ t : Fin cfg0.N, (cfg0.win 4).flush t = true ∧ i ∈ ((cfg0.win 4).blk t).view.set := by
  have hi0 : (i 0).val < 150000 := (i 0).isLt
  have hi1 : (i 1).val < 64 := (i 1).isLt
  refine ⟨⟨(i 0).val / 5000, by rw [show cfg0.N = 30 from N_0]; omega⟩, flush0_4 _, ?_⟩
  rw [mem_blk0_4]
  obtain ⟨-, -, -, -, -, -, -, -, e40, e41⟩ := idx0 ⟨(i 0).val / 5000, by rw [show cfg0.N = 30 from N_0]; omega⟩
  intro a
  match a with
  | ⟨0, _⟩ => show win0_4.index _ (0 : Fin 2) * 5000 ≤ (i 0).val ∧ (i 0).val < win0_4.index _ (0 : Fin 2) * 5000 + 5000; rw [e40]; show (i 0).val / 5000 * 5000 ≤ (i 0).val ∧ (i 0).val < (i 0).val / 5000 * 5000 + 5000; omega
  | ⟨1, _⟩ => show win0_4.index _ (1 : Fin 2) * 64 ≤ (i 1).val ∧ (i 1).val < win0_4.index _ (1 : Fin 2) * 64 + 64; rw [e41]; omega

/-- The message array after the region. -/
theorem final0_4 (c : Dev nD) :
    (dat0 V c).arrAt 4 cfg0.N = msgArr (V c main_arg0) (V c main_v28) (V c main_v32) :=
  (dat0 V c).arrAt_eq_of_cover 4 _ (fun t _ => flushed0_4 V c t) (cover0_4)

end Cert.KernelIdeal.Bridge

end
-- ==== Proof.KIVal1.lean ====
import proofs.«125319_j22917945491468_1_alg».proof.Proof.KIData
import proofs.«125319_j22917945491468_1_alg».proof.Proof.LayerMath
import proofs.«125319_j22917945491468_1_alg».proof.Proof.Gen.KernelIdeal.Points
import Idealize.ShloMosaic.Lib.Pipeline.Value

/-!
  Layer kernel 1: what its two output arrays hold after the thirty grid points.

  Point `t` reads rows `5000·t … 5000·t + 4999` of the feature array and both whole weight matrices, and writes back
  the same rows of its outputs; the thirty row blocks tile the 150000 rows, so each output array ends as ONE function of
  the arrays the region finds: the rectified features, and the message of the rectified features.
-/

noncomputable section

namespace Cert.KernelIdeal.Bridge

open Idealize.ShloMosaic Idealize.ShloMosaic.TcCoe Idealize.ShloMosaic.ValueIdx Idealize.SL.Sem
open Cert.KernelIdeal Cert.KernelIdeal.Gen Cert.KernelIdeal.Hand Cert.Spec
open Idealize.ShloMosaic.Pipeline (Dat)

variable (V : (c : Dev nD) → (b : Ref sig .tc) → Buf (Elt Ideal) ((c : Thread nD τ).loc b))

theorem zero_off1 : (![0, 0] : Fin 2 → Nat) = fun _ => 0 := funext fun a => by fin_cases a <;> rfl

/-- The printed index maps over the grid: the feature and output windows sit at row block `t`, the weight windows
    at the one block there is. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

theorem lt30_1 (t : Fin cfg1.N) : t.val < 30 := lt_of_lt_of_eq t.isLt N_1

/-- The feature window's block at point `t`: rows `5000·t + p` of the array. -/
theorem blk1_x (c : Dev nD) (t : Fin cfg1.N) (p : Fin 5000) (k : Fin 64) :
    iblk1 V c 0 t (ix2 p k) = V c main_v46 (ix2 ⟨t.val * 5000 + p.val, by have := lt30_1 t; omega⟩ k) := by
  obtain ⟨e00, e01, -⟩ := idx1 t
  show V c main_v46 (((cfg1.win 0).blk t).view.emb (ix2 p k)) = _
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 64 + 1 * k.val = k.val; omega

/-- A weight window's block at any point is the whole matrix. -/
theorem blk1_w1 (c : Dev nD) (t : Fin cfg1.N) (a b : Fin 64) : iblk1 V c 1 t (ix2 a b) = V c main_v50 (ix2 a b) := by
  obtain ⟨-, -, e10, e11, -⟩ := idx1 t
  show V c main_v50 (((cfg1.win 1).blk t).view.emb (ix2 a b)) = _
  refine congrArg _ (funext fun d => Fin.ext ?_)
  match d with
  | ⟨0, _⟩ => show win1_1.index t (0 : Fin 2) * 64 + 1 * a.val = a.val; omega
  | ⟨1, _⟩ => show win1_1.index t (1 : Fin 2) * 64 + 1 * b.val = b.val; omega

theorem blk1_w2 (c : Dev nD) (t : Fin cfg1.N) (a b : Fin 64) : iblk1 V c 2 t (ix2 a b) = V c main_v54 (ix2 a b) := by
  obtain ⟨-, -, -, -, e20, e21, -⟩ := idx1 t
  show V c main_v54 (((cfg1.win 2).blk t).view.emb (ix2 a b)) = _
  refine congrArg _ (funext fun d => Fin.ext ?_)
  match d with
  | ⟨0, _⟩ => show win1_2.index t (0 : Fin 2) * 64 + 1 * a.val = a.val; omega
  | ⟨1, _⟩ => show win1_2.index t (1 : Fin 2) * 64 + 1 * b.val = b.val; omega

/-- What point `t` writes back into the message array is block `t` of the message of the arrays the region finds. -/
theorem flushed1_4 (c : Dev nD) (t : Fin cfg1.N) :
    (dat1 V c).flushed 4 t = ((cfg1.win 4).blk t).view.read (Elt Ideal)
      (msgArr (leakyArr (V c main_v46)) (V c main_v50) (V c main_v54)) := by
  show (cfg1.win 4).cut (grid1.coords t) ((dat1 V c).after 4 t) = _
  rw [after1_4]
  unfold out1_4
  rw [View.canon_unit_zero zero_off1]
  simp only [View.ld_unit_zero (S := S5000x64) zero_off1, View.ld_unit_zero (S := S64x64) zero_off1]
  obtain ⟨-, -, -, -, -, -, -, -, e40, e41⟩ := idx1 t
  funext j
  obtain ⟨p, q, rfl⟩ : ∃ (p : Fin 5000) (q : Fin 64), j = ix2 p q := ⟨j 0, j 1, eq_ix2 j⟩
  have hemb : ((cfg1.win 4).blk t).view.emb (ix2 p q) = ix2 ⟨t.val * 5000 + p.val, by have := lt30_1 t; omega⟩ q := by
    funext a; apply Fin.ext
    match a with
    | ⟨0, _⟩ => show win1_4.index t (0 : Fin 2) * 5000 + 1 * p.val = t.val * 5000 + p.val; omega
    | ⟨1, _⟩ => show win1_4.index t (1 : Fin 2) * 64 + 1 * q.val = q.val; omega
  show k1_pay2 (iblk1 V c 0 t) (iblk1 V c 1 t) (iblk1 V c 2 t) (ix2 p q)
    = msgArr (leakyArr (V c main_v46)) (V c main_v50) (V c main_v54) (((cfg1.win 4).blk t).view.emb (ix2 p q))
  rw [hemb, msgArr_ix2]
  refine (k1_pay2_apply (iblk1 V c 0 t) (iblk1 V c 1 t) (iblk1 V c 2 t) p q).trans ?_
  unfold msgAt
  refine congr (congr (congrArg msgEntry (funext fun k => ?_)) (funext fun k => ?_)) (funext fun k => ?_)
  · show leaky (iblk1 V c 0 t (ix2 p k)) = leaky _; rw [blk1_x]
  · exact blk1_w1 V c t k q
  · exact blk1_w2 V c t k q

/-- An index of the message array is in point `t`'s block iff its row is one of the block's 5000. -/
theorem mem_blk1_4 (t : Fin cfg1.N) (i : S150000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v55_1).slice (win1_4.rect t)).set ↔ _
  rw [View.set_slice_whole, Rect.mem_set_unit]
  exact Iff.rfl

/-- Every row lies in the block of the point `row / 5000`. -/
theorem cover1_4 (i : S150000x64.Idx) : ∃ t : Fin cfg1.N, (cfg1.win 4).flush t = true ∧ i ∈ ((cfg1.win 4).blk t).view.set := by
  have hi0 : (i 0).val < 150000 := (i 0).isLt
  have hi1 : (i 1).val < 64 := (i 1).isLt
  refine ⟨⟨(i 0).val / 5000, by rw [show cfg1.N = 30 from N_1]; omega⟩, flush1_4 _, ?_⟩
  rw [mem_blk1_4]
  obtain ⟨-, -, -, -, -, -, -, -, e40, e41⟩ := idx1 ⟨(i 0).val / 5000, by rw [show cfg1.N = 30 from N_1]; omega⟩
  intro a
  match a with
  | ⟨0, _⟩ => show win1_4.index _ (0 : Fin 2) * 5000 ≤ (i 0).val ∧ (i 0).val < win1_4.index _ (0 : Fin 2) * 5000 + 5000; rw [e40]; show (i 0).val / 5000 * 5000 ≤ (i 0).val ∧ (i 0).val < (i 0).val / 5000 * 5000 + 5000; omega
  | ⟨1, _⟩ => show win1_4.index _ (1 : Fin 2) * 64 ≤ (i 1).val ∧ (i 1).val < win1_4.index _ (1 : Fin 2) * 64 + 64; rw [e41]; omega

/-- The message array after the region. -/
theorem final1_4 (c : Dev nD) :
    (dat1 V c).arrAt 4 cfg1.N = msgArr (leakyArr (V c main_v46)) (V c main_v50) (V c main_v54) :=
  (dat1 V c).arrAt_eq_of_cover 4 _ (fun t _ => flushed1_4 V c t) (cover1_4)

/-- What point `t` writes back into the feature output is block `t` of the rectified features. -/
theorem flushed1_3 (c : Dev nD) (t : Fin cfg1.N) :
    (dat1 V c).flushed 3 t = ((cfg1.win 3).blk t).view.read (Elt Ideal) (leakyArr (V c main_v46)) := by
  show (cfg1.win 3).cut (grid1.coords t) ((dat1 V c).after 3 t) = _
  rw [after1_3]
  unfold out1_3
  rw [View.canon_unit_zero zero_off1]
  simp only [View.ld_unit_zero (S := S5000x64) zero_off1]
  obtain ⟨-, -, -, -, -, -, e30, e31, -⟩ := idx1 t
  funext j
  obtain ⟨p, q, rfl⟩ : ∃ (p : Fin 5000) (q : Fin 64), j = ix2 p q := ⟨j 0, j 1, eq_ix2 j⟩
  have hemb : ((cfg1.win 3).blk t).view.emb (ix2 p q) = ix2 ⟨t.val * 5000 + p.val, by have := lt30_1 t; omega⟩ q := by
    funext a; apply Fin.ext
    match a with
    | ⟨0, _⟩ => show win1_3.index t (0 : Fin 2) * 5000 + 1 * p.val = t.val * 5000 + p.val; omega
    | ⟨1, _⟩ => show win1_3.index t (1 : Fin 2) * 64 + 1 * q.val = q.val; omega
  show k1_pay1 (iblk1 V c 0 t) (ix2 p q) = leakyArr (V c main_v46) (((cfg1.win 3).blk t).view.emb (ix2 p q))
  rw [hemb]
  refine (k1_pay1_apply (iblk1 V c 0 t) (ix2 p q)).trans ?_
  show leaky (iblk1 V c 0 t (ix2 p q)) = leaky _
  rw [blk1_x]

theorem mem_blk1_3 (t : Fin cfg1.N) (i : S150000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v55_0).slice (win1_3.rect t)).set ↔ _
  rw [View.set_slice_whole, Rect.mem_set_unit]
  exact Iff.rfl

theorem cover1_3 (i : S150000x64.Idx) : ∃ t : Fin cfg1.N, (cfg1.win 3).flush t = true ∧ i ∈ ((cfg1.win 3).blk t).view.set := by
  have hi0 : (i 0).val < 150000 := (i 0).isLt
  have hi1 : (i 1).val < 64 := (i 1).isLt
  refine ⟨⟨(i 0).val / 5000, by rw [show cfg1.N = 30 from N_1]; omega⟩, flush1_3 _, ?_⟩
  rw [mem_blk1_3]
  obtain ⟨-, -, -, -, -, -, e30, e31, -⟩ := idx1 ⟨(i 0).val / 5000, by rw [show cfg1.N = 30 from N_1]; omega⟩
  intro a
  match a with
  | ⟨0, _⟩ => show win1_3.index _ (0 : Fin 2) * 5000 ≤ (i 0).val ∧ (i 0).val < win1_3.index _ (0 : Fin 2) * 5000 + 5000; rw [e30]; show (i 0).val / 5000 * 5000 ≤ (i 0).val ∧ (i 0).val < (i 0).val / 5000 * 5000 + 5000; omega
  | ⟨1, _⟩ => show win1_3.index _ (1 : Fin 2) * 64 ≤ (i 1).val ∧ (i 1).val < win1_3.index _ (1 : Fin 2) * 64 + 64; rw [e31]; omega

/-- The feature output after the region: the rectified features. -/
theorem final1_3 (c : Dev nD) : (dat1 V c).arrAt 3 cfg1.N = leakyArr (V c main_v46) :=
  (dat1 V c).arrAt_eq_of_cover 3 _ (fun t _ => flushed1_3 V c t) (cover1_3)

end Cert.KernelIdeal.Bridge

end
-- ==== Proof.KIVal2.lean ====
import proofs.«125319_j22917945491468_1_alg».proof.Proof.KIData
import proofs.«125319_j22917945491468_1_alg».proof.Proof.LayerMath
import proofs.«125319_j22917945491468_1_alg».proof.Proof.Gen.KernelIdeal.Points
import Idealize.ShloMosaic.Lib.Pipeline.Value

/-!
  Layer kernel 2: what its two output arrays hold after the thirty grid points.

  Point `t` reads rows `5000·t … 5000·t + 4999` of the feature array and both whole weight matrices, and writes back
  the same rows of its outputs; the thirty row blocks tile the 150000 rows, so each output array ends as ONE function of
  the arrays the region finds: the rectified features, and the message of the rectified features.
-/

noncomputable section

namespace Cert.KernelIdeal.Bridge

open Idealize.ShloMosaic Idealize.ShloMosaic.TcCoe Idealize.ShloMosaic.ValueIdx Idealize.SL.Sem
open Cert.KernelIdeal Cert.KernelIdeal.Gen Cert.KernelIdeal.Hand Cert.Spec
open Idealize.ShloMosaic.Pipeline (Dat)

variable (V : (c : Dev nD) → (b : Ref sig .tc) → Buf (Elt Ideal) ((c : Thread nD τ).loc b))

theorem zero_off2 : (![0, 0] : Fin 2 → Nat) = fun _ => 0 := funext fun a => by fin_cases a <;> rfl

/-- The printed index maps over the grid: the feature and output windows sit at row block `t`, the weight windows
    at the one block there is. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

theorem lt30_2 (t : Fin cfg2.N) : t.val < 30 := lt_of_lt_of_eq t.isLt N_2

/-- The feature window's block at point `t`: rows `5000·t + p` of the array. -/
theorem blk2_x (c : Dev nD) (t : Fin cfg2.N) (p : Fin 5000) (k : Fin 64) :
    iblk2 V c 0 t (ix2 p k) = V c main_v68 (ix2 ⟨t.val * 5000 + p.val, by have := lt30_2 t; omega⟩ k) := by
  obtain ⟨e00, e01, -⟩ := idx2 t
  show V c main_v68 (((cfg2.win 0).blk t).view.emb (ix2 p k)) = _
  refine congrArg _ (funext fun a => Fin.ext ?_)
  match a with
  | ⟨0, _⟩ => show win2_0.index t (0 : Fin 2) * 5000 + 1 * p.val = t.val * 5000 + p.val; omega
  | ⟨1, _⟩ => show win2_0.index t (1 : Fin 2) * 64 + 1 * k.val = k.val; omega

/-- A weight window's block at any point is the whole matrix. -/
theorem blk2_w1 (c : Dev nD) (t : Fin cfg2.N) (a b : Fin 64) : iblk2 V c 1 t (ix2 a b) = V c main_v72 (ix2 a b) := by
  obtain ⟨-, -, e10, e11, -⟩ := idx2 t
  show V c main_v72 (((cfg2.win 1).blk t).view.emb (ix2 a b)) = _
  refine congrArg _ (funext fun d => Fin.ext ?_)
  match d with
  | ⟨0, _⟩ => show win2_1.index t (0 : Fin 2) * 64 + 1 * a.val = a.val; omega
  | ⟨1, _⟩ => show win2_1.index t (1 : Fin 2) * 64 + 1 * b.val = b.val; omega

theorem blk2_w2 (c : Dev nD) (t : Fin cfg2.N) (a b : Fin 64) : iblk2 V c 2 t (ix2 a b) = V c main_v76 (ix2 a b) := by
  obtain ⟨-, -, -, -, e20, e21, -⟩ := idx2 t
  show V c main_v76 (((cfg2.win 2).blk t).view.emb (ix2 a b)) = _
  refine congrArg _ (funext fun d => Fin.ext ?_)
  match d with
  | ⟨0, _⟩ => show win2_2.index t (0 : Fin 2) * 64 + 1 * a.val = a.val; omega
  | ⟨1, _⟩ => show win2_2.index t (1 : Fin 2) * 64 + 1 * b.val = b.val; omega

/-- What point `t` writes back into the message array is block `t` of the message of the arrays the region finds. -/
theorem flushed2_4 (c : Dev nD) (t : Fin cfg2.N) :
    (dat2 V c).flushed 4 t = ((cfg2.win 4).blk t).view.read (Elt Ideal)
      (msgArr (leakyArr (V c main_v68)) (V c main_v72) (V c main_v76)) := by
  show (cfg2.win 4).cut (grid2.coords t) ((dat2 V c).after 4 t) = _
  rw [after2_4]
  unfold out2_4
  rw [View.canon_unit_zero zero_off2]
  simp only [View.ld_unit_zero (S := S5000x64) zero_off2, View.ld_unit_zero (S := S64x64) zero_off2]
  obtain ⟨-, -, -, -, -, -, -, -, e40, e41⟩ := idx2 t
  funext j
  obtain ⟨p, q, rfl⟩ : ∃ (p : Fin 5000) (q : Fin 64), j = ix2 p q := ⟨j 0, j 1, eq_ix2 j⟩
  have hemb : ((cfg2.win 4).blk t).view.emb (ix2 p q) = ix2 ⟨t.val * 5000 + p.val, by have := lt30_2 t; omega⟩ q := by
    funext a; apply Fin.ext
    match a with
    | ⟨0, _⟩ => show win2_4.index t (0 : Fin 2) * 5000 + 1 * p.val = t.val * 5000 + p.val; omega
    | ⟨1, _⟩ => show win2_4.index t (1 : Fin 2) * 64 + 1 * q.val = q.val; omega
  show k2_pay2 (iblk2 V c 0 t) (iblk2 V c 1 t) (iblk2 V c 2 t) (ix2 p q)
    = msgArr (leakyArr (V c main_v68)) (V c main_v72) (V c main_v76) (((cfg2.win 4).blk t).view.emb (ix2 p q))
  rw [hemb, msgArr_ix2]
  refine (k2_pay2_apply (iblk2 V c 0 t) (iblk2 V c 1 t) (iblk2 V c 2 t) p q).trans ?_
  unfold msgAt
  refine congr (congr (congrArg msgEntry (funext fun k => ?_)) (funext fun k => ?_)) (funext fun k => ?_)
  · show leaky (iblk2 V c 0 t (ix2 p k)) = leaky _; rw [blk2_x]
  · exact blk2_w1 V c t k q
  · exact blk2_w2 V c t k q

/-- An index of the message array is in point `t`'s block iff its row is one of the block's 5000. -/
theorem mem_blk2_4 (t : Fin cfg2.N) (i : S150000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v77_1).slice (win2_4.rect t)).set ↔ _
  rw [View.set_slice_whole, Rect.mem_set_unit]
  exact Iff.rfl

/-- Every row lies in the block of the point `row / 5000`. -/
theorem cover2_4 (i : S150000x64.Idx) : ∃ t : Fin cfg2.N, (cfg2.win 4).flush t = true ∧ i ∈ ((cfg2.win 4).blk t).view.set := by
  have hi0 : (i 0).val < 150000 := (i 0).isLt
  have hi1 : (i 1).val < 64 := (i 1).isLt
  refine ⟨⟨(i 0).val / 5000, by rw [show cfg2.N = 30 from N_2]; omega⟩, flush2_4 _, ?_⟩
  rw [mem_blk2_4]
  obtain ⟨-, -, -, -, -, -, -, -, e40, e41⟩ := idx2 ⟨(i 0).val / 5000, by rw [show cfg2.N = 30 from N_2]; omega⟩
  intro a
  match a with
  | ⟨0, _⟩ => show win2_4.index _ (0 : Fin 2) * 5000 ≤ (i 0).val ∧ (i 0).val < win2_4.index _ (0 : Fin 2) * 5000 + 5000; rw [e40]; show (i 0).val / 5000 * 5000 ≤ (i 0).val ∧ (i 0).val < (i 0).val / 5000 * 5000 + 5000; omega
  | ⟨1, _⟩ => show win2_4.index _ (1 : Fin 2) * 64 ≤ (i 1).val ∧ (i 1).val < win2_4.index _ (1 : Fin 2) * 64 + 64; rw [e41]; omega

/-- The message array after the region. -/
theorem final2_4 (c : Dev nD) :
    (dat2 V c).arrAt 4 cfg2.N = msgArr (leakyArr (V c main_v68)) (V c main_v72) (V c main_v76) :=
  (dat2 V c).arrAt_eq_of_cover 4 _ (fun t _ => flushed2_4 V c t) (cover2_4)

/-- What point `t` writes back into the feature output is block `t` of the rectified features. -/
theorem flushed2_3 (c : Dev nD) (t : Fin cfg2.N) :
    (dat2 V c).flushed 3 t = ((cfg2.win 3).blk t).view.read (Elt Ideal) (leakyArr (V c main_v68)) := by
  show (cfg2.win 3).cut (grid2.coords t) ((dat2 V c).after 3 t) = _
  rw [after2_3]
  unfold out2_3
  rw [View.canon_unit_zero zero_off2]
  simp only [View.ld_unit_zero (S := S5000x64) zero_off2]
  obtain ⟨-, -, -, -, -, -, e30, e31, -⟩ := idx2 t
  funext j
  obtain ⟨p, q, rfl⟩ : ∃ (p : Fin 5000) (q : Fin 64), j = ix2 p q := ⟨j 0, j 1, eq_ix2 j⟩
  have hemb : ((cfg2.win 3).blk t).view.emb (ix2 p q) = ix2 ⟨t.val * 5000 + p.val, by have := lt30_2 t; omega⟩ q := by
    funext a; apply Fin.ext
    match a with
    | ⟨0, _⟩ => show win2_3.index t (0 : Fin 2) * 5000 + 1 * p.val = t.val * 5000 + p.val; omega
    | ⟨1, _⟩ => show win2_3.index t (1 : Fin 2) * 64 + 1 * q.val = q.val; omega
  show k2_pay1 (iblk2 V c 0 t) (ix2 p q) = leakyArr (V c main_v68) (((cfg2.win 3).blk t).view.emb (ix2 p q))
  rw [hemb]
  refine (k2_pay1_apply (iblk2 V c 0 t) (ix2 p q)).trans ?_
  show leaky (iblk2 V c 0 t (ix2 p q)) = leaky _
  rw [blk2_x]

theorem mem_blk2_3 (t : Fin cfg2.N) (i : S150000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v77_0).slice (win2_3.rect t)).set ↔ _
  rw [View.set_slice_whole, Rect.mem_set_unit]
  exact Iff.rfl

theorem cover2_3 (i : S150000x64.Idx) : ∃ t : Fin cfg2.N, (cfg2.win 3).flush t = true ∧ i ∈ ((cfg2.win 3).blk t).view.set := by
  have hi0 : (i 0).val < 150000 := (i 0).isLt
  have hi1 : (i 1).val < 64 := (i 1).isLt
  refine ⟨⟨(i 0).val / 5000, by rw [show cfg2.N = 30 from N_2]; omega⟩, flush2_3 _, ?_⟩
  rw [mem_blk2_3]
  obtain ⟨-, -, -, -, -, -, e30, e31, -⟩ := idx2 ⟨(i 0).val / 5000, by rw [show cfg2.N = 30 from N_2]; omega⟩
  intro a
  match a with
  | ⟨0, _⟩ => show win2_3.index _ (0 : Fin 2) * 5000 ≤ (i 0).val ∧ (i 0).val < win2_3.index _ (0 : Fin 2) * 5000 + 5000; rw [e30]; show (i 0).val / 5000 * 5000 ≤ (i 0).val ∧ (i 0).val < (i 0).val / 5000 * 5000 + 5000; omega
  | ⟨1, _⟩ => show win2_3.index _ (1 : Fin 2) * 64 ≤ (i 1).val ∧ (i 1).val < win2_3.index _ (1 : Fin 2) * 64 + 64; rw [e31]; omega

/-- The feature output after the region: the rectified features. -/
theorem final2_3 (c : Dev nD) : (dat2 V c).arrAt 3 cfg2.N = leakyArr (V c main_v68) :=
  (dat2 V c).arrAt_eq_of_cover 3 _ (fun t _ => flushed2_3 V c t) (cover2_3)

end Cert.KernelIdeal.Bridge

end
-- ==== Proof.KIVal3.lean ====
import proofs.«125319_j22917945491468_1_alg».proof.Proof.KIData
import proofs.«125319_j22917945491468_1_alg».proof.Proof.LayerMath
import proofs.«125319_j22917945491468_1_alg».proof.Proof.Gen.KernelIdeal.Points
import Idealize.ShloMosaic.Lib.Pipeline.Value

/-!
  The activation kernel: point `t` reads rows `5000·t … 5000·t + 4999` of the aggregated features and writes back their
  rectifier; the thirty row blocks tile the 150000 rows, so the output array ends as the rectified array.
-/

noncomputable section

namespace Cert.KernelIdeal.Bridge

open Idealize.ShloMosaic Idealize.ShloMosaic.TcCoe Idealize.ShloMosaic.ValueIdx Idealize.SL.Sem
open Cert.KernelIdeal Cert.KernelIdeal.Gen Cert.KernelIdeal.Hand Cert.Spec
open Idealize.ShloMosaic.Pipeline (Dat)

variable (V : (c : Dev nD) → (b : Ref sig .tc) → Buf (Elt Ideal) ((c : Thread nD τ).loc b))

theorem zero_off3 : (![0, 0] : Fin 2 → Nat) = fun _ => 0 := funext fun a => by fin_cases a <;> rfl

/-- Both windows sit at row block `t`. -/
theorem idx3 : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

theorem lt30_3 (t : Fin cfg3.N) : t.val < 30 := lt_of_lt_of_eq t.isLt N_3

theorem blk3_x (c : Dev nD) (t : Fin cfg3.N) (p : Fin 5000) (k : Fin 64) :
    iblk3 V c 0 t (ix2 p k) = V c main_v90 (ix2 ⟨t.val * 5000 + p.val, by have := lt30_3 t; omega⟩ k) := by
  obtain ⟨e00, e01, -⟩ := idx3 t
  show V c main_v90 (((cfg3.win 0).blk t).view.emb (ix2 p k)) = _
  refine congrArg _ (funext fun a => Fin.ext ?_)
  match a with
  | ⟨0, _⟩ => show win3_0.index t (0 : Fin 2) * 5000 + 1 * p.val = t.val * 5000 + p.val; omega
  | ⟨1, _⟩ => show win3_0.index t (1 : Fin 2) * 64 + 1 * k.val = k.val; omega

theorem flushed3_1 (c : Dev nD) (t : Fin cfg3.N) :
    (dat3 V c).flushed 1 t = ((cfg3.win 1).blk t).view.read (Elt Ideal) (leakyArr (V c main_v90)) := by
  show (cfg3.win 1).cut (grid3.coords t) ((dat3 V c).after 1 t) = _
  rw [after3_1]
  unfold out3_1
  rw [View.canon_unit_zero zero_off3]
  simp only [View.ld_unit_zero (S := S5000x64) zero_off3]
  obtain ⟨-, -, e10, e11⟩ := idx3 t
  funext j
  obtain ⟨p, q, rfl⟩ : ∃ (p : Fin 5000) (q : Fin 64), j = ix2 p q := ⟨j 0, j 1, eq_ix2 j⟩
  have hemb : ((cfg3.win 1).blk t).view.emb (ix2 p q) = ix2 ⟨t.val * 5000 + p.val, by have := lt30_3 t; omega⟩ q := by
    funext a; apply Fin.ext
    match a with
    | ⟨0, _⟩ => show win3_1.index t (0 : Fin 2) * 5000 + 1 * p.val = t.val * 5000 + p.val; omega
    | ⟨1, _⟩ => show win3_1.index t (1 : Fin 2) * 64 + 1 * q.val = q.val; omega
  show k3_pay1 (iblk3 V c 0 t) (ix2 p q) = leakyArr (V c main_v90) (((cfg3.win 1).blk t).view.emb (ix2 p q))
  rw [hemb]
  refine (k3_pay1_apply (iblk3 V c 0 t) (ix2 p q)).trans ?_
  show leaky (iblk3 V c 0 t (ix2 p q)) = leaky _
  rw [blk3_x]

theorem mem_blk3_1 (t : Fin cfg3.N) (i : S150000x64.Idx) :
    i ∈ ((cfg3.win 1).blk t).view.set ↔ ∀ a : Fin 2, win3_1.index t a * S5000x64.size a ≤ (i a).val ∧ (i a).val < win3_1.index t a * S5000x64.size a + S5000x64.size a := by
  show i ∈ ((View.whole main_v91).slice (win3_1.rect t)).set ↔ _
  rw [View.set_slice_whole, Rect.mem_set_unit]
  exact Iff.rfl

theorem cover3_1 (i : S150000x64.Idx) : ∃ t : Fin cfg3.N, (cfg3.win 1).flush t = true ∧ i ∈ ((cfg3.win 1).blk t).view.set := by
  have hi0 : (i 0).val < 150000 := (i 0).isLt
  have hi1 : (i 1).val < 64 := (i 1).isLt
  refine ⟨⟨(i 0).val / 5000, by rw [show cfg3.N = 30 from N_3]; omega⟩, flush3_1 _, ?_⟩
  rw [mem_blk3_1]
  obtain ⟨-, -, e10, e11⟩ := idx3 ⟨(i 0).val / 5000, by rw [show cfg3.N = 30 from N_3]; omega⟩
  intro a
  match a with
  | ⟨0, _⟩ => show win3_1.index _ (0 : Fin 2) * 5000 ≤ (i 0).val ∧ (i 0).val < win3_1.index _ (0 : Fin 2) * 5000 + 5000; rw [e10]; show (i 0).val / 5000 * 5000 ≤ (i 0).val ∧ (i 0).val < (i 0).val / 5000 * 5000 + 5000; omega
  | ⟨1, _⟩ => show win3_1.index _ (1 : Fin 2) * 64 ≤ (i 1).val ∧ (i 1).val < win3_1.index _ (1 : Fin 2) * 64 + 64; rw [e11]; omega

/-- The output array after the region: the rectified input array. -/
theorem final3_1 (c : Dev nD) : (dat3 V c).arrAt 1 cfg3.N = leakyArr (V c main_v90) :=
  (dat3 V c).arrAt_eq_of_cover 1 _ (fun t _ => flushed3_1 V c t) (cover3_1)

end Cert.KernelIdeal.Bridge

end
-- ==== Proof.BridgeK.lean ====
import proofs.«125319_j22917945491468_1_alg».proof.Proof.KIOuts
import proofs.«125319_j22917945491468_1_alg».proof.Proof.KIVal0
import proofs.«125319_j22917945491468_1_alg».proof.Proof.KIVal1
import proofs.«125319_j22917945491468_1_alg».proof.Proof.KIVal2
import proofs.«125319_j22917945491468_1_alg».proof.Proof.KIVal3

/-!
  What the kernel program's four regions leave, in closed form, at the buffers between its host stretches: each layer
  kernel's message output is the message array of (the rectifier of) the features it finds and its two weight operands;
  its feature output is the rectified array; the activation kernel's output is the rectified aggregated array.
-/

set_option maxHeartbeats 2000000

noncomputable section

namespace Cert.Bridge

open Idealize.ShloMosaic Idealize.ShloMosaic.TcCoe Idealize.SL.Sem Cert.Spec

variable (m : (ℓ : Loc Cert.KernelIdeal.nD Cert.KernelIdeal.τ Cert.KernelIdeal.sig) → Buf (Elt Ideal) ℓ) (c : Dev Cert.KernelIdeal.nD)

/-- What the kernel program's regions leave. -/
abbrev o := Cert.KernelIdeal.Hand.outs (F := Ideal) m

/-- Layer 0's message array. -/
theorem k_msg0 : (Cert.KernelIdeal.Gen.V4 m (o m) c) (Proc.devRef .tc Cert.KernelIdeal.main_v33_1) = msgArr ((Cert.KernelIdeal.Gen.V3 m c) (Proc.devRef .tc Cert.KernelIdeal.main_arg0)) ((Cert.KernelIdeal.Gen.V3 m c) (Proc.devRef .tc Cert.KernelIdeal.main_v28)) ((Cert.KernelIdeal.Gen.V3 m c) (Proc.devRef .tc Cert.KernelIdeal.main_v32)) :=
  (Cert.KernelIdeal.Hand.V4_at_main_v33_1 m (o m) c).trans ((Cert.KernelIdeal.Hand.outs_msg0 m c).trans
    (Cert.KernelIdeal.Bridge.final0_4 (fun c b => Cert.KernelIdeal.Gen.V3 m c b) c))

/-- The features after layer 0: the rectified aggregation. -/
theorem k_x1 : (Cert.KernelIdeal.Gen.V6 m (o m) c) (Proc.devRef .tc Cert.KernelIdeal.main_v55_0) = leakyArr ((Cert.KernelIdeal.Gen.V5 m (o m) c) (Proc.devRef .tc Cert.KernelIdeal.main_v46)) :=
  (Cert.KernelIdeal.Hand.V6_at_main_v55_0 m (o m) c).trans ((Cert.KernelIdeal.Hand.outs_x1 m c).trans
    (Cert.KernelIdeal.Bridge.final1_3 (fun c b => Cert.KernelIdeal.Gen.V5 m (o m) c b) c))

/-- Layer 1's message array. -/
theorem k_msg1 : (Cert.KernelIdeal.Gen.V6 m (o m) c) (Proc.devRef .tc Cert.KernelIdeal.main_v55_1) = msgArr (leakyArr ((Cert.KernelIdeal.Gen.V5 m (o m) c) (Proc.devRef .tc Cert.KernelIdeal.main_v46))) ((Cert.KernelIdeal.Gen.V5 m (o m) c) (Proc.devRef .tc Cert.KernelIdeal.main_v50)) ((Cert.KernelIdeal.Gen.V5 m (o m) c) (Proc.devRef .tc Cert.KernelIdeal.main_v54)) :=
  (Cert.KernelIdeal.Hand.V6_at_main_v55_1 m (o m) c).trans ((Cert.KernelIdeal.Hand.outs_msg1 m c).trans
    (Cert.KernelIdeal.Bridge.final1_4 (fun c b => Cert.KernelIdeal.Gen.V5 m (o m) c b) c))

/-- The features after layer 1. -/
theorem k_x2 : (Cert.KernelIdeal.Gen.V8 m (o m) c) (Proc.devRef .tc Cert.KernelIdeal.main_v77_0) = leakyArr ((Cert.KernelIdeal.Gen.V7 m (o m) c) (Proc.devRef .tc Cert.KernelIdeal.main_v68)) :=
  (Cert.KernelIdeal.Hand.V8_at_main_v77_0 m (o m) c).trans ((Cert.KernelIdeal.Hand.outs_x2 m c).trans
    (Cert.KernelIdeal.Bridge.final2_3 (fun c b => Cert.KernelIdeal.Gen.V7 m (o m) c b) c))

/-- Layer 2's message array. -/
theorem k_msg2 : (Cert.KernelIdeal.Gen.V8 m (o m) c) (Proc.devRef .tc Cert.KernelIdeal.main_v77_1) = msgArr (leakyArr ((Cert.KernelIdeal.Gen.V7 m (o m) c) (Proc.devRef .tc Cert.KernelIdeal.main_v68))) ((Cert.KernelIdeal.Gen.V7 m (o m) c) (Proc.devRef .tc Cert.KernelIdeal.main_v72)) ((Cert.KernelIdeal.Gen.V7 m (o m) c) (Proc.devRef .tc Cert.KernelIdeal.main_v76)) :=
  (Cert.KernelIdeal.Hand.V8_at_main_v77_1 m (o m) c).trans ((Cert.KernelIdeal.Hand.outs_msg2 m c).trans
    (Cert.KernelIdeal.Bridge.final2_4 (fun c b => Cert.KernelIdeal.Gen.V7 m (o m) c b) c))

/-- The features after layer 2. -/
theorem k_x3 : (Cert.KernelIdeal.Gen.V10 m (o m) c) (Proc.devRef .tc Cert.KernelIdeal.main_v91) = leakyArr ((Cert.KernelIdeal.Gen.V9 m (o m) c) (Proc.devRef .tc Cert.KernelIdeal.main_v90)) :=
  (Cert.KernelIdeal.Hand.V10_at_main_v91 m (o m) c).trans ((Cert.KernelIdeal.Hand.outs_x3 m c).trans
    (Cert.KernelIdeal.Bridge.final3_1 (fun c b => Cert.KernelIdeal.Gen.V9 m (o m) c b) c))

end Cert.Bridge

end
-- ==== Proof.Bridge.lean ====
import proofs.«125319_j22917945491468_1_alg».proof.Proof.BridgeSimW
import proofs.«125319_j22917945491468_1_alg».proof.Proof.BridgeSimM
import proofs.«125319_j22917945491468_1_alg».proof.Proof.BridgeSimA
import proofs.«125319_j22917945491468_1_alg».proof.Proof.BridgeSimF
import proofs.«125319_j22917945491468_1_alg».proof.Proof.BridgeK
import proofs.«125319_j22917945491468_1_alg».proof.Proof.RefFrame

/-!
  The two programs end with the same scores.

  Stage by stage, from memories that agree on the six arguments: the edge weights agree; layer 0's message in the reference
  (two `dot_general`s) is the message array the first layer kernel leaves; the aggregations agree; the reference's rectifier
  of the aggregated array is what the next layer kernel stores as its feature output, and that kernel's message is the
  reference's message of the rectified array; so on through the three layers; the activation kernel's output is the
  reference's last rectified array; and the scores are the same operations of the four feature arrays and the scored pairs.
-/

set_option maxHeartbeats 2000000

noncomputable section

namespace Cert.Bridge

open Idealize.ShloMosaic Idealize.ShloMosaic.TcCoe Idealize.ShloMosaic.StableHlo Idealize.SL.Sem Cert.Spec

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The reference's buffers at launch and after each stage. -/
abbrev U0 : RVal := launchContents m' c
abbrev Ua : RVal := after (Cert.ReferenceIdeal.Hand.ops_a (F := Ideal)) (U0 m' c)
abbrev Ub : RVal := after (Cert.ReferenceIdeal.Hand.ops_b (F := Ideal)) (Ua m' c)
abbrev Uc1 : RVal := after (Cert.ReferenceIdeal.Hand.ops_c1 (F := Ideal)) (Ub m' c)
abbrev Uc2 : RVal := after (Cert.ReferenceIdeal.Hand.ops_c2 (F := Ideal)) (Uc1 m' c)
abbrev Uc3 : RVal := after (Cert.ReferenceIdeal.Hand.ops_c3 (F := Ideal)) (Uc2 m' c)
abbrev Ud1 : RVal := after (Cert.ReferenceIdeal.Hand.ops_d1 (F := Ideal)) (Uc3 m' c)
abbrev Ud2 : RVal := after (Cert.ReferenceIdeal.Hand.ops_d2 (F := Ideal)) (Ud1 m' c)
abbrev Ud3 : RVal := after (Cert.ReferenceIdeal.Hand.ops_d3 (F := Ideal)) (Ud2 m' c)
abbrev Ue1 : RVal := after (Cert.ReferenceIdeal.Hand.ops_e1 (F := Ideal)) (Ud3 m' c)
abbrev Ue2 : RVal := after (Cert.ReferenceIdeal.Hand.ops_e2 (F := Ideal)) (Ue1 m' c)
abbrev Ue3 : RVal := after (Cert.ReferenceIdeal.Hand.ops_e3 (F := Ideal)) (Ue2 m' c)

variable (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
variable (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
variable (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
variable (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
variable (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
variable (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))

include h3 h4 in
/-- The edge weights agree. -/
theorem w_eq : (Ub m' c) (Proc.devRef .tc Cert.ReferenceIdeal.main_v24) = (Cert.KernelIdeal.Gen.V3 m c) (Proc.devRef .tc Cert.KernelIdeal.main_v24) :=
  w_sim (U0 m' c) (Cert.KernelIdeal.Gen.V0 m c) h3 h4

include h0 h1 h2 in
/-- Layer 0's messages agree. -/
theorem msg0_eq : (Uc1 m' c) (Proc.devRef .tc Cert.ReferenceIdeal.main_v34) = (Cert.KernelIdeal.Gen.V4 m (o m) c) (Proc.devRef .tc Cert.KernelIdeal.main_v33_1) := by
  refine (msg0_sim (Ub m' c) (Cert.KernelIdeal.Gen.V2 m c) ((((Cert.ReferenceIdeal.Hand.after_b_of _ Cert.ReferenceIdeal.main_arg1 (by decide)).trans (Cert.ReferenceIdeal.Hand.after_a_of _ Cert.ReferenceIdeal.main_arg1 (by decide))).trans h1).trans ((Cert.KernelIdeal.Gen.V2_of m c Cert.KernelIdeal.main_arg1 (by decide)).trans (Cert.KernelIdeal.Gen.V1_of m c Cert.KernelIdeal.main_arg1 (by decide))).symm) ((((Cert.ReferenceIdeal.Hand.after_b_of _ Cert.ReferenceIdeal.main_arg2 (by decide)).trans (Cert.ReferenceIdeal.Hand.after_a_of _ Cert.ReferenceIdeal.main_arg2 (by decide))).trans h2).trans ((Cert.KernelIdeal.Gen.V2_of m c Cert.KernelIdeal.main_arg2 (by decide)).trans (Cert.KernelIdeal.Gen.V1_of m c Cert.KernelIdeal.main_arg2 (by decide))).symm)).trans ?_
  refine Eq.trans ?_ (k_msg0 m c).symm
  exact congrArg (fun x => msgArr x _ _) ((((Cert.ReferenceIdeal.Hand.after_b_of _ Cert.ReferenceIdeal.main_arg0 (by decide)).trans (Cert.ReferenceIdeal.Hand.after_a_of _ Cert.ReferenceIdeal.main_arg0 (by decide))).trans h0).trans ((Cert.KernelIdeal.Gen.V3_of m c Cert.KernelIdeal.main_arg0 (by decide)).trans ((Cert.KernelIdeal.Gen.V2_of m c Cert.KernelIdeal.main_arg0 (by decide)).trans (Cert.KernelIdeal.Gen.V1_of m c Cert.KernelIdeal.main_arg0 (by decide)))).symm)

include h0 h1 h2 h3 h4 in
/-- Layer 0's aggregations agree. -/
theorem agg0_eq : (Uc2 m' c) (Proc.devRef .tc Cert.ReferenceIdeal.main_v47) = (Cert.KernelIdeal.Gen.V5 m (o m) c) (Proc.devRef .tc Cert.KernelIdeal.main_v46) :=
  agg0_sim (Uc1 m' c) (Cert.KernelIdeal.Gen.V4 m (o m) c)
    (((Cert.ReferenceIdeal.Hand.after_c1_of _ Cert.ReferenceIdeal.main_v24 (by decide)).trans (w_eq m m' c h3 h4)).trans (Cert.KernelIdeal.Gen.V4_of m (o m) c Cert.KernelIdeal.main_v24 (by decide)).symm)
    (msg0_eq m m' c h0 h1 h2) ((((Cert.ReferenceIdeal.Hand.after_c1_of _ Cert.ReferenceIdeal.main_arg3 (by decide)).trans ((Cert.ReferenceIdeal.Hand.after_b_of _ Cert.ReferenceIdeal.main_arg3 (by decide)).trans (Cert.ReferenceIdeal.Hand.after_a_of _ Cert.ReferenceIdeal.main_arg3 (by decide)))).trans h3).trans ((Cert.KernelIdeal.Gen.V4_of m (o m) c Cert.KernelIdeal.main_arg3 (by decide)).trans ((Cert.KernelIdeal.Gen.V3_of m c Cert.KernelIdeal.main_arg3 (by decide)).trans ((Cert.KernelIdeal.Gen.V2_of m c Cert.KernelIdeal.main_arg3 (by decide)).trans (Cert.KernelIdeal.Gen.V1_of m c Cert.KernelIdeal.main_arg3 (by decide))))).symm) ((((Cert.ReferenceIdeal.Hand.after_c1_of _ Cert.ReferenceIdeal.main_arg4 (by decide)).trans ((Cert.ReferenceIdeal.Hand.after_b_of _ Cert.ReferenceIdeal.main_arg4 (by decide)).trans (Cert.ReferenceIdeal.Hand.after_a_of _ Cert.ReferenceIdeal.main_arg4 (by decide)))).trans h4).trans ((Cert.KernelIdeal.Gen.V4_of m (o m) c Cert.KernelIdeal.main_arg4 (by decide)).trans ((Cert.KernelIdeal.Gen.V3_of m c Cert.KernelIdeal.main_arg4 (by decide)).trans ((Cert.KernelIdeal.Gen.V2_of m c Cert.KernelIdeal.main_arg4 (by decide)).trans (Cert.KernelIdeal.Gen.V1_of m c Cert.KernelIdeal.main_arg4 (by decide))))).symm)

include h0 h1 h2 h3 h4 in
/-- The features after layer 0 agree. -/
theorem x1_eq : (Uc3 m' c) (Proc.devRef .tc Cert.ReferenceIdeal.main_v48) = (Cert.KernelIdeal.Gen.V6 m (o m) c) (Proc.devRef .tc Cert.KernelIdeal.main_v55_0) :=
  (leaky0_sim (Uc2 m' c)).trans ((congrArg leakyArr (agg0_eq m m' c h0 h1 h2 h3 h4)).trans (k_x1 m c).symm)

include h0 h1 h2 h3 h4 in
/-- Layer 1's messages agree. -/
theorem msg1_eq : (Ud1 m' c) (Proc.devRef .tc Cert.ReferenceIdeal.main_v58) = (Cert.KernelIdeal.Gen.V6 m (o m) c) (Proc.devRef .tc Cert.KernelIdeal.main_v55_1) := by
  refine (msg1_sim (Uc3 m' c) (Cert.KernelIdeal.Gen.V4 m (o m) c) ((((Cert.ReferenceIdeal.Hand.after_c3_of _ Cert.ReferenceIdeal.main_arg1 (by decide)).trans ((Cert.ReferenceIdeal.Hand.after_c2_of _ Cert.ReferenceIdeal.main_arg1 (by decide)).trans ((Cert.ReferenceIdeal.Hand.after_c1_of _ Cert.ReferenceIdeal.main_arg1 (by decide)).trans ((Cert.ReferenceIdeal.Hand.after_b_of _ Cert.ReferenceIdeal.main_arg1 (by decide)).trans (Cert.ReferenceIdeal.Hand.after_a_of _ Cert.ReferenceIdeal.main_arg1 (by decide)))))).trans h1).trans ((Cert.KernelIdeal.Gen.V4_of m (o m) c Cert.KernelIdeal.main_arg1 (by decide)).trans ((Cert.KernelIdeal.Gen.V3_of m c Cert.KernelIdeal.main_arg1 (by decide)).trans ((Cert.KernelIdeal.Gen.V2_of m c Cert.KernelIdeal.main_arg1 (by decide)).trans (Cert.KernelIdeal.Gen.V1_of m c Cert.KernelIdeal.main_arg1 (by decide))))).symm) ((((Cert.ReferenceIdeal.Hand.after_c3_of _ Cert.ReferenceIdeal.main_arg2 (by decide)).trans ((Cert.ReferenceIdeal.Hand.after_c2_of _ Cert.ReferenceIdeal.main_arg2 (by decide)).trans ((Cert.ReferenceIdeal.Hand.after_c1_of _ Cert.ReferenceIdeal.main_arg2 (by decide)).trans ((Cert.ReferenceIdeal.Hand.after_b_of _ Cert.ReferenceIdeal.main_arg2 (by decide)).trans (Cert.ReferenceIdeal.Hand.after_a_of _ Cert.ReferenceIdeal.main_arg2 (by decide)))))).trans h2).trans ((Cert.KernelIdeal.Gen.V4_of m (o m) c Cert.KernelIdeal.main_arg2 (by decide)).trans ((Cert.KernelIdeal.Gen.V3_of m c Cert.KernelIdeal.main_arg2 (by decide)).trans ((Cert.KernelIdeal.Gen.V2_of m c Cert.KernelIdeal.main_arg2 (by decide)).trans (Cert.KernelIdeal.Gen.V1_of m c Cert.KernelIdeal.main_arg2 (by decide))))).symm)).trans ?_
  refine Eq.trans ?_ (k_msg1 m c).symm
  exact congrArg (fun x => msgArr x _ _) ((leaky0_sim (Uc2 m' c)).trans (congrArg leakyArr (agg0_eq m m' c h0 h1 h2 h3 h4)))

include h0 h1 h2 h3 h4 in
/-- Layer 1's aggregations agree. -/
theorem agg1_eq : (Ud2 m' c) (Proc.devRef .tc Cert.ReferenceIdeal.main_v71) = (Cert.KernelIdeal.Gen.V7 m (o m) c) (Proc.devRef .tc Cert.KernelIdeal.main_v68) :=
  agg1_sim (Ud1 m' c) (Cert.KernelIdeal.Gen.V6 m (o m) c)
    ((((Cert.ReferenceIdeal.Hand.after_d1_of _ Cert.ReferenceIdeal.main_v24 (by decide)).trans ((Cert.ReferenceIdeal.Hand.after_c3_of _ Cert.ReferenceIdeal.main_v24 (by decide)).trans ((Cert.ReferenceIdeal.Hand.after_c2_of _ Cert.ReferenceIdeal.main_v24 (by decide)).trans (Cert.ReferenceIdeal.Hand.after_c1_of _ Cert.ReferenceIdeal.main_v24 (by decide))))).trans (w_eq m m' c h3 h4)).trans ((Cert.KernelIdeal.Gen.V6_of m (o m) c Cert.KernelIdeal.main_v24 (by decide)).trans ((Cert.KernelIdeal.Gen.V5_of m (o m) c Cert.KernelIdeal.main_v24 (by decide)).trans (Cert.KernelIdeal.Gen.V4_of m (o m) c Cert.KernelIdeal.main_v24 (by decide)))).symm)
    (msg1_eq m m' c h0 h1 h2 h3 h4) ((((Cert.ReferenceIdeal.Hand.after_d1_of _ Cert.ReferenceIdeal.main_arg3 (by decide)).trans ((Cert.ReferenceIdeal.Hand.after_c3_of _ Cert.ReferenceIdeal.main_arg3 (by decide)).trans ((Cert.ReferenceIdeal.Hand.after_c2_of _ Cert.ReferenceIdeal.main_arg3 (by decide)).trans ((Cert.ReferenceIdeal.Hand.after_c1_of _ Cert.ReferenceIdeal.main_arg3 (by decide)).trans ((Cert.ReferenceIdeal.Hand.after_b_of _ Cert.ReferenceIdeal.main_arg3 (by decide)).trans (Cert.ReferenceIdeal.Hand.after_a_of _ Cert.ReferenceIdeal.main_arg3 (by decide))))))).trans h3).trans ((Cert.KernelIdeal.Gen.V6_of m (o m) c Cert.KernelIdeal.main_arg3 (by decide)).trans ((Cert.KernelIdeal.Gen.V5_of m (o m) c Cert.KernelIdeal.main_arg3 (by decide)).trans ((Cert.KernelIdeal.Gen.V4_of m (o m) c Cert.KernelIdeal.main_arg3 (by decide)).trans ((Cert.KernelIdeal.Gen.V3_of m c Cert.KernelIdeal.main_arg3 (by decide)).trans ((Cert.KernelIdeal.Gen.V2_of m c Cert.KernelIdeal.main_arg3 (by decide)).trans (Cert.KernelIdeal.Gen.V1_of m c Cert.KernelIdeal.main_arg3 (by decide))))))).symm) ((((Cert.ReferenceIdeal.Hand.after_d1_of _ Cert.ReferenceIdeal.main_arg4 (by decide)).trans ((Cert.ReferenceIdeal.Hand.after_c3_of _ Cert.ReferenceIdeal.main_arg4 (by decide)).trans ((Cert.ReferenceIdeal.Hand.after_c2_of _ Cert.ReferenceIdeal.main_arg4 (by decide)).trans ((Cert.ReferenceIdeal.Hand.after_c1_of _ Cert.ReferenceIdeal.main_arg4 (by decide)).trans ((Cert.ReferenceIdeal.Hand.after_b_of _ Cert.ReferenceIdeal.main_arg4 (by decide)).trans (Cert.ReferenceIdeal.Hand.after_a_of _ Cert.ReferenceIdeal.main_arg4 (by decide))))))).trans h4).trans ((Cert.KernelIdeal.Gen.V6_of m (o m) c Cert.KernelIdeal.main_arg4 (by decide)).trans ((Cert.KernelIdeal.Gen.V5_of m (o m) c Cert.KernelIdeal.main_arg4 (by decide)).trans ((Cert.KernelIdeal.Gen.V4_of m (o m) c Cert.KernelIdeal.main_arg4 (by decide)).trans ((Cert.KernelIdeal.Gen.V3_of m c Cert.KernelIdeal.main_arg4 (by decide)).trans ((Cert.KernelIdeal.Gen.V2_of m c Cert.KernelIdeal.main_arg4 (by decide)).trans (Cert.KernelIdeal.Gen.V1_of m c Cert.KernelIdeal.main_arg4 (by decide))))))).symm)

include h0 h1 h2 h3 h4 in
/-- The features after layer 1 agree. -/
theorem x2_eq : (Ud3 m' c) (Proc.devRef .tc Cert.ReferenceIdeal.main_v72) = (Cert.KernelIdeal.Gen.V8 m (o m) c) (Proc.devRef .tc Cert.KernelIdeal.main_v77_0) :=
  (leaky1_sim (Ud2 m' c)).trans ((congrArg leakyArr (agg1_eq m m' c h0 h1 h2 h3 h4)).trans (k_x2 m c).symm)

include h0 h1 h2 h3 h4 in
/-- Layer 2's messages agree. -/
theorem msg2_eq : (Ue1 m' c) (Proc.devRef .tc Cert.ReferenceIdeal.main_v82) = (Cert.KernelIdeal.Gen.V8 m (o m) c) (Proc.devRef .tc Cert.KernelIdeal.main_v77_1) := by
  refine (msg2_sim (Ud3 m' c) (Cert.KernelIdeal.Gen.V6 m (o m) c) ((((Cert.ReferenceIdeal.Hand.after_d3_of _ Cert.ReferenceIdeal.main_arg1 (by decide)).trans ((Cert.ReferenceIdeal.Hand.after_d2_of _ Cert.ReferenceIdeal.main_arg1 (by decide)).trans ((Cert.ReferenceIdeal.Hand.after_d1_of _ Cert.ReferenceIdeal.main_arg1 (by decide)).trans ((Cert.ReferenceIdeal.Hand.after_c3_of _ Cert.ReferenceIdeal.main_arg1 (by decide)).trans ((Cert.ReferenceIdeal.Hand.after_c2_of _ Cert.ReferenceIdeal.main_arg1 (by decide)).trans ((Cert.ReferenceIdeal.Hand.after_c1_of _ Cert.ReferenceIdeal.main_arg1 (by decide)).trans ((Cert.ReferenceIdeal.Hand.after_b_of _ Cert.ReferenceIdeal.main_arg1 (by decide)).trans (Cert.ReferenceIdeal.Hand.after_a_of _ Cert.ReferenceIdeal.main_arg1 (by decide))))))))).trans h1).trans ((Cert.KernelIdeal.Gen.V6_of m (o m) c Cert.KernelIdeal.main_arg1 (by decide)).trans ((Cert.KernelIdeal.Gen.V5_of m (o m) c Cert.KernelIdeal.main_arg1 (by decide)).trans ((Cert.KernelIdeal.Gen.V4_of m (o m) c Cert.KernelIdeal.main_arg1 (by decide)).trans ((Cert.KernelIdeal.Gen.V3_of m c Cert.KernelIdeal.main_arg1 (by decide)).trans ((Cert.KernelIdeal.Gen.V2_of m c Cert.KernelIdeal.main_arg1 (by decide)).trans (Cert.KernelIdeal.Gen.V1_of m c Cert.KernelIdeal.main_arg1 (by decide))))))).symm) ((((Cert.ReferenceIdeal.Hand.after_d3_of _ Cert.ReferenceIdeal.main_arg2 (by decide)).trans ((Cert.ReferenceIdeal.Hand.after_d2_of _ Cert.ReferenceIdeal.main_arg2 (by decide)).trans ((Cert.ReferenceIdeal.Hand.after_d1_of _ Cert.ReferenceIdeal.main_arg2 (by decide)).trans ((Cert.ReferenceIdeal.Hand.after_c3_of _ Cert.ReferenceIdeal.main_arg2 (by decide)).trans ((Cert.ReferenceIdeal.Hand.after_c2_of _ Cert.ReferenceIdeal.main_arg2 (by decide)).trans ((Cert.ReferenceIdeal.Hand.after_c1_of _ Cert.ReferenceIdeal.main_arg2 (by decide)).trans ((Cert.ReferenceIdeal.Hand.after_b_of _ Cert.ReferenceIdeal.main_arg2 (by decide)).trans (Cert.ReferenceIdeal.Hand.after_a_of _ Cert.ReferenceIdeal.main_arg2 (by decide))))))))).trans h2).trans ((Cert.KernelIdeal.Gen.V6_of m (o m) c Cert.KernelIdeal.main_arg2 (by decide)).trans ((Cert.KernelIdeal.Gen.V5_of m (o m) c Cert.KernelIdeal.main_arg2 (by decide)).trans ((Cert.KernelIdeal.Gen.V4_of m (o m) c Cert.KernelIdeal.main_arg2 (by decide)).trans ((Cert.KernelIdeal.Gen.V3_of m c Cert.KernelIdeal.main_arg2 (by decide)).trans ((Cert.KernelIdeal.Gen.V2_of m c Cert.KernelIdeal.main_arg2 (by decide)).trans (Cert.KernelIdeal.Gen.V1_of m c Cert.KernelIdeal.main_arg2 (by decide))))))).symm)).trans ?_
  refine Eq.trans ?_ (k_msg2 m c).symm
  exact congrArg (fun x => msgArr x _ _) ((leaky1_sim (Ud2 m' c)).trans (congrArg leakyArr (agg1_eq m m' c h0 h1 h2 h3 h4)))

include h0 h1 h2 h3 h4 in
/-- Layer 2's aggregations agree. -/
theorem agg2_eq : (Ue2 m' c) (Proc.devRef .tc Cert.ReferenceIdeal.main_v95) = (Cert.KernelIdeal.Gen.V9 m (o m) c) (Proc.devRef .tc Cert.KernelIdeal.main_v90) :=
  agg2_sim (Ue1 m' c) (Cert.KernelIdeal.Gen.V8 m (o m) c)
    ((((Cert.ReferenceIdeal.Hand.after_e1_of _ Cert.ReferenceIdeal.main_v24 (by decide)).trans ((Cert.ReferenceIdeal.Hand.after_d3_of _ Cert.ReferenceIdeal.main_v24 (by decide)).trans ((Cert.ReferenceIdeal.Hand.after_d2_of _ Cert.ReferenceIdeal.main_v24 (by decide)).trans ((Cert.ReferenceIdeal.Hand.after_d1_of _ Cert.ReferenceIdeal.main_v24 (by decide)).trans ((Cert.ReferenceIdeal.Hand.after_c3_of _ Cert.ReferenceIdeal.main_v24 (by decide)).trans ((Cert.ReferenceIdeal.Hand.after_c2_of _ Cert.ReferenceIdeal.main_v24 (by decide)).trans (Cert.ReferenceIdeal.Hand.after_c1_of _ Cert.ReferenceIdeal.main_v24 (by decide)))))))).trans (w_eq m m' c h3 h4)).trans ((Cert.KernelIdeal.Gen.V8_of m (o m) c Cert.KernelIdeal.main_v24 (by decide)).trans ((Cert.KernelIdeal.Gen.V7_of m (o m) c Cert.KernelIdeal.main_v24 (by decide)).trans ((Cert.KernelIdeal.Gen.V6_of m (o m) c Cert.KernelIdeal.main_v24 (by decide)).trans ((Cert.KernelIdeal.Gen.V5_of m (o m) c Cert.KernelIdeal.main_v24 (by decide)).trans (Cert.KernelIdeal.Gen.V4_of m (o m) c Cert.KernelIdeal.main_v24 (by decide)))))).symm)
    (msg2_eq m m' c h0 h1 h2 h3 h4) ((((Cert.ReferenceIdeal.Hand.after_e1_of _ Cert.ReferenceIdeal.main_arg3 (by decide)).trans ((Cert.ReferenceIdeal.Hand.after_d3_of _ Cert.ReferenceIdeal.main_arg3 (by decide)).trans ((Cert.ReferenceIdeal.Hand.after_d2_of _ Cert.ReferenceIdeal.main_arg3 (by decide)).trans ((Cert.ReferenceIdeal.Hand.after_d1_of _ Cert.ReferenceIdeal.main_arg3 (by decide)).trans ((Cert.ReferenceIdeal.Hand.after_c3_of _ Cert.ReferenceIdeal.main_arg3 (by decide)).trans ((Cert.ReferenceIdeal.Hand.after_c2_of _ Cert.ReferenceIdeal.main_arg3 (by decide)).trans ((Cert.ReferenceIdeal.Hand.after_c1_of _ Cert.ReferenceIdeal.main_arg3 (by decide)).trans ((Cert.ReferenceIdeal.Hand.after_b_of _ Cert.ReferenceIdeal.main_arg3 (by decide)).trans (Cert.ReferenceIdeal.Hand.after_a_of _ Cert.ReferenceIdeal.main_arg3 (by decide)))))))))).trans h3).trans ((Cert.KernelIdeal.Gen.V8_of m (o m) c Cert.KernelIdeal.main_arg3 (by decide)).trans ((Cert.KernelIdeal.Gen.V7_of m (o m) c Cert.KernelIdeal.main_arg3 (by decide)).trans ((Cert.KernelIdeal.Gen.V6_of m (o m) c Cert.KernelIdeal.main_arg3 (by decide)).trans ((Cert.KernelIdeal.Gen.V5_of m (o m) c Cert.KernelIdeal.main_arg3 (by decide)).trans ((Cert.KernelIdeal.Gen.V4_of m (o m) c Cert.KernelIdeal.main_arg3 (by decide)).trans ((Cert.KernelIdeal.Gen.V3_of m c Cert.KernelIdeal.main_arg3 (by decide)).trans ((Cert.KernelIdeal.Gen.V2_of m c Cert.KernelIdeal.main_arg3 (by decide)).trans (Cert.KernelIdeal.Gen.V1_of m c Cert.KernelIdeal.main_arg3 (by decide))))))))).symm) ((((Cert.ReferenceIdeal.Hand.after_e1_of _ Cert.ReferenceIdeal.main_arg4 (by decide)).trans ((Cert.ReferenceIdeal.Hand.after_d3_of _ Cert.ReferenceIdeal.main_arg4 (by decide)).trans ((Cert.ReferenceIdeal.Hand.after_d2_of _ Cert.ReferenceIdeal.main_arg4 (by decide)).trans ((Cert.ReferenceIdeal.Hand.after_d1_of _ Cert.ReferenceIdeal.main_arg4 (by decide)).trans ((Cert.ReferenceIdeal.Hand.after_c3_of _ Cert.ReferenceIdeal.main_arg4 (by decide)).trans ((Cert.ReferenceIdeal.Hand.after_c2_of _ Cert.ReferenceIdeal.main_arg4 (by decide)).trans ((Cert.ReferenceIdeal.Hand.after_c1_of _ Cert.ReferenceIdeal.main_arg4 (by decide)).trans ((Cert.ReferenceIdeal.Hand.after_b_of _ Cert.ReferenceIdeal.main_arg4 (by decide)).trans (Cert.ReferenceIdeal.Hand.after_a_of _ Cert.ReferenceIdeal.main_arg4 (by decide)))))))))).trans h4).trans ((Cert.KernelIdeal.Gen.V8_of m (o m) c Cert.KernelIdeal.main_arg4 (by decide)).trans ((Cert.KernelIdeal.Gen.V7_of m (o m) c Cert.KernelIdeal.main_arg4 (by decide)).trans ((Cert.KernelIdeal.Gen.V6_of m (o m) c Cert.KernelIdeal.main_arg4 (by decide)).trans ((Cert.KernelIdeal.Gen.V5_of m (o m) c Cert.KernelIdeal.main_arg4 (by decide)).trans ((Cert.KernelIdeal.Gen.V4_of m (o m) c Cert.KernelIdeal.main_arg4 (by decide)).trans ((Cert.KernelIdeal.Gen.V3_of m c Cert.KernelIdeal.main_arg4 (by decide)).trans ((Cert.KernelIdeal.Gen.V2_of m c Cert.KernelIdeal.main_arg4 (by decide)).trans (Cert.KernelIdeal.Gen.V1_of m c Cert.KernelIdeal.main_arg4 (by decide))))))))).symm)

include h0 h1 h2 h3 h4 in
/-- The features after layer 2 agree. -/
theorem x3_eq : (Ue3 m' c) (Proc.devRef .tc Cert.ReferenceIdeal.main_v96) = (Cert.KernelIdeal.Gen.V10 m (o m) c) (Proc.devRef .tc Cert.KernelIdeal.main_v91) :=
  (leaky2_sim (Ue2 m' c)).trans ((congrArg leakyArr (agg2_eq m m' c h0 h1 h2 h3 h4)).trans (k_x3 m c).symm)

include h0 h1 h2 h3 h4 h5 in
/-- The scores agree: the reference's result buffer after its whole line is the kernel program's after its last stretch. -/
theorem result_eq :
    after (Cert.ReferenceIdeal.Hand.ops (F := Ideal)) (launchContents m' c) (Proc.devRef .tc Cert.ReferenceIdeal.main_v117) = (Cert.KernelIdeal.Gen.V11 m (o m) c) (Proc.devRef .tc Cert.KernelIdeal.main_v112) := by
  rw [Cert.ReferenceIdeal.Hand.after_ops]
  exact final_sim (Ue3 m' c) (Cert.KernelIdeal.Gen.V10 m (o m) c) ((((Cert.ReferenceIdeal.Hand.after_e3_of _ Cert.ReferenceIdeal.main_arg0 (by decide)).trans ((Cert.ReferenceIdeal.Hand.after_e2_of _ Cert.ReferenceIdeal.main_arg0 (by decide)).trans ((Cert.ReferenceIdeal.Hand.after_e1_of _ Cert.ReferenceIdeal.main_arg0 (by decide)).trans ((Cert.ReferenceIdeal.Hand.after_d3_of _ Cert.ReferenceIdeal.main_arg0 (by decide)).trans ((Cert.ReferenceIdeal.Hand.after_d2_of _ Cert.ReferenceIdeal.main_arg0 (by decide)).trans ((Cert.ReferenceIdeal.Hand.after_d1_of _ Cert.ReferenceIdeal.main_arg0 (by decide)).trans ((Cert.ReferenceIdeal.Hand.after_c3_of _ Cert.ReferenceIdeal.main_arg0 (by decide)).trans ((Cert.ReferenceIdeal.Hand.after_c2_of _ Cert.ReferenceIdeal.main_arg0 (by decide)).trans ((Cert.ReferenceIdeal.Hand.after_c1_of _ Cert.ReferenceIdeal.main_arg0 (by decide)).trans ((Cert.ReferenceIdeal.Hand.after_b_of _ Cert.ReferenceIdeal.main_arg0 (by decide)).trans (Cert.ReferenceIdeal.Hand.after_a_of _ Cert.ReferenceIdeal.main_arg0 (by decide)))))))))))).trans h0).trans ((Cert.KernelIdeal.Gen.V10_of m (o m) c Cert.KernelIdeal.main_arg0 (by decide)).trans ((Cert.KernelIdeal.Gen.V9_of m (o m) c Cert.KernelIdeal.main_arg0 (by decide)).trans ((Cert.KernelIdeal.Gen.V8_of m (o m) c Cert.KernelIdeal.main_arg0 (by decide)).trans ((Cert.KernelIdeal.Gen.V7_of m (o m) c Cert.KernelIdeal.main_arg0 (by decide)).trans ((Cert.KernelIdeal.Gen.V6_of m (o m) c Cert.KernelIdeal.main_arg0 (by decide)).trans ((Cert.KernelIdeal.Gen.V5_of m (o m) c Cert.KernelIdeal.main_arg0 (by decide)).trans ((Cert.KernelIdeal.Gen.V4_of m (o m) c Cert.KernelIdeal.main_arg0 (by decide)).trans ((Cert.KernelIdeal.Gen.V3_of m c Cert.KernelIdeal.main_arg0 (by decide)).trans ((Cert.KernelIdeal.Gen.V2_of m c Cert.KernelIdeal.main_arg0 (by decide)).trans (Cert.KernelIdeal.Gen.V1_of m c Cert.KernelIdeal.main_arg0 (by decide))))))))))).symm)
    ((((Cert.ReferenceIdeal.Hand.after_e3_of _ Cert.ReferenceIdeal.main_v48 (by decide)).trans ((Cert.ReferenceIdeal.Hand.after_e2_of _ Cert.ReferenceIdeal.main_v48 (by decide)).trans ((Cert.ReferenceIdeal.Hand.after_e1_of _ Cert.ReferenceIdeal.main_v48 (by decide)).trans ((Cert.ReferenceIdeal.Hand.after_d3_of _ Cert.ReferenceIdeal.main_v48 (by decide)).trans ((Cert.ReferenceIdeal.Hand.after_d2_of _ Cert.ReferenceIdeal.main_v48 (by decide)).trans (Cert.ReferenceIdeal.Hand.after_d1_of _ Cert.ReferenceIdeal.main_v48 (by decide))))))).trans (x1_eq m m' c h0 h1 h2 h3 h4)).trans ((Cert.KernelIdeal.Gen.V10_of m (o m) c Cert.KernelIdeal.main_v55_0 (by decide)).trans ((Cert.KernelIdeal.Gen.V9_of m (o m) c Cert.KernelIdeal.main_v55_0 (by decide)).trans ((Cert.KernelIdeal.Gen.V8_of m (o m) c Cert.KernelIdeal.main_v55_0 (by decide)).trans (Cert.KernelIdeal.Gen.V7_of m (o m) c Cert.KernelIdeal.main_v55_0 (by decide))))).symm)
    ((((Cert.ReferenceIdeal.Hand.after_e3_of _ Cert.ReferenceIdeal.main_v72 (by decide)).trans ((Cert.ReferenceIdeal.Hand.after_e2_of _ Cert.ReferenceIdeal.main_v72 (by decide)).trans (Cert.ReferenceIdeal.Hand.after_e1_of _ Cert.ReferenceIdeal.main_v72 (by decide)))).trans (x2_eq m m' c h0 h1 h2 h3 h4)).trans ((Cert.KernelIdeal.Gen.V10_of m (o m) c Cert.KernelIdeal.main_v77_0 (by decide)).trans (Cert.KernelIdeal.Gen.V9_of m (o m) c Cert.KernelIdeal.main_v77_0 (by decide))).symm)
    (x3_eq m m' c h0 h1 h2 h3 h4) ((((Cert.ReferenceIdeal.Hand.after_e3_of _ Cert.ReferenceIdeal.main_arg5 (by decide)).trans ((Cert.ReferenceIdeal.Hand.after_e2_of _ Cert.ReferenceIdeal.main_arg5 (by decide)).trans ((Cert.ReferenceIdeal.Hand.after_e1_of _ Cert.ReferenceIdeal.main_arg5 (by decide)).trans ((Cert.ReferenceIdeal.Hand.after_d3_of _ Cert.ReferenceIdeal.main_arg5 (by decide)).trans ((Cert.ReferenceIdeal.Hand.after_d2_of _ Cert.ReferenceIdeal.main_arg5 (by decide)).trans ((Cert.ReferenceIdeal.Hand.after_d1_of _ Cert.ReferenceIdeal.main_arg5 (by decide)).trans ((Cert.ReferenceIdeal.Hand.after_c3_of _ Cert.ReferenceIdeal.main_arg5 (by decide)).trans ((Cert.ReferenceIdeal.Hand.after_c2_of _ Cert.ReferenceIdeal.main_arg5 (by decide)).trans ((Cert.ReferenceIdeal.Hand.after_c1_of _ Cert.ReferenceIdeal.main_arg5 (by decide)).trans ((Cert.ReferenceIdeal.Hand.after_b_of _ Cert.ReferenceIdeal.main_arg5 (by decide)).trans (Cert.ReferenceIdeal.Hand.after_a_of _ Cert.ReferenceIdeal.main_arg5 (by decide)))))))))))).trans h5).trans ((Cert.KernelIdeal.Gen.V10_of m (o m) c Cert.KernelIdeal.main_arg5 (by decide)).trans ((Cert.KernelIdeal.Gen.V9_of m (o m) c Cert.KernelIdeal.main_arg5 (by decide)).trans ((Cert.KernelIdeal.Gen.V8_of m (o m) c Cert.KernelIdeal.main_arg5 (by decide)).trans ((Cert.KernelIdeal.Gen.V7_of m (o m) c Cert.KernelIdeal.main_arg5 (by decide)).trans ((Cert.KernelIdeal.Gen.V6_of m (o m) c Cert.KernelIdeal.main_arg5 (by decide)).trans ((Cert.KernelIdeal.Gen.V5_of m (o m) c Cert.KernelIdeal.main_arg5 (by decide)).trans ((Cert.KernelIdeal.Gen.V4_of m (o m) c Cert.KernelIdeal.main_arg5 (by decide)).trans ((Cert.KernelIdeal.Gen.V3_of m c Cert.KernelIdeal.main_arg5 (by decide)).trans ((Cert.KernelIdeal.Gen.V2_of m c Cert.KernelIdeal.main_arg5 (by decide)).trans (Cert.KernelIdeal.Gen.V1_of m c Cert.KernelIdeal.main_arg5 (by decide))))))))))).symm)

end Cert.Bridge

end
-- ==== Proof.lean ====
/-
  Three-layer message passing on a graph (150000 nodes, a million edges, 64 features): each layer forms the message
  `x·W₁ᵀ + (x∘x)·W₂ᵀ` of the current features, aggregates it over the edges with symmetric degree weights, and applies a
  leaky rectifier; the four feature arrays are concatenated and 16384 node pairs are scored by inner products.

  The kernel program computes each layer's message, and the rectifier of the layer before, in a row-blocked kernel (thirty
  blocks of 5000 rows, the weights as bf16 operands of the matrix unit), and leaves gathers, scatters and the scores to host
  operations; the reference does everything with host operations. On the extended reals a change of float format is the
  identity and a matrix product into the zero accumulator is the plain sum over the contracted axis, so the kernel's
  row blocks tile the same message array the reference's two `dot_general`s add up to, its pointwise rectifier is the
  reference's `where`, and every other stage is the same operations of agreeing arrays: the two programs end with the
  same scores. Nothing here needs the inputs finite: no law beyond reading both sides as the same sums is used.

  The three frames: each kernel region runs its body at every grid point and writes back disjoint row blocks of its own
  output arrays; no host operation and no region writes an argument. The idealization rewrote nothing, so `preserves`
  is trivial.
-/
import proofs.«125319_j22917945491468_1_alg».proof.Defs
import proofs.«125319_j22917945491468_1_alg».proof.Proof.Gen.Kernel
import proofs.«125319_j22917945491468_1_alg».proof.Proof.Gen.KernelIdeal
import proofs.«125319_j22917945491468_1_alg».proof.Proof.Gen.ReferenceIdeal
import proofs.«125319_j22917945491468_1_alg».proof.Proof.Gen.Pre_finite_inputs
import proofs.«125319_j22917945491468_1_alg».proof.Proof.KFrame
import proofs.«125319_j22917945491468_1_alg».proof.Proof.KIFrame
import proofs.«125319_j22917945491468_1_alg».proof.Proof.RefFrame
import proofs.«125319_j22917945491468_1_alg».proof.Proof.Bridge

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ => Cert.ReferenceIdeal.Hand.frame m ρ

/-- From memories agreeing on the arguments both programs run to the end, the arguments unchanged, with the same scores:
    the kernel program's result buffer after its last host stretch, which the reference's whole line reaches too. -/
theorem algebraic : Cert.algebraic_KernelIdeal_ReferenceIdeal := by
  intro m ρ m' ρ' _ hagree
  refine ⟨fun c => Cert.KernelIdeal.Gen.V11 m (Cert.KernelIdeal.Hand.outs m) c (Proc.devRef .tc Cert.KernelIdeal.main_v112),
    Cert.KernelIdeal.Hand.run_value m ρ, ?_⟩
  refine (θ_run Cert.ReferenceIdeal.defs _ _).mono (fun r h c => ⟨?_, (h c Cert.ReferenceIdeal.main_arg0).trans (Cert.ReferenceIdeal.Hand.after_ops_of _ Cert.ReferenceIdeal.main_arg0 (by decide)),
    (h c Cert.ReferenceIdeal.main_arg1).trans (Cert.ReferenceIdeal.Hand.after_ops_of _ Cert.ReferenceIdeal.main_arg1 (by decide)),
    (h c Cert.ReferenceIdeal.main_arg2).trans (Cert.ReferenceIdeal.Hand.after_ops_of _ Cert.ReferenceIdeal.main_arg2 (by decide)),
    (h c Cert.ReferenceIdeal.main_arg3).trans (Cert.ReferenceIdeal.Hand.after_ops_of _ Cert.ReferenceIdeal.main_arg3 (by decide)),
    (h c Cert.ReferenceIdeal.main_arg4).trans (Cert.ReferenceIdeal.Hand.after_ops_of _ Cert.ReferenceIdeal.main_arg4 (by decide)),
    (h c Cert.ReferenceIdeal.main_arg5).trans (Cert.ReferenceIdeal.Hand.after_ops_of _ Cert.ReferenceIdeal.main_arg5 (by decide))⟩)
    (Cert.ReferenceIdeal.Hand.run_after (F := Ideal) m' ρ')
  obtain ⟨a0, a1, a2, a3, a4, a5⟩ := hagree c
  exact (h c Cert.ReferenceIdeal.main_v117).trans (Cert.Bridge.result_eq m m' c a0 a1 a2 a3 a4 a5)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
